-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x64 .f32) (main_arg2 : FVec F S64x1024 .f32) (main_arg3 : FVec F S64x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_v13 main_v16
-- ==== Pre_finite_inputs_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x128 .f32) (main_arg2 : FVec F S128x1024 .f32) (main_arg3 : FVec F S128x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_v13 main_v16
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x64 : Shape := ⟨2, ![512, 64]⟩
abbrev S128x1024 : Shape := ⟨2, ![128, 1024]⟩
abbrev S2 : Shape := ⟨1, ![2]⟩
abbrev S_ : Shape := ⟨0, ![]⟩
abbrev S512x1024 : Shape := ⟨2, ![512, 1024]⟩
abbrev S1 : Shape := ⟨1, ![1]⟩
abbrev S512x512 : Shape := ⟨2, ![512, 512]⟩
abbrev S512x32 : Shape := ⟨2, ![512, 32]⟩
abbrev S2x256x16x64 : Shape := ⟨4, ![2, 256, 16, 64]⟩
abbrev S2x256x16x32 : Shape := ⟨4, ![2, 256, 16, 32]⟩
abbrev S2x256x16x96 : Shape := ⟨4, ![2, 256, 16, 96]⟩
abbrev S2x16x256x96 : Shape := ⟨4, ![2, 16, 256, 96]⟩
abbrev S32x256x96 : Shape := ⟨3, ![32, 256, 96]⟩
abbrev S512x128 : Shape := ⟨2, ![512, 128]⟩
abbrev S2x1x256x128 : Shape := ⟨4, ![2, 1, 256, 128]⟩
abbrev S2x16x256x128 : Shape := ⟨4, ![2, 16, 256, 128]⟩
abbrev S32x256x128 : Shape := ⟨3, ![32, 256, 128]⟩
abbrev S128x16x64 : Shape := ⟨3, ![128, 16, 64]⟩
abbrev S16x128x64 : Shape := ⟨3, ![16, 128, 64]⟩
abbrev S1x16x128x64 : Shape := ⟨4, ![1, 16, 128, 64]⟩
abbrev S2x16x128x64 : Shape := ⟨4, ![2, 16, 128, 64]⟩
abbrev S32x128x64 : Shape := ⟨3, ![32, 128, 64]⟩
abbrev S32x256x64 : Shape := ⟨3, ![32, 256, 64]⟩
abbrev S2x1x256x32 : Shape := ⟨4, ![2, 1, 256, 32]⟩
abbrev S2x16x256x32 : Shape := ⟨4, ![2, 16, 256, 32]⟩
abbrev S32x256x32 : Shape := ⟨3, ![32, 256, 32]⟩
abbrev S32x256x256 : Shape := ⟨3, ![32, 256, 256]⟩
abbrev S32x256 : Shape := ⟨2, ![32, 256]⟩
abbrev S32x256x1 : Shape := ⟨3, ![32, 256, 1]⟩
abbrev S2x16x256x64 : Shape := ⟨4, ![2, 16, 256, 64]⟩

abbrev nBuf : Space → Nat
  | .hbm => 9
  | .vmem => 13
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S2x256x1024, .f32⟩
  | .local _ .vmem, ⟨9, _⟩ => ⟨S512x64, .bf16⟩
  | .local _ .vmem, ⟨10, _⟩ => ⟨S512x64, .bf16⟩
  | .local _ .vmem, ⟨11, _⟩ => ⟨S128x1024, .bf16⟩
  | .local _ .vmem, ⟨12, _⟩ => ⟨S128x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  { ofTc nBuf bufTy 1 13 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_24 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_23 : BitVec 32 := 8#32
  let v41 : BitVec 32 := Scalar.muli v2 c8_i32_23
  let v42 : BitVec 32 := Scalar.addi c0_i32_24 v41
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_25 : BitVec 32 := 4#32
  let v43 : BitVec 32 := Scalar.muli v9 c4_i32_25
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v45 : BitVec 32 := Scalar.muli v8 c1_i32_26
  let v46 : BitVec 32 := Scalar.addi v44 v45
  v46.toNat
def k0_dev3 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v51 : BitVec 32 := Scalar.muli v2 c8_i32_29
  let v52 : BitVec 32 := Scalar.addi c0_i32_30 v51
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_31 : BitVec 32 := 4#32
  let v53 : BitVec 32 := Scalar.muli v9 c4_i32_31
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v55 : BitVec 32 := Scalar.muli v8 c1_i32_32
  let v56 : BitVec 32 := Scalar.addi v54 v55
  v56.toNat
abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

class Facts₀ : Prop where
  hamt_1 : (1#32 : BitVec 32).msb = false
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  shapeCasts_S2x256x1024_S512x1024 : S2x256x1024.ShapeCasts S512x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S512x64_S512x64_0_0 : ∀ a, (![0, 0] : Fin 2 → Nat) a + S512x64.size a ≤ S512x64.size a
  h_S512x64 : 0 < S512x64.numel
  shapeCasts_S512x64_S512x64 : S512x64.ShapeCasts S512x64
  packedbf16_S512x64_S512x64_0_0 : (Rect.unit (s := S512x64) ![0, 0] S512x64.size inb_S512x64_S512x64_0_0).PackedRows (EltTy.packing .bf16)
  inb_S128x1024_S64x1024_0_0 : ∀ a, (![0, 0] : Fin 2 → Nat) a + S64x1024.size a ≤ S128x1024.size a
  packedbf16_S128x1024_S64x1024_0_0 : (Rect.unit (s := S128x1024) ![0, 0] S64x1024.size inb_S128x1024_S64x1024_0_0).PackedRows (EltTy.packing .bf16)
  inb_S128x1024_S64x1024_64_0 : ∀ a, (![64, 0] : Fin 2 → Nat) a + S64x1024.size a ≤ S128x1024.size a
  packedbf16_S128x1024_S64x1024_64_0 : (Rect.unit (s := S128x1024) ![64, 0] S64x1024.size inb_S128x1024_S64x1024_64_0).PackedRows (EltTy.packing .bf16)
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  shapeCasts_S512x1024_S2x256x16x64 : S512x1024.ShapeCasts S2x256x16x64
  shapeCasts_S512x512_S2x256x16x32 : S512x512.ShapeCasts S2x256x16x32
  concatenates_S2x256x16x64_S2x256x16x32_S2x256x16x96_d3 : Shape.Concatenates [S2x256x16x64, S2x256x16x32] S2x256x16x96 3
  transposes_S2x256x16x96_p0_2_1_3_S2x16x256x96 : S2x256x16x96.Transposes [0, 2, 1, 3] S2x16x256x96
  shapeCasts_S2x16x256x96_S32x256x96 : S2x16x256x96.ShapeCasts S32x256x96
  concatenates_S512x64_S512x64_S512x128_d1 : Shape.Concatenates [S512x64, S512x64] S512x128 1
  shapeCasts_S512x128_S2x1x256x128 : S512x128.ShapeCasts S2x1x256x128
  shapeCasts_S2x1x256x128_S2x1x256x128 : S2x1x256x128.ShapeCasts S2x1x256x128
  broadcasts_S2x1x256x128_S2x16x256x128 : S2x1x256x128.Broadcasts S2x16x256x128
  shapeCasts_S2x16x256x128_S32x256x128 : S2x16x256x128.ShapeCasts S32x256x128
  concatenates_S64x1024_S64x1024_S128x1024_d0 : Shape.Concatenates [S64x1024, S64x1024] S128x1024 0
  shapeCasts_S128x1024_S128x16x64 : S128x1024.ShapeCasts S128x16x64
  transposes_S128x16x64_p1_0_2_S16x128x64 : S128x16x64.Transposes [1, 0, 2] S16x128x64
  shapeCasts_S16x128x64_S1x16x128x64 : S16x128x64.ShapeCasts S1x16x128x64
  shapeCasts_S1x16x128x64_S1x16x128x64 : S1x16x128x64.ShapeCasts S1x16x128x64
  broadcasts_S1x16x128x64_S2x16x128x64 : S1x16x128x64.Broadcasts S2x16x128x64
  shapeCasts_S2x16x128x64_S32x128x64 : S2x16x128x64.ShapeCasts S32x128x64
  shapeCasts_S512x32_S2x1x256x32 : S512x32.ShapeCasts S2x1x256x32
  shapeCasts_S2x1x256x32_S2x1x256x32 : S2x1x256x32.ShapeCasts S2x1x256x32
  broadcasts_S2x1x256x32_S2x16x256x32 : S2x1x256x32.Broadcasts S2x16x256x32
  shapeCasts_S2x16x256x32_S32x256x32 : S2x16x256x32.ShapeCasts S32x256x32
  concatenates_S32x256x64_S32x256x32_S32x256x96_d2 : Shape.Concatenates [S32x256x64, S32x256x32] S32x256x96 2
  reduces_S32x256x256_S32x256 : S32x256x256.Reduces [2] S32x256
  shapeCasts_S32x256_S32x256x1 : S32x256.ShapeCasts S32x256x1
  broadcasts_S32x256x1_S32x256x64 : S32x256x1.Broadcasts S32x256x64
  shapeCasts_S32x256x64_S2x16x256x64 : S32x256x64.ShapeCasts S2x16x256x64
  transposes_S2x16x256x64_p0_2_1_3_S2x256x16x64 : S2x16x256x64.Transposes [0, 2, 1, 3] S2x256x16x64
  shapeCasts_S2x256x16x64_S512x1024 : S2x256x16x64.ShapeCasts S512x1024
  shapeCasts_S512x1024_S2x256x1024 : S512x1024.ShapeCasts S2x256x1024
  dot_S512x1024_S1024x64_S512x64_1_0_0_1_n_n_wf : DotDims.WF S512x1024 S1024x64 S512x64 [1] [0] [0] [1] [] []
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x1024_S1024x32_S512x32_1_0_0_1_n_n_wf : DotDims.WF S512x1024 S1024x32 S512x32 [1] [0] [0] [1] [] []
  dot_S32x256x128_S32x128x64_S32x256x64_2_1_1_2_0_0_wf : DotDims.WF S32x256x128 S32x128x64 S32x256x64 [2] [1] [1] [2] [0] [0]
  dot_S32x256x96_S32x256x96_S32x256x256_2_2_1_1_0_0_wf : DotDims.WF S32x256x96 S32x256x96 S32x256x256 [2] [2] [1] [1] [0] [0]
  dot_S32x256x256_S32x256x64_S32x256x64_2_1_1_2_0_0_wf : DotDims.WF S32x256x256 S32x256x64 S32x256x64 [2] [1] [1] [2] [0] [0]
  hcc0_scratch4 : 9 + S2.numel ≤ 13
  hcc0_scratch5 : 11 + S2.numel ≤ 13
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole

variable [Facts₀]

abbrev cc0_scratch4 : DmaSems sig S2 := SemArray.consecutive 9 S2 hcc0_scratch4
abbrev cc0_scratch5 : DmaSems sig S2 := SemArray.consecutive 11 S2 hcc0_scratch5
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1024_S1024x32_S512x32_1_0_0_1_n_n : DotDims S512x1024 S1024x32 S512x32 where
  lhsContracting := [1]
  rhsContracting := [0]
  lhsNonContracting := [0]
  rhsNonContracting := [1]
  lhsBatch := []
  rhsBatch := []
  wf := dot_S512x1024_S1024x32_S512x32_1_0_0_1_n_n_wf
def dot_S32x256x128_S32x128x64_S32x256x64_2_1_1_2_0_0 : DotDims S32x256x128 S32x128x64 S32x256x64 where
  lhsContracting := [2]
  rhsContracting := [1]
  lhsNonContracting := [1]
  rhsNonContracting := [2]
  lhsBatch := [0]
  rhsBatch := [0]
  wf := dot_S32x256x128_S32x128x64_S32x256x64_2_1_1_2_0_0_wf
def dot_S32x256x96_S32x256x96_S32x256x256_2_2_1_1_0_0 : DotDims S32x256x96 S32x256x96 S32x256x256 where
  lhsContracting := [2]
  rhsContracting := [2]
  lhsNonContracting := [1]
  rhsNonContracting := [1]
  lhsBatch := [0]
  rhsBatch := [0]
  wf := dot_S32x256x96_S32x256x96_S32x256x256_2_2_1_1_0_0_wf
def dot_S32x256x256_S32x256x64_S32x256x64_2_1_1_2_0_0 : DotDims S32x256x256 S32x256x64 S32x256x64 where
  lhsContracting := [2]
  rhsContracting := [1]
  lhsNonContracting := [1]
  rhsNonContracting := [2]
  lhsBatch := [0]
  rhsBatch := [0]
  wf := dot_S32x256x256_S32x256x64_S32x256x64_2_1_1_2_0_0_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v1) true false (stage0_8 0) (sem0_8 0) (Memref.isWhole_whole _) (hstage0_8 0)

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x128, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x128, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S2x16x256x256, .f32⟩
  | .hbm, ⟨20, _⟩ => ⟨S2x256x16x32, .f32⟩
  | .hbm, ⟨21, _⟩ => ⟨S2x16x256x256, .f32⟩
  | .hbm, ⟨22, _⟩ => ⟨S2x16x256x256, .f32⟩
  | .hbm, ⟨23, _⟩ => ⟨S_, .f32⟩
  | .hbm, ⟨24, _⟩ => ⟨S2x16x256x256, .f32⟩
  | .hbm, ⟨25, _⟩ => ⟨S2x16x256x256, .f32⟩
  | .hbm, ⟨26, _⟩ => ⟨S_, .f32⟩
  | .hbm, ⟨27, _⟩ => ⟨S2x16x256, .f32⟩
  | .hbm, ⟨28, _⟩ => ⟨S2x16x256x1, .f32⟩
  | .hbm, ⟨29, _⟩ => ⟨S2x16x256x256, .f32⟩
  | .hbm, ⟨30, _⟩ => ⟨S2x16x256x256, .f32⟩
  | .hbm, ⟨31, _⟩ => ⟨S2x16x256x256, .f32⟩
  | .hbm, ⟨32, _⟩ => ⟨S_, .f32⟩
  | .hbm, ⟨33, _⟩ => ⟨S2x16x256, .f32⟩
  | .hbm, ⟨34, _⟩ => ⟨S2x16x256x1, .f32⟩
  | .hbm, ⟨35, _⟩ => ⟨S2x16x256x256, .f32⟩
  | .hbm, ⟨36, _⟩ => ⟨S2x16x256x256, .f32⟩
  | .hbm, ⟨37, _⟩ => ⟨S2x16x64x256, .f32⟩
  | .hbm, ⟨38, _⟩ => ⟨S2x256x16x64, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S2x256x1024_S2x256x16x64 : S2x256x1024.ShapeCasts S2x256x16x64
  shapeCasts_S2x256x512_S2x256x16x32 : S2x256x512.ShapeCasts S2x256x16x32
  shapeCasts_S2x256x32_S2x256x1x32 : S2x256x32.ShapeCasts S2x256x1x32
  bcast_S2x256x1x32_S2x256x16x32_0_1_2_3 : S2x256x1x32.BroadcastsInDim S2x256x16x32 (![0, 1, 2, 3] : Fin 4 → Fin S2x256x16x32.rank)
  bcast_S_S2x16x256x256 : S_.BroadcastsInDim S2x16x256x256 (![] : Fin 0 → Fin S2x16x256x256.rank)
  reducesTo_S2x16x256x256_S2x16x256_d3 : S2x16x256x256.ReducesTo [3] S2x16x256
  h_S_ : 0 < S_.numel
  bcast_S2x16x256_S2x16x256x1_0_1_2 : S2x16x256.BroadcastsInDim S2x16x256x1 (![0, 1, 2] : Fin 3 → Fin S2x16x256x1.rank)
  bcast_S2x16x256x1_S2x16x256x256_0_1_2_3 : S2x16x256x1.BroadcastsInDim S2x16x256x256 (![0, 1, 2, 3] : Fin 4 → Fin S2x16x256x256.rank)
  transposes_S2x16x64x256_S2x256x16x64_0_3_1_2 : S2x16x64x256.Transposes [0, 3, 1, 2] S2x256x16x64
  shapeCasts_S2x256x16x64_S2x256x1024 : S2x256x16x64.ShapeCasts S2x256x1024
  dot_S2x256x1024_S1024x128_S2x256x128_2_0_01_1_n_n_wf : DotDims.WF S2x256x1024 S1024x128 S2x256x128 [2] [0] [0, 1] [1] [] []
  dot_S2x256x128_S128x1024_S2x256x1024_2_0_01_1_n_n_wf : DotDims.WF S2x256x128 S128x1024 S2x256x1024 [2] [0] [0, 1] [1] [] []
  dot_S2x256x1024_S1024x1024_S2x256x1024_2_0_01_1_n_n_wf : DotDims.WF S2x256x1024 S1024x1024 S2x256x1024 [2] [0] [0, 1] [1] [] []
  dot_S2x256x1024_S1024x512_S2x256x512_2_0_01_1_n_n_wf : DotDims.WF S2x256x1024 S1024x512 S2x256x512 [2] [0] [0, 1] [1] [] []
  dot_S2x256x1024_S1024x32_S2x256x32_2_0_01_1_n_n_wf : DotDims.WF S2x256x1024 S1024x32 S2x256x32 [2] [0] [0, 1] [1] [] []
  dot_S2x256x16x64_S2x256x16x64_S2x16x256x256_3_3_1_1_02_02_wf : DotDims.WF S2x256x16x64 S2x256x16x64 S2x16x256x256 [3] [3] [1] [1] [0, 2] [0, 2]
  dot_S2x256x16x32_S2x256x16x32_S2x16x256x256_3_3_1_1_02_02_wf : DotDims.WF S2x256x16x32 S2x256x16x32 S2x16x256x256 [3] [3] [1] [1] [0, 2] [0, 2]
  dot_S2x256x16x64_S2x16x256x256_S2x16x64x256_1_3_3_2_02_01_wf : DotDims.WF S2x256x16x64 S2x16x256x256 S2x16x64x256 [1] [3] [3] [2] [0, 2] [0, 1]

variable [Facts₀]

def dot_S2x256x1024_S1024x128_S2x256x128_2_0_01_1_n_n : DotDims S2x256x1024 S1024x128 S2x256x128 where
  lhsContracting := [2]
  rhsContracting := [0]
  lhsNonContracting := [0, 1]
  rhsNonContracting := [1]
  lhsBatch := []
  rhsBatch := []
  wf := dot_S2x256x1024_S1024x128_S2x256x128_2_0_01_1_n_n_wf
def dot_S2x256x128_S128x1024_S2x256x1024_2_0_01_1_n_n : DotDims S2x256x128 S128x1024 S2x256x1024 where
  lhsContracting := [2]
  rhsContracting := [0]
  lhsNonContracting := [0, 1]
  rhsNonContracting := [1]
  lhsBatch := []
  rhsBatch := []
  wf := dot_S2x256x128_S128x1024_S2x256x1024_2_0_01_1_n_n_wf
def dot_S2x256x1024_S1024x1024_S2x256x1024_2_0_01_1_n_n : DotDims S2x256x1024 S1024x1024 S2x256x1024 where
  lhsContracting := [2]
  rhsContracting := [0]
  lhsNonContracting := [0, 1]
  rhsNonContracting := [1]
  lhsBatch := []
  rhsBatch := []
  wf := dot_S2x256x1024_S1024x1024_S2x256x1024_2_0_01_1_n_n_wf
def dot_S2x256x1024_S1024x512_S2x256x512_2_0_01_1_n_n : DotDims S2x256x1024 S1024x512 S2x256x512 where
  lhsContracting := [2]
  rhsContracting := [0]
  lhsNonContracting := [0, 1]
  rhsNonContracting := [1]
  lhsBatch := []
  rhsBatch := []
  wf := dot_S2x256x1024_S1024x512_S2x256x512_2_0_01_1_n_n_wf
def dot_S2x256x1024_S1024x32_S2x256x32_2_0_01_1_n_n : DotDims S2x256x1024 S1024x32 S2x256x32 where
  lhsContracting := [2]
  rhsContracting := [0]
  lhsNonContracting := [0, 1]
  rhsNonContracting := [1]
  lhsBatch := []
  rhsBatch := []
  wf := dot_S2x256x1024_S1024x32_S2x256x32_2_0_01_1_n_n_wf
def dot_S2x256x16x64_S2x256x16x64_S2x16x256x256_3_3_1_1_02_02 : DotDims S2x256x16x64 S2x256x16x64 S2x16x256x256 where
  lhsContracting := [3]
  rhsContracting := [3]
  lhsNonContracting := [1]
  rhsNonContracting := [1]
  lhsBatch := [0, 2]
  rhsBatch := [0, 2]
  wf := dot_S2x256x16x64_S2x256x16x64_S2x16x256x256_3_3_1_1_02_02_wf
def dot_S2x256x16x32_S2x256x16x32_S2x16x256x256_3_3_1_1_02_02 : DotDims S2x256x16x32 S2x256x16x32 S2x16x256x256 where
  lhsContracting := [3]
  rhsContracting := [3]
  lhsNonContracting := [1]
  rhsNonContracting := [1]
  lhsBatch := [0, 2]
  rhsBatch := [0, 2]
  wf := dot_S2x256x16x32_S2x256x16x32_S2x16x256x256_3_3_1_1_02_02_wf
def dot_S2x256x16x64_S2x16x256x256_S2x16x64x256_1_3_3_2_02_01 : DotDims S2x256x16x64 S2x16x256x256 S2x16x64x256 where
  lhsContracting := [1]
  rhsContracting := [3]
  lhsNonContracting := [3]
  rhsNonContracting := [2]
  lhsBatch := [0, 2]
  rhsBatch := [0, 1]
  wf := dot_S2x256x16x64_S2x16x256x256_S2x16x64x256_1_3_3_2_02_01_wf

class Facts : Prop extends Facts₀ where

variable [Facts]
-- ==== Proof.KernelOut.lean ====
/-
  The result of one device, as one term.

  Each device holds the whole activations x, its 64 columns of the down-projection Wdkv and its 64 rows of the two
  up-projections Wuk and Wuv; the other half of each lies on the device with the same x and z mesh coordinates and the
  other y coordinate (its partner). A device computes its 64 columns of the latent x · Wdkv, sends them and its rows of
  Wuk and Wuv to the partner, receives the partner's, and from then on works alone: keys, values, queries, scores,
  softmax weights, the weighted values and the output projection. So the result block is a function of the device's own
  eight argument blocks and of three received pieces, and each received piece is a function of the partner's blocks.
-/
import proofs.«900378_g7700000000000379_dist_mla_v7x_xyz2x2x4_y_b2_s256_d1024_dc64_f32_1_alg».proof.Proof.Gen.Kernel.Skeleton

noncomputable section

namespace Cert.Kernel.Out

open Idealize.ShloMosaic Idealize.SL.Sem Cert.Kernel Cert.Kernel.Gen

variable {F : FTy → Type} [FloatOps F]

/-- The device a device exchanges halves with: the same x and z mesh coordinates, the other y. -/
def partner (c : Dev nD) : Dev nD := ⟨k0_dev2 c, Facts₀.k0_dev2_lt c⟩

/-- What a device sends of the latent: its 64 columns of x · Wdkv, rows (b, s) flattened to 512. -/
def latentHalf (x : Vec F S2x256x1024 .f32) (wdkv : Vec F S1024x64 .f32) : FVec F S512x64 .bf16 :=
  k0_pay6 (k0_pay5 x wdkv)

/-- What a device sends of the key up-projection: its 64 rows of Wuk. -/
def ukHalf (wuk : Vec F S64x1024 .f32) : FVec F S64x1024 .bf16 := k0_pay7 (k0_pay3 wuk)

/-- What a device sends of the value up-projection: its 64 rows of Wuv. -/
def uvHalf (wuv : Vec F S64x1024 .f32) : FVec F S64x1024 .bf16 := k0_pay8 (k0_pay4 wuv)

/-- The result block from the device's own argument blocks and the three received pieces `cr` (the partner's latent
    columns), `ukr` and `uvr` (the partner's rows of Wuk and Wuv). -/
def result (x : Vec F S2x256x1024 .f32) (wdkv : Vec F S1024x64 .f32) (wuk wuv : Vec F S64x1024 .f32)
    (wq : Vec F S1024x1024 .f32) (wqr : Vec F S1024x512 .f32) (wkr : Vec F S1024x32 .f32) (wo : Vec F S1024x1024 .f32)
    (cr : Vec F S512x64 .bf16) (ukr uvr : Vec F S64x1024 .bf16) : FVec F S2x256x1024 .f32 :=
  k0_pay1 (k0_pay12 (k0_pay3 wuk) (k0_pay4 wuv) (k0_pay5 x wdkv) (k0_pay10 (k0_pay2 x) wkr)
    (k0_pay11 (k0_pay2 x) (k0_pay9 (k0_pay2 x) wq) wqr) cr ukr uvr) wo

end Cert.Kernel.Out

end
-- ==== Proof.KernelProto.lean ====
/-
  The exchange between partners, as a schedule of rounds.

  The sixteen devices form eight pairs: a device and the one with the same x and z mesh coordinates and the other y.
  Within a pair each device holds one half of the latent projection Wdkv (64 of its 128 columns) and of the two
  up-projections (64 of their 128 rows). A device first tells its partner that it has entered (one unit on the partner's
  barrier cell) and waits for the same from the partner; only then may either write into the other's landing buffers.
  It then sends two buffers — its 64 latent columns, and its rows of Wuk stacked on its rows of Wuv — each by one copy
  that credits a send cell of its own (once the source is read) and a receive cell of the partner's (once the destination
  is written), and waits on its own four cells. Every cell has one round of one duty:

    cell of device c      paid by                 units                     what the owner learns
    barrier               the partner's signal    1                         the partner's two landing buffers are its own
                                                                             again to write into, and the partner is at
                                                                             round 0 of both receive cells
    send (latent)         c's own copy            the buffer's credit       the latent send buffer back, unchanged
    receive (latent)      the partner's copy      the same                  the landing buffer holds the partner's columns
    send (weights)        c's own copy            the buffer's credit       the stacked send buffer back, unchanged
    receive (weights)     the partner's copy      the same                  the landing buffer holds the partner's rows

  No wait can block for ever: a device waits on its barrier cell while it still owes the partner's two receive cells,
  and those stand above every barrier cell; at its other waits it owes nothing.
-/
import proofs.«900378_g7700000000000379_dist_mla_v7x_xyz2x2x4_y_b2_s256_d1024_dc64_f32_1_alg».proof.Proof.KernelOut
import proofs.«900378_g7700000000000379_dist_mla_v7x_xyz2x2x4_y_b2_s256_d1024_dc64_f32_1_alg».proof.Proof.Gen.Kernel.Launch
import proofs.«900378_g7700000000000379_dist_mla_v7x_xyz2x2x4_y_b2_s256_d1024_dc64_f32_1_alg».proof.Proof.Gen.Kernel.Points
import proofs.«900378_g7700000000000379_dist_mla_v7x_xyz2x2x4_y_b2_s256_d1024_dc64_f32_1_alg».proof.Proof.Gen.Kernel.Frame
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, side by side -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Partners -/

/-- The partner: the same x and z mesh coordinates, the other y. -/
abbrev pt (c : Dev nD) : Dev nD := Out.partner c

theorem pt_val (c : Dev nD) : (pt c).val = (8 * (c.val / 8) + (c.val % 4) + 4) - 4 * ((c.val / 4) % 2) := k0_dev2_eq c

/-- The partner's partner is the device itself. -/
theorem pt_pt (c : Dev nD) : pt (pt c) = c := by
  apply Fin.ext
  have h1 := pt_val (pt c)
  have h2 := pt_val c
  have hc := c.isLt
  omega

theorem pt_ne (c : Dev nD) : pt c ≠ c := fun h => by
  have h2 := pt_val c
  have h3 := congrArg Fin.val h
  have hc := c.isLt
  omega

/-- The three device words the body computes all name the partner. -/
theorem dev1_eq (c : Dev nD) : (⟨k0_dev1 c, Facts₀.k0_dev1_lt c⟩ : Dev nD) = pt c := Fin.ext ((k0_dev1_eq c).trans (k0_dev2_eq c).symm)
theorem dev2_eq (c : Dev nD) : (⟨k0_dev2 c, Facts₀.k0_dev2_lt c⟩ : Dev nD) = pt c := rfl
theorem dev3_eq (c : Dev nD) : (⟨k0_dev3 c, Facts₀.k0_dev3_lt c⟩ : Dev nD) = pt c := Fin.ext ((k0_dev3_eq c).trans (k0_dev2_eq c).symm)

def pair : Dev nD ≃ Dev nD := ⟨pt, pt, pt_pt, pt_pt⟩

/-! ## The buffers and the cells -/

/-- The latent send and landing buffers, the stacked-weights send and landing buffers. -/
abbrev lsM : Memref sig .tc .vmem S512x64 .bf16 := Memref.whole cc0_scratch0
abbrev lrM : Memref sig .tc .vmem S512x64 .bf16 := Memref.whole cc0_scratch1
abbrev wsM : Memref sig .tc .vmem S128x1024 .bf16 := Memref.whole cc0_scratch2
abbrev wrM : Memref sig .tc .vmem S128x1024 .bf16 := Memref.whole cc0_scratch3

/-- The runtime's barrier semaphore of collective id 0, and the four semaphores of the two copies. -/
abbrev barS : Sem sig := (SemArray.scalar (sig.barrier 0 rfl) : Sems sig S_).sem
abbrev ls0 : DmaSems sig S_ := (cc0_scratch4.slice (Rect.unit (s := S2) ![0] S1.size Facts₀.inb_S2_S1_0)).squeeze S_ Facts₀.squeezes_S1_S_
abbrev ws0 : DmaSems sig S_ := (cc0_scratch4.slice (Rect.unit (s := S2) ![1] S1.size Facts₀.inb_S2_S1_1)).squeeze S_ Facts₀.squeezes_S1_S_
abbrev lr0 : DmaSems sig S_ := (cc0_scratch5.slice (Rect.unit (s := S2) ![0] S1.size Facts₀.inb_S2_S1_0)).squeeze S_ Facts₀.squeezes_S1_S_
abbrev wr0 : DmaSems sig S_ := (cc0_scratch5.slice (Rect.unit (s := S2) ![1] S1.size Facts₀.inb_S2_S1_1)).squeeze S_ Facts₀.squeezes_S1_S_

abbrev barCell (c : Dev nD) : GSem nD τ sig := ((c : Thread nD τ), .reg barS)
abbrev lsCell (c : Dev nD) : GSem nD τ sig := ((c : Thread nD τ), .dma ls0.sem)
abbrev lrCell (c : Dev nD) : GSem nD τ sig := ((c : Thread nD τ), .dma lr0.sem)
abbrev wsCell (c : Dev nD) : GSem nD τ sig := ((c : Thread nD τ), .dma ws0.sem)
abbrev wrCell (c : Dev nD) : GSem nD τ sig := ((c : Thread nD τ), .dma wr0.sem)

/-- The kernel's own (scoped) semaphores, as the launch indexes them; -/
abbrev osem : Fin 4 → SemLoc sig := fun | 0 => .dma ls0.sem | 1 => .dma lr0.sem | 2 => .dma ws0.sem | 3 => .dma wr0.sem
/-- all five of the exchange's: barrier, latent send and receive, weights send and receive. -/
abbrev csem : Fin 5 → SemLoc sig := fun | 0 => .reg barS | 1 => .dma ls0.sem | 2 => .dma lr0.sem | 3 => .dma ws0.sem | 4 => .dma wr0.sem
abbrev kcell (ck : Dev nD × Fin 5) : GSem nD τ sig := ((ck.1 : Thread nD τ), csem ck.2)

abbrev NL : ℕ := (lsM : Memref sig .tc .vmem S512x64 .bf16).view.dmaCredit
abbrev NW : ℕ := (wsM : Memref sig .tc .vmem S128x1024 .bf16).view.dmaCredit
theorem NL_pos : 0 < NL := View.dmaCredit_pos _ (by decide)
theorem NW_pos : 0 < NW := View.dmaCredit_pos _ (by decide)

/-! ## Contents -/

/-- A device's eight argument blocks as the pipeline stages them: each window's block is its whole array. -/
def a0 (c : Dev nD) : (cc0_stg0_0 : Ref sig .tc).ty.Contents (Elt F) := (win0_0.blk t0_0).view.read (Elt F) (m ((c : Thread nD τ).loc main_arg0))
def a1 (c : Dev nD) : (cc0_stg1_0 : Ref sig .tc).ty.Contents (Elt F) := (win0_1.blk t0_0).view.read (Elt F) (m ((c : Thread nD τ).loc main_arg1))
def a2 (c : Dev nD) : (cc0_stg2_0 : Ref sig .tc).ty.Contents (Elt F) := (win0_2.blk t0_0).view.read (Elt F) (m ((c : Thread nD τ).loc main_arg2))
def a3 (c : Dev nD) : (cc0_stg3_0 : Ref sig .tc).ty.Contents (Elt F) := (win0_3.blk t0_0).view.read (Elt F) (m ((c : Thread nD τ).loc main_arg3))
def a4 (c : Dev nD) : (cc0_stg4_0 : Ref sig .tc).ty.Contents (Elt F) := (win0_4.blk t0_0).view.read (Elt F) (m ((c : Thread nD τ).loc main_arg4))
def a5 (c : Dev nD) : (cc0_stg5_0 : Ref sig .tc).ty.Contents (Elt F) := (win0_5.blk t0_0).view.read (Elt F) (m ((c : Thread nD τ).loc main_arg5))
def a6 (c : Dev nD) : (cc0_stg6_0 : Ref sig .tc).ty.Contents (Elt F) := (win0_6.blk t0_0).view.read (Elt F) (m ((c : Thread nD τ).loc main_arg6))
def a7 (c : Dev nD) : (cc0_stg7_0 : Ref sig .tc).ty.Contents (Elt F) := (win0_7.blk t0_0).view.read (Elt F) (m ((c : Thread nD τ).loc main_arg7))

/-- What a device sends: its latent columns; its rows of the two up-projections. -/
def latOf (c : Dev nD) : (cc0_scratch0 : Ref sig .tc).ty.Contents (Elt F) := Out.latentHalf (a0 m c) (a1 m c)
def ukOf (c : Dev nD) : FVec F S64x1024 .bf16 := Out.ukHalf (a2 m c)
def uvOf (c : Dev nD) : FVec F S64x1024 .bf16 := Out.uvHalf (a3 m c)

abbrev rTop : Rect S128x1024 := Rect.unit (s := S128x1024) ![0, 0] S64x1024.size Facts₀.inb_S128x1024_S64x1024_0_0
abbrev rBot : Rect S128x1024 := Rect.unit (s := S128x1024) ![64, 0] S64x1024.size Facts₀.inb_S128x1024_S64x1024_64_0

/-- The stacked buffer: the rows of Wuk (rows 0 to 63) on the rows of Wuv (rows 64 to 127), as two pieces written over
    a base nothing of which is left. -/
def stackOf (c : Dev nD) : (cc0_scratch2 : Ref sig .tc).ty.Contents (Elt F) :=
  (wsM : Memref sig .tc .vmem S128x1024 .bf16).view.writes (Elt F) (fun _ => ukOf m c (ValueIdx.ix2 0 0))
    [⟨rBot, uvOf m c⟩, ⟨rTop, ukOf m c⟩]

omit [FloatOps F] in
/-- The two pieces cover the 128 rows: a row below 64 lies in the top piece, any other in the bottom one. -/
theorem stack_cover (u v : FVec F S64x1024 .bf16) (y : S128x1024.Idx) :
    ∃ p ∈ ([⟨rBot, v⟩, ⟨rTop, u⟩] : List (View.Piece (Elt F) S128x1024 .bf16)), y ∈ p.1.set := by
  have h1 : (y 1).val < 1024 := (y 1).isLt
  have h0 : (y 0).val < 128 := (y 0).isLt
  by_cases h : (y 0).val < 64
  · have hm : y ∈ rTop.set := Rect.mem_set_unit.mpr fun a => by
      match a with
      | ⟨0, _⟩ => exact ⟨Nat.zero_le _, by show (y 0).val < 0 + 64; omega⟩
      | ⟨1, _⟩ => exact ⟨Nat.zero_le _, by show (y 1).val < 0 + 1024; omega⟩
    exact ⟨⟨rTop, u⟩, List.mem_cons_of_mem _ (List.mem_singleton.mpr rfl), hm⟩
  · have hm : y ∈ rBot.set := Rect.mem_set_unit.mpr fun a => by
      match a with
      | ⟨0, _⟩ => exact ⟨by show 64 ≤ (y 0).val; omega, by show (y 0).val < 64 + 64; omega⟩
      | ⟨1, _⟩ => exact ⟨Nat.zero_le _, by show (y 1).val < 0 + 1024; omega⟩
    exact ⟨⟨rBot, v⟩, List.mem_cons_self .., hm⟩

/-- So the stacked buffer is the same whatever it was written over. -/
theorem stack_stored (c : Dev nD) (f : (cc0_scratch2 : Ref sig .tc).ty.Contents (Elt F)) :
    (wsM : Memref sig .tc .vmem S128x1024 .bf16).view.writes (Elt F) f [⟨rBot, uvOf m c⟩, ⟨rTop, ukOf m c⟩] = stackOf m c := by
  have h := View.read_writes_of_cover (View.whole cc0_scratch2) f (View.whole cc0_scratch2) (fun _ => ukOf m c (ValueIdx.ix2 0 0))
    [⟨rBot, uvOf m c⟩, ⟨rTop, ukOf m c⟩] (stack_cover (ukOf m c) (uvOf m c))
  rw [View.read_whole, View.read_whole] at h
  exact h

/-- The result block: the device's own eight blocks and the partner's three pieces. -/
def outOf (c : Dev nD) : (cc0_stg8_0 : Ref sig .tc).ty.Contents (Elt F) :=
  Out.result (a0 m c) (a1 m c) (a2 m c) (a3 m c) (a4 m c) (a5 m c) (a6 m c) (a7 m c) (latOf m (pt c)) (ukOf m (pt c)) (uvOf m (pt c))

def lsPts (c : Dev nD) (f : Buf (Elt F) ((lsM : Memref sig .tc .vmem S512x64 .bf16).view.loc (c : Thread nD τ))) : sProp 𝕄 :=
  (lsM : Memref sig .tc .vmem S512x64 .bf16).view.loc (c : Thread nD τ) ↦[(lsM : Memref sig .tc .vmem S512x64 .bf16).view.set]{fullShare} f
def lrPts (c : Dev nD) (f : Buf (Elt F) ((lrM : Memref sig .tc .vmem S512x64 .bf16).view.loc (c : Thread nD τ))) : sProp 𝕄 :=
  (lrM : Memref sig .tc .vmem S512x64 .bf16).view.loc (c : Thread nD τ) ↦[(lrM : Memref sig .tc .vmem S512x64 .bf16).view.set]{fullShare} f
def wsPts (c : Dev nD) (f : Buf (Elt F) ((wsM : Memref sig .tc .vmem S128x1024 .bf16).view.loc (c : Thread nD τ))) : sProp 𝕄 :=
  (wsM : Memref sig .tc .vmem S128x1024 .bf16).view.loc (c : Thread nD τ) ↦[(wsM : Memref sig .tc .vmem S128x1024 .bf16).view.set]{fullShare} f
def wrPts (c : Dev nD) (f : Buf (Elt F) ((wrM : Memref sig .tc .vmem S128x1024 .bf16).view.loc (c : Thread nD τ))) : sProp 𝕄 :=
  (wrM : Memref sig .tc .vmem S128x1024 .bf16).view.loc (c : Thread nD τ) ↦[(wrM : Memref sig .tc .vmem S128x1024 .bf16).view.set]{fullShare} f

omit [FloatOps F] in
instance lsPts_storable (c : Dev nD) (f) : BI.Storable (upEmb : UEmb _ 𝕄) (lsPts (F := F) c f) := by unfold lsPts; infer_instance
omit [FloatOps F] in
instance lrPts_storable (c : Dev nD) (f) : BI.Storable (upEmb : UEmb _ 𝕄) (lrPts (F := F) c f) := by unfold lrPts; infer_instance
omit [FloatOps F] in
instance wsPts_storable (c : Dev nD) (f) : BI.Storable (upEmb : UEmb _ 𝕄) (wsPts (F := F) c f) := by unfold wsPts; infer_instance
omit [FloatOps F] in
instance wrPts_storable (c : Dev nD) (f) : BI.Storable (upEmb : UEmb _ 𝕄) (wrPts (F := F) c f) := by unfold wrPts; infer_instance

/-! ## The schedule -/

/-- What the partner's signal hands a device: the partner's two landing buffers, and that the partner is at round 0 of
    both its receive cells. -/
def barPay (c : Dev nD) : sProp 𝕄 :=
  iprop((∃ f, lrPts (pt c) f) ∗ (∃ f, wrPts (pt c) f) ∗ reached ER (lrCell (pt c)) 0 ∗ reached ER (wrCell (pt c)) 0)
def lsPay (c : Dev nD) : sProp 𝕄 := lsPts c (latOf m c)
def lrPay (c : Dev nD) : sProp 𝕄 := lrPts c (latOf m (pt c))
def wsPay (c : Dev nD) : sProp 𝕄 := wsPts c (stackOf m c)
def wrPay (c : Dev nD) : sProp 𝕄 := wrPts c (stackOf m (pt c))

abbrev IsOurs (g : GSem nD τ sig) : Prop :=
  g.1.2 = .tc ∧ (g.2 = .reg barS ∨ g.2 = .dma ls0.sem ∨ g.2 = .dma lr0.sem ∨ g.2 = .dma ws0.sem ∨ g.2 = .dma wr0.sem)

/-- One round, round 0, one duty in it, on each of a device's five cells. -/
def xchg : Rounds.Schedule (GSem nD τ sig) Unit 𝕄 where
  duties g r := if r = 0 ∧ IsOurs g then {()} else ∅
  unitless _ := False
  amount g _ _ := if g.2 = .reg barS then 1 else if g.2 = .dma ls0.sem ∨ g.2 = .dma lr0.sem then NL else NW
  payload g _ _ :=
    if g.2 = .reg barS then barPay g.1.1
    else if g.2 = .dma ls0.sem then lsPay m g.1.1
    else if g.2 = .dma lr0.sem then lrPay m g.1.1
    else if g.2 = .dma ws0.sem then wsPay m g.1.1
    else if g.2 = .dma wr0.sem then wrPay m g.1.1
    else iprop(emp)
  amount_pos g _ _ _ := by
    by_cases h : g.2 = .reg barS
    · rw [if_pos h]; exact Nat.one_pos
    · rw [if_neg h]; split
      · exact NL_pos
      · exact NW_pos

instance xchg_payload_storable (g : GSem nD τ sig) (r : ℕ) (d : Unit) :
    BI.Storable (upEmb : UEmb _ 𝕄) ((xchg (F := F) m).payload g r d) := by
  show BI.Storable upEmb (if g.2 = .reg barS then barPay g.1.1
    else if g.2 = .dma ls0.sem then lsPay m g.1.1
    else if g.2 = .dma lr0.sem then lrPay m g.1.1
    else if g.2 = .dma ws0.sem then wsPay m g.1.1
    else if g.2 = .dma wr0.sem then wrPay m g.1.1
    else iprop(emp))
  unfold barPay lsPay lrPay wsPay wrPay
  (repeat' split) <;> infer_instance

section Sched
variable (c : Dev nD)

theorem ls_ne_bar : (SemLoc.dma ls0.sem : SemLoc sig) ≠ .reg barS := fun h => by cases h
theorem lr_ne_bar : (SemLoc.dma lr0.sem : SemLoc sig) ≠ .reg barS := fun h => by cases h
theorem ws_ne_bar : (SemLoc.dma ws0.sem : SemLoc sig) ≠ .reg barS := fun h => by cases h
theorem wr_ne_bar : (SemLoc.dma wr0.sem : SemLoc sig) ≠ .reg barS := fun h => by cases h
theorem lr_ne_ls : (SemLoc.dma lr0.sem : SemLoc sig) ≠ .dma ls0.sem := by decide
theorem ws_ne_ls : (SemLoc.dma ws0.sem : SemLoc sig) ≠ .dma ls0.sem := by decide
theorem ws_ne_lr : (SemLoc.dma ws0.sem : SemLoc sig) ≠ .dma lr0.sem := by decide
theorem wr_ne_ls : (SemLoc.dma wr0.sem : SemLoc sig) ≠ .dma ls0.sem := by decide
theorem wr_ne_lr : (SemLoc.dma wr0.sem : SemLoc sig) ≠ .dma lr0.sem := by decide
theorem wr_ne_ws : (SemLoc.dma wr0.sem : SemLoc sig) ≠ .dma ws0.sem := by decide

@[sl_rounds] theorem duties_bar : (xchg (F := F) m).duties (barCell c) 0 = {()} := by dsimp only [xchg]; exact if_pos ⟨rfl, rfl, .inl rfl⟩
@[sl_rounds] theorem duties_ls : (xchg (F := F) m).duties (lsCell c) 0 = {()} := by dsimp only [xchg]; exact if_pos ⟨rfl, rfl, .inr (.inl rfl)⟩
@[sl_rounds] theorem duties_lr : (xchg (F := F) m).duties (lrCell c) 0 = {()} := by dsimp only [xchg]; exact if_pos ⟨rfl, rfl, .inr (.inr (.inl rfl))⟩
@[sl_rounds] theorem duties_ws : (xchg (F := F) m).duties (wsCell c) 0 = {()} := by dsimp only [xchg]; exact if_pos ⟨rfl, rfl, .inr (.inr (.inr (.inl rfl)))⟩
@[sl_rounds] theorem duties_wr : (xchg (F := F) m).duties (wrCell c) 0 = {()} := by dsimp only [xchg]; exact if_pos ⟨rfl, rfl, .inr (.inr (.inr (.inr rfl)))⟩
theorem duties_later (g : GSem nD τ sig) : ∀ r, 1 ≤ r → (xchg (F := F) m).duties g r = ∅ :=
  fun r hr => by dsimp only [xchg]; rw [if_neg fun h => by omega]

@[sl_rounds] theorem amount_bar (d : Unit) : (xchg (F := F) m).amount (barCell c) 0 d = 1 := by dsimp only [xchg]; exact if_pos rfl
@[sl_rounds] theorem amount_ls (d : Unit) : (xchg (F := F) m).amount (lsCell c) 0 d = NL := by
  dsimp only [xchg]; rw [if_neg ls_ne_bar]; exact if_pos (.inl rfl)
@[sl_rounds] theorem amount_lr (d : Unit) : (xchg (F := F) m).amount (lrCell c) 0 d = NL := by
  dsimp only [xchg]; rw [if_neg lr_ne_bar]; exact if_pos (.inr rfl)
@[sl_rounds] theorem amount_ws (d : Unit) : (xchg (F := F) m).amount (wsCell c) 0 d = NW := by
  dsimp only [xchg]; rw [if_neg ws_ne_bar]; exact if_neg (fun h => h.elim ws_ne_ls ws_ne_lr)
@[sl_rounds] theorem amount_wr (d : Unit) : (xchg (F := F) m).amount (wrCell c) 0 d = NW := by
  dsimp only [xchg]; rw [if_neg wr_ne_bar]; exact if_neg (fun h => h.elim wr_ne_ls wr_ne_lr)

@[sl_rounds] theorem expect_bar : (xchg (F := F) m).expect (barCell c) 0 = 1 := by
  unfold Schedule.expect Schedule.amountOf; rw [duties_bar, Finset.sum_singleton, amount_bar]
@[sl_rounds] theorem expect_ls : (xchg (F := F) m).expect (lsCell c) 0 = NL := by
  unfold Schedule.expect Schedule.amountOf; rw [duties_ls, Finset.sum_singleton, amount_ls]
@[sl_rounds] theorem expect_lr : (xchg (F := F) m).expect (lrCell c) 0 = NL := by
  unfold Schedule.expect Schedule.amountOf; rw [duties_lr, Finset.sum_singleton, amount_lr]
@[sl_rounds] theorem expect_ws : (xchg (F := F) m).expect (wsCell c) 0 = NW := by
  unfold Schedule.expect Schedule.amountOf; rw [duties_ws, Finset.sum_singleton, amount_ws]
@[sl_rounds] theorem expect_wr : (xchg (F := F) m).expect (wrCell c) 0 = NW := by
  unfold Schedule.expect Schedule.amountOf; rw [duties_wr, Finset.sum_singleton, amount_wr]

theorem payload_bar (d : Unit) : (xchg (F := F) m).payload (barCell c) 0 d = barPay c := by dsimp only [xchg]; rw [if_pos rfl]
theorem payload_ls (d : Unit) : (xchg (F := F) m).payload (lsCell c) 0 d = lsPay m c := by
  dsimp only [xchg]; rw [if_neg ls_ne_bar, if_pos rfl]
theorem payload_lr (d : Unit) : (xchg (F := F) m).payload (lrCell c) 0 d = lrPay m c := by
  dsimp only [xchg]; rw [if_neg lr_ne_bar, if_neg lr_ne_ls, if_pos rfl]
theorem payload_ws (d : Unit) : (xchg (F := F) m).payload (wsCell c) 0 d = wsPay m c := by
  dsimp only [xchg]; rw [if_neg ws_ne_bar, if_neg ws_ne_ls, if_neg ws_ne_lr, if_pos rfl]
theorem payload_wr (d : Unit) : (xchg (F := F) m).payload (wrCell c) 0 d = wrPay m c := by
  dsimp only [xchg]; rw [if_neg wr_ne_bar, if_neg wr_ne_ls, if_neg wr_ne_lr, if_neg wr_ne_ws, if_pos rfl]

end Sched

/-! ## What each device owes at launch; the levels -/

/-- A device owes its partner's two receive cells their buffers' credit and its partner's barrier cell one unit — summed
    so that the signal peels the last summand, the latent copy the next, the weights copy the first. -/
def O₁ (c : Dev nD) : CellTallies nD τ sig Unit := tallyAt (wrCell (pt c)) () NW + tallyAt (lrCell (pt c)) () NL
def O₀ (c : Dev nD) : CellTallies nD τ sig Unit := O₁ c + tallyAt (barCell (pt c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma lr0.sem ∨ g.2 = .dma wr0.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = wrCell (pt c) ∨ g = lrCell (pt c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = wrCell (pt c) ∨ g = lrCell (pt c) ∨ g = barCell (pt c) := by
  unfold O₀ at h
  rw [Pi.add_apply, Finsupp.add_apply, tallyAt_apply] at h
  by_cases hb : g = barCell (pt c) ∧ u = ()
  · exact .inr (.inr hb.1)
  · rw [if_neg hb, Nat.add_zero] at h
    rcases O₁_pos h with h | h
    · exact .inl h
    · exact .inr (.inl h)

theorem lv_wr (c : Dev nD) (u : Unit) : lv (wrCell c) u = 2 := by
  dsimp only [lv]; rw [if_neg wr_ne_bar, if_pos (.inr rfl)]
theorem lv_lr (c : Dev nD) (u : Unit) : lv (lrCell c) u = 2 := by
  dsimp only [lv]; rw [if_neg lr_ne_bar, if_pos (.inl rfl)]
theorem lv_bar (c : Dev nD) (u : Unit) : lv (barCell c) u = 1 := by dsimp only [lv]; rw [if_pos rfl]

omit [FloatOps F] in
/-- A wait on a staging or send cell, owing everything or nothing: those cells stand below all that is owed. -/
theorem mayWait_low (c : Dev nD) (q : DmaSem sig) (hq1 : SemLoc.dma q ≠ .dma lr0.sem) (hq2 : SemLoc.dma q ≠ .dma wr0.sem)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq1 hq2)])
      (fun g u hg => by
        rcases O₀_pos hg with rfl | rfl | rfl
        · rw [lv_wr]; decide
        · rw [lv_lr]; decide
        · rw [lv_bar]; decide)
  · rw [MayWait_zero]; iintro -; iempintro

omit [FloatOps F] in
/-- At its barrier wait a device owes its partner's two receive cells only: they stand above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_wr]; decide
      · rw [lv_lr]; decide)

end Cert.Kernel.Proto

end
-- ==== Proof.KernelBody.lean ====
/-
  One device's body, from the state the launch deals it to the state it hands back.

  The device starts holding: the invariants of its own five cells and of the three cells of its partner it pays into;
  its position at round 0 of its own cells; the tokens of the five duties it pays (the partner's barrier unit, the
  partner's two receive cells, its own two send cells); the credit for what others pay it (one barrier unit, two
  receive credits); its four scratch buffers at any contents; its nine staged blocks. It ends with the four scratch
  buffers, its four own cells closed at zero, the eight input blocks unchanged and the result block holding
  `Out.result` of its own blocks and the partner's three pieces.
-/
import proofs.«900378_g7700000000000379_dist_mla_v7x_xyz2x2x4_y_b2_s256_d1024_dc64_f32_1_alg».proof.Proof.KernelProto

noncomputable section

namespace Cert.Kernel.Proto

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The ghost state a device starts from -/

/-- The cells' invariants a device's body opens, under the names `K` the launch allocated them at: its own five, and
    its partner's barrier cell (its signal) and two receive cells (its copies). -/
def invs (K : Dev nD × Fin 5 → ℕ) (c : Dev nD) : sProp 𝕄 :=
  iprop(cellInv ER (xchg m) (K (c, 0)) (barCell c) ∗ cellInv ER (xchg m) (K (c, 1)) (lsCell c) ∗ cellInv ER (xchg m) (K (c, 2)) (lrCell c)
    ∗ cellInv ER (xchg m) (K (c, 3)) (wsCell c) ∗ cellInv ER (xchg m) (K (c, 4)) (wrCell c)
    ∗ cellInv ER (xchg m) (K (pt c, 0)) (barCell (pt c)) ∗ cellInv ER (xchg m) (K (pt c, 2)) (lrCell (pt c))
    ∗ cellInv ER (xchg m) (K (pt c, 4)) (wrCell (pt c)))

instance invs_persistent (K : Dev nD × Fin 5 → ℕ) (c : Dev nD) : BI.Persistent (invs m K c) := by unfold invs; infer_instance

/-- Positions at round 0 of the own cells; the rounds known reached; the tokens of the five duties the device pays. -/
def ghost (K : Dev nD × Fin 5 → ℕ) (c : Dev nD) : sProp 𝕄 :=
  iprop(invs m K c
    ∗ atPos ER (barCell c) 0 ∅ 0 ∗ atPos ER (lsCell c) 0 ∅ 0 ∗ atPos ER (lrCell c) 0 ∅ 0 ∗ atPos ER (wsCell c) 0 ∅ 0 ∗ atPos ER (wrCell c) 0 ∅ 0
    ∗ reached ER (barCell (pt c)) 0 ∗ reached ER (lrCell (pt c)) 0 ∗ reached ER (wrCell (pt c)) 0
    ∗ reached ER (lsCell c) 0 ∗ reached ER (wsCell c) 0 ∗ reached ER (lrCell c) 0 ∗ reached ER (wrCell c) 0
    ∗ dutyTok ER (barCell (pt c)) 0 () ∗ dutyTok ER (lrCell (pt c)) 0 () ∗ dutyTok ER (wrCell (pt c)) 0 ()
    ∗ dutyTok ER (lsCell c) 0 () ∗ dutyTok ER (wsCell c) 0 ())

/-- What the body starts from besides its buffers: the ghost state at some names, the credit for what others pay the
    device's cells, and the level facts. -/
def start (c : Dev nD) : sProp 𝕄 :=
  iprop((∃ K, ghost m K c) ∗ cred (tallyAt (barCell c) () 1) ∗ cred (tallyAt (lrCell c) () NL) ∗ cred (tallyAt (wrCell c) () NW) ∗ levAts L lv)

def scratch (c : Dev nD) : sProp 𝕄 := iprop((∃ f, lsPts c f) ∗ (∃ f, lrPts c f) ∗ (∃ f, wsPts c f) ∗ (∃ f, wrPts c f))

def Φ₀ (c : Dev nD) : sProp 𝕄 := iprop(start m c ∗ scratch c)
/-- After the body: the scratch buffers, and the four own cells closed at zero. -/
def Φ₁ (c : Dev nD) : sProp 𝕄 :=
  iprop(scratch c ∗ semVal (lsCell c) 0 ∗ semVal (lrCell c) 0 ∗ semVal (wsCell c) 0 ∗ semVal (wrCell c) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => a0 m c
    | ⟨1, _⟩ => a1 m c
    | ⟨2, _⟩ => a2 m c
    | ⟨3, _⟩ => a3 m c
    | ⟨4, _⟩ => a4 m c
    | ⟨5, _⟩ => a5 m c
    | ⟨6, _⟩ => a6 m c
    | ⟨7, _⟩ => a7 m c
    | ⟨8, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

/-- Each input window is fetched at the one point: its staging buffer holds its block. -/
theorem before_in (c : Dev nD) (w : Fin cfg0.W) (hw : w.val < 8) (d) : (dats m 0 c).before w t₀ d = (dats m 0 c).after w t₀ := by
  have hf : (cfg0.win w).fetch t₀ = true := by
    match w, hw with
    | ⟨0, _⟩, _ => exact fetch0_0 t₀
    | ⟨1, _⟩, _ => exact fetch0_1 t₀
    | ⟨2, _⟩, _ => exact fetch0_2 t₀
    | ⟨3, _⟩, _ => exact fetch0_3 t₀
    | ⟨4, _⟩, _ => exact fetch0_4 t₀
    | ⟨5, _⟩, _ => exact fetch0_5 t₀
    | ⟨6, _⟩, _ => exact fetch0_6 t₀
    | ⟨7, _⟩, _ => exact fetch0_7 t₀
  unfold Dat.before; rw [if_pos hf]
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl

/-! ## The body's pre and post, as the obligation states them -/

/-- What the body is called with at the point: the invariant, what the device owes, and each window's staging buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

end Cert.Kernel.Proto

end
-- ==== Proof.KernelReads.lean ====
/-
  What the body's loads read and what its stores leave: a load of a whole buffer reads the buffer; one store over a whole
  buffer leaves what was stored; the stacked buffer is two pieces, rows 0 to 63 and rows 64 to 127, and a load of either
  half reads that piece.
-/
import proofs.«900378_g7700000000000379_dist_mla_v7x_xyz2x2x4_y_b2_s256_d1024_dc64_f32_1_alg».proof.Proof.KernelBody
import Idealize.ShloMosaic.Lib.Pipeline.Value

noncomputable section

namespace Cert.Kernel.Proto

open Cert.Kernel Cert.Kernel.Gen
open Idealize.ShloMosaic
open Idealize.ShloMosaic.TcCoe
open Idealize.SL.Sem

variable {F : FTy → Type} [FloatOps F]

variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a staged block through the rectangle of its full sizes at zero offsets reads the block. -/
theorem read_st0 (f : (cc0_stg0_0 : Ref sig .tc).ty.Contents (Elt F)) :
    View.readAt (Elt F) (st0_0 t0_0).view (Rect.unit (s := S2x256x1024) ![0, 0, 0] S2x256x1024.size Facts₀.inb_S2x256x1024_S2x256x1024_0_0_0).toLoadRect f = f :=
  Memref.readAt_unit_zero (Elt F) cc0_stg0_0 hz3 _ f
theorem read_st1 (f : (cc0_stg1_0 : Ref sig .tc).ty.Contents (Elt F)) :
    View.readAt (Elt F) (st0_1 t0_0).view (Rect.unit (s := S1024x64) ![0, 0] S1024x64.size Facts₀.inb_S1024x64_S1024x64_0_0).toLoadRect f = f :=
  Memref.readAt_unit_zero (Elt F) cc0_stg1_0 hz2 _ f
theorem read_st2 (f : (cc0_stg2_0 : Ref sig .tc).ty.Contents (Elt F)) :
    View.readAt (Elt F) (st0_2 t0_0).view (Rect.unit (s := S64x1024) ![0, 0] S64x1024.size Facts₀.inb_S64x1024_S64x1024_0_0).toLoadRect f = f :=
  Memref.readAt_unit_zero (Elt F) cc0_stg2_0 hz2 _ f
theorem read_st3 (f : (cc0_stg3_0 : Ref sig .tc).ty.Contents (Elt F)) :
    View.readAt (Elt F) (st0_3 t0_0).view (Rect.unit (s := S64x1024) ![0, 0] S64x1024.size Facts₀.inb_S64x1024_S64x1024_0_0).toLoadRect f = f :=
  Memref.readAt_unit_zero (Elt F) cc0_stg3_0 hz2 _ f
theorem read_st4 (f : (cc0_stg4_0 : Ref sig .tc).ty.Contents (Elt F)) :
    View.readAt (Elt F) (st0_4 t0_0).view (Rect.unit (s := S1024x1024) ![0, 0] S1024x1024.size Facts₀.inb_S1024x1024_S1024x1024_0_0).toLoadRect f = f :=
  Memref.readAt_unit_zero (Elt F) cc0_stg4_0 hz2 _ f
theorem read_st5 (f : (cc0_stg5_0 : Ref sig .tc).ty.Contents (Elt F)) :
    View.readAt (Elt F) (st0_5 t0_0).view (Rect.unit (s := S1024x512) ![0, 0] S1024x512.size Facts₀.inb_S1024x512_S1024x512_0_0).toLoadRect f = f :=
  Memref.readAt_unit_zero (Elt F) cc0_stg5_0 hz2 _ f
theorem read_st6 (f : (cc0_stg6_0 : Ref sig .tc).ty.Contents (Elt F)) :
    View.readAt (Elt F) (st0_6 t0_0).view (Rect.unit (s := S1024x32) ![0, 0] S1024x32.size Facts₀.inb_S1024x32_S1024x32_0_0).toLoadRect f = f :=
  Memref.readAt_unit_zero (Elt F) cc0_stg6_0 hz2 _ f
theorem read_st7 (f : (cc0_stg7_0 : Ref sig .tc).ty.Contents (Elt F)) :
    View.readAt (Elt F) (st0_7 t0_0).view (Rect.unit (s := S1024x1024) ![0, 0] S1024x1024.size Facts₀.inb_S1024x1024_S1024x1024_0_0).toLoadRect f = f :=
  Memref.readAt_unit_zero (Elt F) cc0_stg7_0 hz2 _ f

/-- One store of the whole latent send buffer leaves what was stored, whatever was there. -/
theorem ls_stored (f v : (cc0_scratch0 : Ref sig .tc).ty.Contents (Elt F)) :
    (lsM : Memref sig .tc .vmem S512x64 .bf16).view.writes (Elt F) f [⟨Rect.unit (s := S512x64) ![0, 0] S512x64.size Facts₀.inb_S512x64_S512x64_0_0, v⟩] = v := by
  have h := View.read_writes_eq_canon (View.whole cc0_scratch0) f
    [(⟨Rect.unit (s := S512x64) ![0, 0] S512x64.size Facts₀.inb_S512x64_S512x64_0_0, v⟩ : View.Piece (Elt F) S512x64 .bf16)]
    (fun y => ⟨_, List.mem_singleton_self _, View.mem_set_unit_zero hz2 Facts₀.inb_S512x64_S512x64_0_0 y⟩)
  exact h.trans (View.canon_unit_zero hz2 Facts₀.inb_S512x64_S512x64_0_0 v)

/-- A load of the whole latent landing buffer reads it. -/
theorem read_lr (f : (cc0_scratch1 : Ref sig .tc).ty.Contents (Elt F)) :
    View.readAt (Elt F) (lrM : Memref sig .tc .vmem S512x64 .bf16).view (Rect.unit (s := S512x64) ![0, 0] S512x64.size Facts₀.inb_S512x64_S512x64_0_0).toLoadRect f = f :=
  Memref.readAt_unit_zero (Elt F) cc0_scratch1 hz2 _ f

/-- One store of the whole result block leaves what was stored. -/
theorem out_stored (f v : (cc0_stg8_0 : Ref sig .tc).ty.Contents (Elt F)) :
    (st0_8 t0_0).view.writes (Elt F) f [⟨Rect.unit (s := S2x256x1024) ![0, 0, 0] S2x256x1024.size Facts₀.inb_S2x256x1024_S2x256x1024_0_0_0, v⟩] = v := by
  have h := View.read_writes_eq_canon (View.whole cc0_stg8_0 : View sig .tc .vmem S2x256x1024 .f32) f
    [(⟨Rect.unit (s := S2x256x1024) ![0, 0, 0] S2x256x1024.size Facts₀.inb_S2x256x1024_S2x256x1024_0_0_0, v⟩ : View.Piece (Elt F) S2x256x1024 .f32)]
    (fun y => ⟨_, List.mem_singleton_self _, View.mem_set_unit_zero hz3 Facts₀.inb_S2x256x1024_S2x256x1024_0_0_0 y⟩)
  rw [View.read_whole, View.canon_unit_zero (S := S2x256x1024) hz3] at h
  exact h

/-- The stacked contents, as two pieces over the landing buffer's own view. -/
theorem stack_landed (p : Dev nD) :
    stackOf m p = (wrM : Memref sig .tc .vmem S128x1024 .bf16).view.writes (Elt F) (fun _ => ukOf m p (ValueIdx.ix2 0 0)) [⟨rBot, uvOf m p⟩, ⟨rTop, ukOf m p⟩] := by
  have h := View.read_writes_of_cover (View.whole cc0_scratch2) (fun _ => ukOf m p (ValueIdx.ix2 0 0)) (View.whole cc0_scratch3) (fun _ => ukOf m p (ValueIdx.ix2 0 0))
    ([⟨rBot, uvOf m p⟩, ⟨rTop, ukOf m p⟩] : List (View.Piece (Elt F) S128x1024 .bf16)) (stack_cover (ukOf m p) (uvOf m p))
  rw [View.read_whole, View.read_whole] at h
  exact h

/-- The bottom piece (rows 64 to 127) and the top rectangle (rows 0 to 63) share no row. -/
theorem bot_disjoint_top : Disjoint rBot.set rTop.toLoadRect.set := by
  show Disjoint rBot.set rTop.set
  exact Rect.unit_disjoint (0 : Fin 2) (Or.inr (by decide))

/-- Rows 64 to 127 of the stacked contents are the rows of Wuv: the newest piece, read through its own rectangle. -/
theorem read_bot (p : Dev nD) :
    View.readAt (Elt F) (wrM : Memref sig .tc .vmem S128x1024 .bf16).view rBot.toLoadRect (stackOf m p) = uvOf m p := by
  rw [stack_landed, View.readAt_writes_of_cover _ _ _ _ (fun j => ⟨⟨rBot, uvOf m p⟩, List.mem_cons_self .., rBot.toLoadRect.idx_mem j⟩),
    View.readCov_cons_toLoadRect]

/-- Among the two pieces, the top rectangle is covered by the older one alone: the newer piece lies wholly below it. -/
theorem read_top_cov (p : Dev nD) :
    (wrM : Memref sig .tc .vmem S128x1024 .bf16).view.readCov ([⟨rBot, uvOf m p⟩, ⟨rTop, ukOf m p⟩] : List (View.Piece (Elt F) S128x1024 .bf16)) rTop.toLoadRect
      = ukOf m p := by
  rw [View.readCov_eq_canon']
  funext j
  rw [View.canon_cons_of_not_mem (⟨rBot, uvOf m p⟩ : View.Piece (Elt F) S128x1024 .bf16) [(⟨rTop, ukOf m p⟩ : View.Piece (Elt F) S128x1024 .bf16)]
    (Finset.disjoint_right.mp bot_disjoint_top (rTop.toLoadRect.idx_mem j))]
  exact View.canon_cons_emb (Val := Elt F) (e := .bf16) rTop (ukOf m p) [] j

/-- Rows 0 to 63 of the stacked contents are the rows of Wuk. -/
theorem read_top (p : Dev nD) :
    View.readAt (Elt F) (wrM : Memref sig .tc .vmem S128x1024 .bf16).view rTop.toLoadRect (stackOf m p) = ukOf m p := by
  rw [stack_landed, View.readAt_writes_of_cover _ _ _ _
    (fun j => ⟨⟨rTop, ukOf m p⟩, List.mem_cons_of_mem _ (List.mem_singleton.mpr rfl), rTop.toLoadRect.idx_mem j⟩)]
  exact read_top_cov m p

end Cert.Kernel.Proto

end
-- ==== Proof.KernelRun.lean ====
/-
  One device's body, run.

  In program order: the unit to the partner's barrier cell (with it the device's two landing buffers and that it stands at
  round 0 of both its receive cells); the wait on its own barrier cell (with it the partner's landing buffers); the loads
  of x, Wdkv, Wuk, Wuv; the three stores into the send buffers; the two copies to the partner; the loads of Wq, Wqr, Wkr;
  the four waits on its own send and receive cells; the loads of what landed; the load of Wo and the store of the result.
-/
import proofs.«900378_g7700000000000379_dist_mla_v7x_xyz2x2x4_y_b2_s256_d1024_dc64_f32_1_alg».proof.Proof.KernelReads

noncomputable section

namespace Cert.Kernel.Proto

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The payloads with their buffers written out -/

/-- A barrier cell's one duty hands its owner the partner's two landing buffers, at any contents, and that the partner
    stands at round 0 of both its receive cells. -/
@[sl_rounds] theorem payload_bar_x (c : Dev nD) (d : Unit) :
    (xchg (F := F) m).payload (barCell c) 0 d
      = iprop((∃ f, ((lrM : Memref sig .tc .vmem S512x64 .bf16).view.loc (pt c : Thread nD τ) ↦[(lrM : Memref sig .tc .vmem S512x64 .bf16).view.set]{fullShare} f)) ∗ (∃ f, ((wrM : Memref sig .tc .vmem S128x1024 .bf16).view.loc (pt c : Thread nD τ) ↦[(wrM : Memref sig .tc .vmem S128x1024 .bf16).view.set]{fullShare} f))
          ∗ reached ER (lrCell (pt c)) 0 ∗ reached ER (wrCell (pt c)) 0) :=
  (payload_bar m c d).trans rfl
/-- A send cell's duty hands back the send buffer as it was sent; a receive cell's, the landing buffer holding the
    partner's piece. -/
@[sl_rounds] theorem payload_ls_x (c : Dev nD) (d : Unit) :
    (xchg (F := F) m).payload (lsCell c) 0 d = ((lsM : Memref sig .tc .vmem S512x64 .bf16).view.loc (c : Thread nD τ) ↦[(lsM : Memref sig .tc .vmem S512x64 .bf16).view.set]{fullShare} latOf m c) := (payload_ls m c d).trans rfl
@[sl_rounds] theorem payload_lr_x (c : Dev nD) (d : Unit) :
    (xchg (F := F) m).payload (lrCell c) 0 d = ((lrM : Memref sig .tc .vmem S512x64 .bf16).view.loc (c : Thread nD τ) ↦[(lrM : Memref sig .tc .vmem S512x64 .bf16).view.set]{fullShare} latOf m (pt c)) := (payload_lr m c d).trans rfl
@[sl_rounds] theorem payload_ws_x (c : Dev nD) (d : Unit) :
    (xchg (F := F) m).payload (wsCell c) 0 d = ((wsM : Memref sig .tc .vmem S128x1024 .bf16).view.loc (c : Thread nD τ) ↦[(wsM : Memref sig .tc .vmem S128x1024 .bf16).view.set]{fullShare} stackOf m c) := (payload_ws m c d).trans rfl
@[sl_rounds] theorem payload_wr_x (c : Dev nD) (d : Unit) :
    (xchg (F := F) m).payload (wrCell c) 0 d = ((wrM : Memref sig .tc .vmem S128x1024 .bf16).view.loc (c : Thread nD τ) ↦[(wrM : Memref sig .tc .vmem S128x1024 .bf16).view.set]{fullShare} stackOf m (pt c)) := (payload_wr m c d).trans rfl

/-- The same three duties as their PAYER reads them, the cell being the partner's: what the device hands over with its
    signal is its OWN two landing buffers and its own standing; what its copies leave in the partner's landing buffers
    is its own pieces. (The partner's partner is the device.) -/
@[sl_rounds high] theorem payload_bar_pt (c : Dev nD) (d : Unit) :
    (xchg (F := F) m).payload (barCell (pt c)) 0 d
      = iprop((∃ f, ((lrM : Memref sig .tc .vmem S512x64 .bf16).view.loc (c : Thread nD τ) ↦[(lrM : Memref sig .tc .vmem S512x64 .bf16).view.set]{fullShare} f)) ∗ (∃ f, ((wrM : Memref sig .tc .vmem S128x1024 .bf16).view.loc (c : Thread nD τ) ↦[(wrM : Memref sig .tc .vmem S128x1024 .bf16).view.set]{fullShare} f))
          ∗ reached ER (lrCell c) 0 ∗ reached ER (wrCell c) 0) := by
  rw [payload_bar]; unfold barPay lrPts wrPts; rw [pt_pt]
@[sl_rounds high] theorem payload_lr_pt (c : Dev nD) (d : Unit) :
    (xchg (F := F) m).payload (lrCell (pt c)) 0 d = ((lrM : Memref sig .tc .vmem S512x64 .bf16).view.loc (pt c : Thread nD τ) ↦[(lrM : Memref sig .tc .vmem S512x64 .bf16).view.set]{fullShare} latOf m c) := by
  rw [payload_lr]; unfold lrPay lrPts; rw [pt_pt]
@[sl_rounds high] theorem payload_wr_pt (c : Dev nD) (d : Unit) :
    (xchg (F := F) m).payload (wrCell (pt c)) 0 d = ((wrM : Memref sig .tc .vmem S128x1024 .bf16).view.loc (pt c : Thread nD τ) ↦[(wrM : Memref sig .tc .vmem S128x1024 .bf16).view.set]{fullShare} stackOf m c) := by
  rw [payload_wr]; unfold wrPay wrPts; rw [pt_pt]

attribute [local sl_rounds] pt_pt

-- the partner and the printed device words are compared through the equations `dev1_eq`, `dev2_eq`, `dev3_eq`, never by
-- unfolding their word arithmetic at a symbolic device
attribute [local irreducible] Out.partner k0_dev1 k0_dev2 k0_dev3

/-! ## The run -/

set_option maxHeartbeats 1600000 in
theorem sound_body (c : Dev nD) (t : Fin cfg0.N) :
    bodyPre m c t ⊢ wp frame (wpE (defs₀ (F := F)) 𝒱₀ c none) Set.univ (bodyAt0 t) (fun _ => bodyPost m c t) := by
  rw [fin_N0 t]
  unfold bodyPre bodyPost
  rw [show (dats m 0 c).Φ t0_0.castSucc = Φ₀ m c from rfl, show (dats m 0 c).Φ t0_0.succ = Φ₁ c from rfl]
  unfold Φ₀ start scratch lsPts lrPts wsPts wrPts owns
  iintro ⟨⟨⟨⟨%K, Hg⟩, HcB, HcLR, HcWR, #Hlev⟩, ⟨%f0, Hls⟩, ⟨%f1, Hlr⟩, ⟨%f2, Hws⟩, ⟨%f3, Hwr⟩⟩, Ho,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩⟩
  unfold ghost invs
  icases Hg with ⟨⟨#HIbar, #HIls, #HIlr, #HIws, #HIwr, #HIbarP, #HIlrP, #HIwrP⟩, HatB, HatLS, HatLR, HatWS, HatWR, #HrBP, #HrLRP, #HrWRP, #HrLS, #HrWS, #HrLR, #HrWR,
      HtBP, HtLRP, HtWRP, HtLS, HtWS⟩
  have h0 : g0 = a0 m c := hg0.trans (before_in m c (0 : Fin 9) (by decide) d0)
  have h1 : g1 = a1 m c := hg1.trans (before_in m c (1 : Fin 9) (by decide) d1)
  have h2 : g2 = a2 m c := hg2.trans (before_in m c (2 : Fin 9) (by decide) d2)
  have h3 : g3 = a3 m c := hg3.trans (before_in m c (3 : Fin 9) (by decide) d3)
  have h4 : g4 = a4 m c := hg4.trans (before_in m c (4 : Fin 9) (by decide) d4)
  have h5 : g5 = a5 m c := hg5.trans (before_in m c (5 : Fin 9) (by decide) d5)
  have h6 : g6 = a6 m c := hg6.trans (before_in m c (6 : Fin 9) (by decide) d6)
  have h7 : g7 = a7 m c := hg7.trans (before_in m c (7 : Fin 9) (by decide) d7)
  subst h0 h1 h2 h3 h4 h5 h6 h7
  unfold Dat.owesAt Pipeline.owesWithin
  icases Ho with ⟨%W, %hW, HO⟩
  rw [show (dats m 0 c).owed t0_0.castSucc = O₀ c from rfl]
  unfold O₀ O₁
  have hd1 : (⟨k0_dev1 c, Facts₀.k0_dev1_lt c⟩ : Dev nD) = pt c := dev1_eq c
  have hd2 : (⟨k0_dev2 c, Facts₀.k0_dev2_lt c⟩ : Dev nD) = pt c := dev2_eq c
  have hd3 : (⟨k0_dev3 c, Facts₀.k0_dev3_lt c⟩ : Dev nD) = pt c := dev3_eq c
  -- at the barrier wait the device still owes the partner's two receive cells, which stand above its barrier cell
  have hmw : (levAts L lv : sProp 𝕄) ⊢ MayWait (c : Thread nD τ) (.reg barS) () (tallyAt (wrCell (pt c)) () NW + tallyAt (lrCell (pt c)) () NL) :=
    mayWait_bar c
  unfold bodyAt0
  sl_unfold [cc0_body]
  -- to the copies: the signal, the barrier wait, the loads of x, Wdkv, Wuk, Wuv and the three stores
  set_option sl_exec.maxSteps 22 in sl_exec
  -- the send buffers hold what the copies' duties say they hand back: the device's latent columns, and its rows of
  -- Wuk stacked on its rows of Wuv
  sl_unfold_words
  rw [read_st0, read_st1, read_st2, read_st3]
  rw [ls_stored, show k0_pay6 (k0_pay5 (a0 m c) (a1 m c)) = latOf m c from rfl,
    show k0_pay8 (k0_pay4 (a3 m c)) = uvOf m c from rfl, show k0_pay7 (k0_pay3 (a2 m c)) = ukOf m c from rfl, stack_stored]
  sl_exec
  -- the four own cells have no later round: closed, their counters at zero are the device's again
  imod (Rounds.cell_close ER (xchg m) (Set.mem_univ (K (c, 1))) (fun h => h) (R := 0 + 1) (duties_later m (lsCell c))) $$ [HatLS] with HzLS
  · isplitr; · iexact HIls
    iexact HatLS
  imod (Rounds.cell_close ER (xchg m) (Set.mem_univ (K (c, 2))) (fun h => h) (R := 0 + 1) (duties_later m (lrCell c))) $$ [HatLR] with HzLR
  · isplitr; · iexact HIlr
    iexact HatLR
  imod (Rounds.cell_close ER (xchg m) (Set.mem_univ (K (c, 3))) (fun h => h) (R := 0 + 1) (duties_later m (wsCell c))) $$ [HatWS] with HzWS
  · isplitr; · iexact HIws
    iexact HatWS
  imod (Rounds.cell_close ER (xchg m) (Set.mem_univ (K (c, 4))) (fun h => h) (R := 0 + 1) (duties_later m (wrCell c))) $$ [HatWR] with HzWR
  · isplitr; · iexact HIwr
    iexact HatWR
  -- the result block: every load read its whole buffer, the landed pieces are the partner's, the one store covers the block
  sl_unfold_words
  rw [read_st4, read_st5, read_st6, read_st7, read_lr, read_top, read_bot, out_stored]
  sl_step
  rw [show (dats m 0 c).owed t0_0.succ = 0 from rfl]
  isplitl [HatLS_pay1 HatLR_pay1 HatWS_pay1 HatWR_pay1 HzLS HzLR HzWS HzWR]
  · unfold Φ₁ scratch lsPts lrPts wsPts wrPts
    isplitl [HatLS_pay1 HatLR_pay1 HatWS_pay1 HatWR_pay1]
    · isplitl [HatLS_pay1]; · iexists _; iexact HatLS_pay1
      isplitl [HatLR_pay1]; · iexists _; iexact HatLR_pay1
      isplitl [HatWS_pay1]; · iexists _; iexact HatWS_pay1
      iexists _; iexact HatWR_pay1
    isplitl [HzLS]; · iexact HzLS
    isplitl [HzLR]; · iexact HzLR
    isplitl [HzWS]; · iexact HzWS
    iexact HzWR
  isplitl [HO]
  · iexists _; isplitr
    rotate_left
    · iexact HO
    · ipureintro; exact fun _ _ => Or.inl trivial
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    · ipureintro; rfl
    · iexact H7
  iexists _; isplitr
  · ipureintro; rfl
  · iexact H8

/-- The library's body obligation, on every device: the windows opened one by one, then the run. -/
theorem body_obligation (c : Dev nD) : BodyObligation (dats (F := F) m 0 c) (defs₀ (F := F)) 𝒱₀ () Set.univ := fun t => by
  rw [bigSep_W0, bigSep_W0]
  exact sound_body m c t

end Cert.Kernel.Proto

end
-- ==== Proof.KernelLaunch.lean ====
/-
  The launch: from every device's body to the run of the whole mesh.

  At launch the exchange's ghost state is made once for all sixteen devices: every cell of the schedule gets its round
  state, its owner's position and its duty token. The tokens are then dealt to the devices that PAY the duties — a
  device's barrier token and its two receive tokens go to its partner, its two send tokens stay —, the cells'
  invariants are allocated from the semaphores' zero counters (the four own ones and the runtime's barrier semaphore),
  and each device is credited with what the others owe its cells: one barrier unit and two receive credits, all from
  its partner. The levels (barrier cells below receive cells, everything else below both) make every wait of the
  pipeline and of the body admissible.
-/
import proofs.«900378_g7700000000000379_dist_mla_v7x_xyz2x2x4_y_b2_s256_d1024_dc64_f32_1_alg».proof.Proof.KernelRun

noncomputable section

namespace Cert.Kernel.Proto

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Each cell's one duty token, as minted. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of a device's own cells. -/
def toks (c : Dev nD) : sProp 𝕄 :=
  iprop(dutyTok ER (barCell c) 0 () ∗ dutyTok ER (lsCell c) 0 () ∗ dutyTok ER (lrCell c) 0 () ∗ dutyTok ER (wsCell c) 0 () ∗ dutyTok ER (wrCell c) 0 ())

/-- What the launch element deals a device. -/
def G (c : Dev nD) : sProp 𝕄 :=
  iprop((bigSep Finset.univ fun k : Fin 5 => roundState ER (xchg m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xchg m) xCells xToks) $$ HX with ⟨Hst, Hr, Hat, Htok⟩
  imodintro
  ihave Hst' := (Entails.of_eq (hX fun g => roundState ER (xchg m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The four copy semaphores are the kernel's own; -/
theorem ownSems0_eq (c : Dev nD) : (Pipeline.ownSems0 (Ix := Unit) (Name := ℕ) (U := UU) (Lvl := ℕ) (Val := Elt F) (τ := τ) osem c : sProp 𝕄)
    = iprop(semVal (lsCell c) 0 ∗ semVal (lrCell c) 0 ∗ semVal (wsCell c) 0 ∗ semVal (wrCell c) 0) := by
  rw [Pipeline.ownSems0_eq_of_list c osem [0, 1, 2, 3] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xchg m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xchg m) (kcell (c, k)) 0)
      ⊢ (|={Set.univ}=> bigSep Finset.univ fun k => iprop(∃ κ : ℕ, cellInv ER (xchg m) κ (kcell (c, k))) : sProp 𝕄) from by
        rw [← bigSep_sep']
        exact (bigSep_mono fun k _ => (Rounds.body_intro ER (xchg m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (xchg m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (xchg m) (K ck) (kcell ck) : sProp 𝕄)) ⊢ cellInv ER (xchg m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with a device: its positions, and the tokens of the duties IT pays. -/
def payToks (c : Dev nD) : sProp 𝕄 :=
  iprop(dutyTok ER (barCell (pt c)) 0 () ∗ dutyTok ER (lrCell (pt c)) 0 () ∗ dutyTok ER (wrCell (pt c)) 0 () ∗ dutyTok ER (lsCell c) 0 () ∗ dutyTok ER (wsCell c) 0 ())
def linear (c : Dev nD) : sProp 𝕄 :=
  iprop((atPos ER (barCell c) 0 ∅ 0 ∗ atPos ER (lsCell c) 0 ∅ 0 ∗ atPos ER (lrCell c) 0 ∅ 0 ∗ atPos ER (wsCell c) 0 ∅ 0 ∗ atPos ER (wrCell c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaLS, HaLR, HaWS, HaWR⟩, HtB, HtLR, HtWR, HtLS, HtWS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (pt c, 0)); iexact HI
    isplitr; · iapply (inv_at m K (pt c, 2)); iexact HI
    iapply (inv_at m K (pt c, 4)); iexact HI
  isplitl [HaB]; · iexact HaB
  isplitl [HaLS]; · iexact HaLS
  isplitl [HaLR]; · iexact HaLR
  isplitl [HaWS]; · iexact HaWS
  isplitl [HaWR]; · iexact HaWR
  isplitr; · iapply (reached_at (F := F) (pt c, 0)); iexact HR
  isplitr; · iapply (reached_at (F := F) (pt c, 2)); iexact HR
  isplitr; · iapply (reached_at (F := F) (pt c, 4)); iexact HR
  isplitr; · iapply (reached_at (F := F) (c, 1)); iexact HR
  isplitr; · iapply (reached_at (F := F) (c, 3)); iexact HR
  isplitr; · iapply (reached_at (F := F) (c, 2)); iexact HR
  isplitr; · iapply (reached_at (F := F) (c, 4)); iexact HR
  isplitl [HtB]; · iexact HtB
  isplitl [HtLR]; · iexact HtLR
  isplitl [HtWR]; · iexact HtWR
  isplitl [HtLS]; · iexact HtLS
  iexact HtWS

/-- The tokens dealt within each pair: a barrier's and the two receive cells' to the partner, the send cells' kept. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pair (fun c : Dev nD => (dutyTok ER (barCell c) 0 () : sProp 𝕄)),
    bigSep_univ_equiv pair (fun c : Dev nD => (dutyTok ER (lrCell c) 0 () : sProp 𝕄)),
    bigSep_univ_equiv pair (fun c : Dev nD => (dutyTok ER (wrCell c) 0 () : sProp 𝕄))]
  iintro ⟨HB, HLS, HLR, HWS, HWR⟩
  isplitl [HB]; · iexact HB
  isplitl [HLR]; · iexact HLR
  isplitl [HWR]; · iexact HWR
  isplitl [HLS]; · iexact HLS
  iexact HWS

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xchg m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (xchg m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xchg m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem cell_dev_eq {a b : Dev nD} {s : SemLoc sig} (h : ((a : Thread nD τ), s) = (((b : Thread nD τ), s) : GSem nD τ sig)) : a = b :=
  Fin.ext (congrArg (fun g : GSem nD τ sig => g.1.1.val) h)

/-- What device `d` owes device `c`'s barrier cell: a unit if it is `c`'s partner. -/
theorem owed_bar (d c : Dev nD) : O₀ d (barCell c) () = if d = pt c then 1 else 0 := by
  unfold O₀ O₁
  rw [Pi.add_apply, Finsupp.add_apply, Pi.add_apply, Finsupp.add_apply,
    tallyAt_ne_cell (fun h => wr_ne_bar (congrArg Prod.snd h).symm), tallyAt_ne_cell (fun h => lr_ne_bar (congrArg Prod.snd h).symm),
    tallyAt_apply, Finsupp.zero_apply, Nat.zero_add, Nat.zero_add]
  by_cases h : d = pt c
  · subst h; rw [pt_pt, if_pos ⟨rfl, rfl⟩, if_pos rfl]
  · rw [if_neg (fun ⟨h1, _⟩ => h (by rw [← pt_pt d]; exact congrArg pt (cell_dev_eq h1).symm)), if_neg h]

theorem owed_lr (d c : Dev nD) : O₀ d (lrCell c) () = if d = pt c then NL else 0 := by
  unfold O₀ O₁
  rw [Pi.add_apply, Finsupp.add_apply, Pi.add_apply, Finsupp.add_apply,
    tallyAt_ne_cell (fun h => wr_ne_lr (congrArg Prod.snd h).symm), tallyAt_apply,
    tallyAt_ne_cell (fun h => lr_ne_bar (congrArg Prod.snd h)), Finsupp.zero_apply, Nat.zero_add, Nat.add_zero]
  by_cases h : d = pt c
  · subst h; rw [pt_pt, if_pos ⟨rfl, rfl⟩, if_pos rfl]
  · rw [if_neg (fun ⟨h1, _⟩ => h (by rw [← pt_pt d]; exact congrArg pt (cell_dev_eq h1).symm)), if_neg h]

theorem owed_wr (d c : Dev nD) : O₀ d (wrCell c) () = if d = pt c then NW else 0 := by
  unfold O₀ O₁
  rw [Pi.add_apply, Finsupp.add_apply, Pi.add_apply, Finsupp.add_apply,
    tallyAt_apply, tallyAt_ne_cell (fun h => wr_ne_lr (congrArg Prod.snd h)),
    tallyAt_ne_cell (fun h => wr_ne_bar (congrArg Prod.snd h)), Finsupp.zero_apply, Nat.add_zero, Nat.add_zero]
  by_cases h : d = pt c
  · subst h; rw [pt_pt, if_pos ⟨rfl, rfl⟩, if_pos rfl]
  · rw [if_neg (fun ⟨h1, _⟩ => h (by rw [← pt_pt d]; exact congrArg pt (cell_dev_eq h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pt c) fun _ => 1, if_pos (Finset.mem_univ _)]
theorem launch_lr (c : Dev nD) :
    tallyOn (lrCell c) (launchCredit (Pipeline.owing O₀) 0 (lrCell c)) = (tallyAt (lrCell c) () NL : CellTallies nD τ sig Unit) := by
  unfold tallyAt; refine congrArg _ (Finsupp.ext fun u => ?_); cases u
  rw [Pipeline.launchCredit_owing, Finsupp.single_eq_same, Finset.sum_congr rfl fun d _ => owed_lr d c,
    Finset.sum_ite_eq' Finset.univ (pt c) fun _ => NL, if_pos (Finset.mem_univ _)]
theorem launch_wr (c : Dev nD) :
    tallyOn (wrCell c) (launchCredit (Pipeline.owing O₀) 0 (wrCell c)) = (tallyAt (wrCell c) () NW : CellTallies nD τ sig Unit) := by
  unfold tallyAt; refine congrArg _ (Finsupp.ext fun u => ?_); cases u
  rw [Pipeline.launchCredit_owing, Finsupp.single_eq_same, Finset.sum_congr rfl fun d _ => owed_wr d c,
    Finset.sum_ite_eq' Finset.univ (pt c) fun _ => NW, if_pos (Finset.mem_univ _)]

theorem creds (c : Dev nD) :
    (Pipeline.launchCred O₀ c : sProp 𝕄) ⊢ iprop(cred (tallyAt (barCell c) () 1) ∗ cred (tallyAt (lrCell c) () NL) ∗ cred (tallyAt (wrCell c) () NW)) := by
  unfold Pipeline.launchCred
  rw [bigSep_univ_at _ (SemLoc.reg barS), launch_bar]
  refine sep_mono_right ?_
  rw [bigSep_erase (i := SemLoc.dma lr0.sem) (Finset.mem_erase.mpr ⟨lr_ne_bar, Finset.mem_univ _⟩), launch_lr]
  refine sep_mono_right ?_
  rw [← launch_wr]
  exact bigSep_elim (Finset.mem_erase.mpr ⟨wr_ne_lr, Finset.mem_erase.mpr ⟨wr_ne_bar, Finset.mem_univ _⟩⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, H2, H3⟩
  imodintro
  unfold start G'
  isplitl
  · isplitl [HG]; · iexact HG
    isplitl [H1]; · iexact H1
    isplitl [H2]; · iexact H2
    isplitl [H3]; · iexact H3
    iexact Hlev
  · iempintro

theorem scratch_eq (c : Dev nD) : (scratch c : sProp 𝕄) = Pipeline.scopedRest cfg0.spec c := by
  rw [scopedRest0_eq]; unfold scratch lsPts lrPts wsPts wrPts
  simp only [Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratch_eq]
  unfold Φ₀
  iintro ⟨Hs, -, Hr⟩
  isplitl [Hs] <;> iassumption

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, ← scratch_eq, ownSems0_eq]
  unfold Φ₁
  iintro ⟨Hr, Hz⟩
  isplitr; · iempintro
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of sixteen devices, for any float values, from any memory with zero counters: every weakly fair
    execution of @main — the partners greeting each other on the runtime's barrier semaphore, then exchanging their
    halves — terminates, and every final state has every windowed array at the contents the proof data computes. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.Kernel.Proto

end
-- ==== Proof.KernelFinal.lean ====
/-
  The arrays after the grid's one point.

  The grid has a single point. The eight argument windows are inputs: an input's array is never written back, so
  after the point it holds what it held at entry. The ninth window is the output: its block is the whole result
  array, written back at the point, and a write of the whole block over the array leaves exactly the block, whatever
  the array held before. So a memory that holds every window's final array holds the result block in the result
  buffer and the eight arguments unchanged.
-/
import proofs.«900378_g7700000000000379_dist_mla_v7x_xyz2x2x4_y_b2_s256_d1024_dc64_f32_1_alg».proof.Proof.KernelBody

noncomputable section

namespace Cert.Kernel.Final

open Cert.Kernel Cert.Kernel.Gen Cert.Kernel.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- An input window's array after the point is its array at entry. -/
theorem final_in (c : Dev nD) (w : Fin cfg0.W) (hw : w.val < 8) :
    (dats m 0 c).arrAt w cfg0.N = m ((cfg0.win w).arr.view.loc (c : Thread nD τ)) := by
  match w, hw with
  | ⟨0, _⟩, _ => exact (dats m 0 c).arrAt_in 0 rfl _
  | ⟨1, _⟩, _ => exact (dats m 0 c).arrAt_in 1 rfl _
  | ⟨2, _⟩, _ => exact (dats m 0 c).arrAt_in 2 rfl _
  | ⟨3, _⟩, _ => exact (dats m 0 c).arrAt_in 3 rfl _
  | ⟨4, _⟩, _ => exact (dats m 0 c).arrAt_in 4 rfl _
  | ⟨5, _⟩, _ => exact (dats m 0 c).arrAt_in 5 rfl _
  | ⟨6, _⟩, _ => exact (dats m 0 c).arrAt_in 6 rfl _
  | ⟨7, _⟩, _ => exact (dats m 0 c).arrAt_in 7 rfl _

/-- The output window's array after the point is the result block: the one write-back writes the whole block, at
    zero offsets, over the whole array. -/
theorem final_out (c : Dev nD) : (dats m 0 c).arrAt (8 : Fin 9) cfg0.N = outOf m c := by
  have hN : cfg0.N = t0_0.val + 1 := N_0
  rw [hN, (dats m 0 c).arrAt_succ 8 t0_0, if_pos (flush0_8 t0_0)]
  have hz : (fun a => win0_8.index t0_0 a * main_v1.ty.shape.size a) = fun _ => 0 := funext fun a => Nat.zero_mul _
  exact Memref.write_access_unit_zero_univ (Elt F) main_v1 hz (fun a => by rw [congrFun hz a]; simp) _ (outOf m c)

/-- A memory holding every window's final array holds the result block in the result buffer and the eight
    arguments as they were. -/
theorem post_of_final (r : MemSt nD τ sig (Elt F))
    (h : ∀ c : Dev nD, ∀ w : Fin cfg0.W, r.mem ((cfg0.win w).arr.view.loc (c : Thread nD τ)) = (dats m 0 c).arrAt w cfg0.N)
    (c : Dev nD) :
    r.mem ((c.tc : Thread nD τ).loc main_v1) = outOf m c
      ∧ r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)
      ∧ r.mem ((c.tc : Thread nD τ).loc main_arg6) = m ((c.tc : Thread nD τ).loc main_arg6)
      ∧ r.mem ((c.tc : Thread nD τ).loc main_arg7) = m ((c.tc : Thread nD τ).loc main_arg7) :=
  ⟨(h c 8).trans (final_out m c),
    (h c 0).trans (final_in m c 0 (by decide)),
    (h c 1).trans (final_in m c 1 (by decide)),
    (h c 2).trans (final_in m c 2 (by decide)),
    (h c 3).trans (final_in m c 3 (by decide)),
    (h c 4).trans (final_in m c 4 (by decide)),
    (h c 5).trans (final_in m c 5 (by decide)),
    (h c 6).trans (final_in m c 6 (by decide)),
    (h c 7).trans (final_in m c 7 (by decide))⟩

end Cert.Kernel.Final

end
-- ==== Proof.KernelFrame.lean ====
/-
  The whole mesh's run, with the strongest post the claims need: after every weakly fair execution each device's result
  array holds its result block — a term of its own argument blocks and of the three pieces its partner sent — and each
  of its eight argument arrays holds what it held.
-/
import proofs.«900378_g7700000000000379_dist_mla_v7x_xyz2x2x4_y_b2_s256_d1024_dc64_f32_1_alg».proof.Proof.KernelLaunch
import proofs.«900378_g7700000000000379_dist_mla_v7x_xyz2x2x4_y_b2_s256_d1024_dc64_f32_1_alg».proof.Proof.KernelFinal

noncomputable section

namespace Cert.Kernel.Proto

open Cert.Kernel Cert.Kernel.Gen
open Idealize.ShloMosaic Idealize.ShloMosaic.TcCoe Idealize.SL.Sem

variable {F : FTy → Type} [FloatOps F]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => Cert.Kernel.Final.post_of_final m r.2 h c) (run_main m ρ)

end Cert.Kernel.Proto

end
-- ==== Proof.KernelIdealOut.lean ====
/-
  The result of one device, as one term.

  Each device holds the whole activations x, its 64 columns of the down-projection Wdkv and its 64 rows of the two
  up-projections Wuk and Wuv; the other half of each lies on the device with the same x and z mesh coordinates and the
  other y coordinate (its partner). A device computes its 64 columns of the latent x · Wdkv, sends them and its rows of
  Wuk and Wuv to the partner, receives the partner's, and from then on works alone: keys, values, queries, scores,
  softmax weights, the weighted values and the output projection. So the result block is a function of the device's own
  eight argument blocks and of three received pieces, and each received piece is a function of the partner's blocks.
-/
import proofs.«900378_g7700000000000379_dist_mla_v7x_xyz2x2x4_y_b2_s256_d1024_dc64_f32_1_alg».proof.Proof.Gen.KernelIdeal.Skeleton

noncomputable section

namespace Cert.KernelIdeal.Out

open Idealize.ShloMosaic Idealize.SL.Sem Cert.KernelIdeal Cert.KernelIdeal.Gen

variable {F : FTy → Type} [FloatOps F]

/-- The device a device exchanges halves with: the same x and z mesh coordinates, the other y. -/
def partner (c : Dev nD) : Dev nD := ⟨k0_dev2 c, Facts₀.k0_dev2_lt c⟩

/-- What a device sends of the latent: its 64 columns of x · Wdkv, rows (b, s) flattened to 512. -/
def latentHalf (x : Vec F S2x256x1024 .f32) (wdkv : Vec F S1024x64 .f32) : FVec F S512x64 .bf16 :=
  k0_pay6 (k0_pay5 x wdkv)

/-- What a device sends of the key up-projection: its 64 rows of Wuk. -/
def ukHalf (wuk : Vec F S64x1024 .f32) : FVec F S64x1024 .bf16 := k0_pay7 (k0_pay3 wuk)

/-- What a device sends of the value up-projection: its 64 rows of Wuv. -/
def uvHalf (wuv : Vec F S64x1024 .f32) : FVec F S64x1024 .bf16 := k0_pay8 (k0_pay4 wuv)

/-- The result block from the device's own argument blocks and the three received pieces `cr` (the partner's latent
    columns), `ukr` and `uvr` (the partner's rows of Wuk and Wuv). -/
def result (x : Vec F S2x256x1024 .f32) (wdkv : Vec F S1024x64 .f32) (wuk wuv : Vec F S64x1024 .f32)
    (wq : Vec F S1024x1024 .f32) (wqr : Vec F S1024x512 .f32) (wkr : Vec F S1024x32 .f32) (wo : Vec F S1024x1024 .f32)
    (cr : Vec F S512x64 .bf16) (ukr uvr : Vec F S64x1024 .bf16) : FVec F S2x256x1024 .f32 :=
  k0_pay1 (k0_pay12 (k0_pay3 wuk) (k0_pay4 wuv) (k0_pay5 x wdkv) (k0_pay10 (k0_pay2 x) wkr)
    (k0_pay11 (k0_pay2 x) (k0_pay9 (k0_pay2 x) wq) wqr) cr ukr uvr) wo

end Cert.KernelIdeal.Out

end
-- ==== Proof.KernelIdealProto.lean ====
/-
  The exchange between partners, as a schedule of rounds.

  The sixteen devices form eight pairs: a device and the one with the same x and z mesh coordinates and the other y.
  Within a pair each device holds one half of the latent projection Wdkv (64 of its 128 columns) and of the two
  up-projections (64 of their 128 rows). A device first tells its partner that it has entered (one unit on the partner's
  barrier cell) and waits for the same from the partner; only then may either write into the other's landing buffers.
  It then sends two buffers — its 64 latent columns, and its rows of Wuk stacked on its rows of Wuv — each by one copy
  that credits a send cell of its own (once the source is read) and a receive cell of the partner's (once the destination
  is written), and waits on its own four cells. Every cell has one round of one duty:

    cell of device c      paid by                 units                     what the owner learns
    barrier               the partner's signal    1                         the partner's two landing buffers are its own
                                                                             again to write into, and the partner is at
                                                                             round 0 of both receive cells
    send (latent)         c's own copy            the buffer's credit       the latent send buffer back, unchanged
    receive (latent)      the partner's copy      the same                  the landing buffer holds the partner's columns
    send (weights)        c's own copy            the buffer's credit       the stacked send buffer back, unchanged
    receive (weights)     the partner's copy      the same                  the landing buffer holds the partner's rows

  No wait can block for ever: a device waits on its barrier cell while it still owes the partner's two receive cells,
  and those stand above every barrier cell; at its other waits it owes nothing.
-/
import proofs.«900378_g7700000000000379_dist_mla_v7x_xyz2x2x4_y_b2_s256_d1024_dc64_f32_1_alg».proof.Proof.KernelIdealOut
import proofs.«900378_g7700000000000379_dist_mla_v7x_xyz2x2x4_y_b2_s256_d1024_dc64_f32_1_alg».proof.Proof.Gen.KernelIdeal.Launch
import proofs.«900378_g7700000000000379_dist_mla_v7x_xyz2x2x4_y_b2_s256_d1024_dc64_f32_1_alg».proof.Proof.Gen.KernelIdeal.Points
import proofs.«900378_g7700000000000379_dist_mla_v7x_xyz2x2x4_y_b2_s256_d1024_dc64_f32_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, side by side -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Partners -/

/-- The partner: the same x and z mesh coordinates, the other y. -/
abbrev pt (c : Dev nD) : Dev nD := Out.partner c

theorem pt_val (c : Dev nD) : (pt c).val = (8 * (c.val / 8) + (c.val % 4) + 4) - 4 * ((c.val / 4) % 2) := k0_dev2_eq c

/-- The partner's partner is the device itself. -/
theorem pt_pt (c : Dev nD) : pt (pt c) = c := by
  apply Fin.ext
  have h1 := pt_val (pt c)
  have h2 := pt_val c
  have hc := c.isLt
  omega

theorem pt_ne (c : Dev nD) : pt c ≠ c := fun h => by
  have h2 := pt_val c
  have h3 := congrArg Fin.val h
  have hc := c.isLt
  omega

/-- The three device words the body computes all name the partner. -/
theorem dev1_eq (c : Dev nD) : (⟨k0_dev1 c, Facts₀.k0_dev1_lt c⟩ : Dev nD) = pt c := Fin.ext ((k0_dev1_eq c).trans (k0_dev2_eq c).symm)
theorem dev2_eq (c : Dev nD) : (⟨k0_dev2 c, Facts₀.k0_dev2_lt c⟩ : Dev nD) = pt c := rfl
theorem dev3_eq (c : Dev nD) : (⟨k0_dev3 c, Facts₀.k0_dev3_lt c⟩ : Dev nD) = pt c := Fin.ext ((k0_dev3_eq c).trans (k0_dev2_eq c).symm)

def pair : Dev nD ≃ Dev nD := ⟨pt, pt, pt_pt, pt_pt⟩

/-! ## The buffers and the cells -/

/-- The latent send and landing buffers, the stacked-weights send and landing buffers. -/
abbrev lsM : Memref sig .tc .vmem S512x64 .bf16 := Memref.whole cc0_scratch0
abbrev lrM : Memref sig .tc .vmem S512x64 .bf16 := Memref.whole cc0_scratch1
abbrev wsM : Memref sig .tc .vmem S128x1024 .bf16 := Memref.whole cc0_scratch2
abbrev wrM : Memref sig .tc .vmem S128x1024 .bf16 := Memref.whole cc0_scratch3

/-- The runtime's barrier semaphore of collective id 0, and the four semaphores of the two copies. -/
abbrev barS : Sem sig := (SemArray.scalar (sig.barrier 0 rfl) : Sems sig S_).sem
abbrev ls0 : DmaSems sig S_ := (cc0_scratch4.slice (Rect.unit (s := S2) ![0] S1.size Facts₀.inb_S2_S1_0)).squeeze S_ Facts₀.squeezes_S1_S_
abbrev ws0 : DmaSems sig S_ := (cc0_scratch4.slice (Rect.unit (s := S2) ![1] S1.size Facts₀.inb_S2_S1_1)).squeeze S_ Facts₀.squeezes_S1_S_
abbrev lr0 : DmaSems sig S_ := (cc0_scratch5.slice (Rect.unit (s := S2) ![0] S1.size Facts₀.inb_S2_S1_0)).squeeze S_ Facts₀.squeezes_S1_S_
abbrev wr0 : DmaSems sig S_ := (cc0_scratch5.slice (Rect.unit (s := S2) ![1] S1.size Facts₀.inb_S2_S1_1)).squeeze S_ Facts₀.squeezes_S1_S_

abbrev barCell (c : Dev nD) : GSem nD τ sig := ((c : Thread nD τ), .reg barS)
abbrev lsCell (c : Dev nD) : GSem nD τ sig := ((c : Thread nD τ), .dma ls0.sem)
abbrev lrCell (c : Dev nD) : GSem nD τ sig := ((c : Thread nD τ), .dma lr0.sem)
abbrev wsCell (c : Dev nD) : GSem nD τ sig := ((c : Thread nD τ), .dma ws0.sem)
abbrev wrCell (c : Dev nD) : GSem nD τ sig := ((c : Thread nD τ), .dma wr0.sem)

/-- The kernel's own (scoped) semaphores, as the launch indexes them; -/
abbrev osem : Fin 4 → SemLoc sig := fun | 0 => .dma ls0.sem | 1 => .dma lr0.sem | 2 => .dma ws0.sem | 3 => .dma wr0.sem
/-- all five of the exchange's: barrier, latent send and receive, weights send and receive. -/
abbrev csem : Fin 5 → SemLoc sig := fun | 0 => .reg barS | 1 => .dma ls0.sem | 2 => .dma lr0.sem | 3 => .dma ws0.sem | 4 => .dma wr0.sem
abbrev kcell (ck : Dev nD × Fin 5) : GSem nD τ sig := ((ck.1 : Thread nD τ), csem ck.2)

abbrev NL : ℕ := (lsM : Memref sig .tc .vmem S512x64 .bf16).view.dmaCredit
abbrev NW : ℕ := (wsM : Memref sig .tc .vmem S128x1024 .bf16).view.dmaCredit
theorem NL_pos : 0 < NL := View.dmaCredit_pos _ (by decide)
theorem NW_pos : 0 < NW := View.dmaCredit_pos _ (by decide)

/-! ## Contents -/

/-- A device's eight argument blocks as the pipeline stages them: each window's block is its whole array. -/
def a0 (c : Dev nD) : (cc0_stg0_0 : Ref sig .tc).ty.Contents (Elt F) := (win0_0.blk t0_0).view.read (Elt F) (m ((c : Thread nD τ).loc main_arg0))
def a1 (c : Dev nD) : (cc0_stg1_0 : Ref sig .tc).ty.Contents (Elt F) := (win0_1.blk t0_0).view.read (Elt F) (m ((c : Thread nD τ).loc main_arg1))
def a2 (c : Dev nD) : (cc0_stg2_0 : Ref sig .tc).ty.Contents (Elt F) := (win0_2.blk t0_0).view.read (Elt F) (m ((c : Thread nD τ).loc main_arg2))
def a3 (c : Dev nD) : (cc0_stg3_0 : Ref sig .tc).ty.Contents (Elt F) := (win0_3.blk t0_0).view.read (Elt F) (m ((c : Thread nD τ).loc main_arg3))
def a4 (c : Dev nD) : (cc0_stg4_0 : Ref sig .tc).ty.Contents (Elt F) := (win0_4.blk t0_0).view.read (Elt F) (m ((c : Thread nD τ).loc main_arg4))
def a5 (c : Dev nD) : (cc0_stg5_0 : Ref sig .tc).ty.Contents (Elt F) := (win0_5.blk t0_0).view.read (Elt F) (m ((c : Thread nD τ).loc main_arg5))
def a6 (c : Dev nD) : (cc0_stg6_0 : Ref sig .tc).ty.Contents (Elt F) := (win0_6.blk t0_0).view.read (Elt F) (m ((c : Thread nD τ).loc main_arg6))
def a7 (c : Dev nD) : (cc0_stg7_0 : Ref sig .tc).ty.Contents (Elt F) := (win0_7.blk t0_0).view.read (Elt F) (m ((c : Thread nD τ).loc main_arg7))

/-- What a device sends: its latent columns; its rows of the two up-projections. -/
def latOf (c : Dev nD) : (cc0_scratch0 : Ref sig .tc).ty.Contents (Elt F) := Out.latentHalf (a0 m c) (a1 m c)
def ukOf (c : Dev nD) : FVec F S64x1024 .bf16 := Out.ukHalf (a2 m c)
def uvOf (c : Dev nD) : FVec F S64x1024 .bf16 := Out.uvHalf (a3 m c)

abbrev rTop : Rect S128x1024 := Rect.unit (s := S128x1024) ![0, 0] S64x1024.size Facts₀.inb_S128x1024_S64x1024_0_0
abbrev rBot : Rect S128x1024 := Rect.unit (s := S128x1024) ![64, 0] S64x1024.size Facts₀.inb_S128x1024_S64x1024_64_0

/-- The stacked buffer: the rows of Wuk (rows 0 to 63) on the rows of Wuv (rows 64 to 127), as two pieces written over
    a base nothing of which is left. -/
def stackOf (c : Dev nD) : (cc0_scratch2 : Ref sig .tc).ty.Contents (Elt F) :=
  (wsM : Memref sig .tc .vmem S128x1024 .bf16).view.writes (Elt F) (fun _ => ukOf m c (ValueIdx.ix2 0 0))
    [⟨rBot, uvOf m c⟩, ⟨rTop, ukOf m c⟩]

omit [FloatOps F] in
/-- The two pieces cover the 128 rows: a row below 64 lies in the top piece, any other in the bottom one. -/
theorem stack_cover (u v : FVec F S64x1024 .bf16) (y : S128x1024.Idx) :
    ∃ p ∈ ([⟨rBot, v⟩, ⟨rTop, u⟩] : List (View.Piece (Elt F) S128x1024 .bf16)), y ∈ p.1.set := by
  have h1 : (y 1).val < 1024 := (y 1).isLt
  have h0 : (y 0).val < 128 := (y 0).isLt
  by_cases h : (y 0).val < 64
  · have hm : y ∈ rTop.set := Rect.mem_set_unit.mpr fun a => by
      match a with
      | ⟨0, _⟩ => exact ⟨Nat.zero_le _, by show (y 0).val < 0 + 64; omega⟩
      | ⟨1, _⟩ => exact ⟨Nat.zero_le _, by show (y 1).val < 0 + 1024; omega⟩
    exact ⟨⟨rTop, u⟩, List.mem_cons_of_mem _ (List.mem_singleton.mpr rfl), hm⟩
  · have hm : y ∈ rBot.set := Rect.mem_set_unit.mpr fun a => by
      match a with
      | ⟨0, _⟩ => exact ⟨by show 64 ≤ (y 0).val; omega, by show (y 0).val < 64 + 64; omega⟩
      | ⟨1, _⟩ => exact ⟨Nat.zero_le _, by show (y 1).val < 0 + 1024; omega⟩
    exact ⟨⟨rBot, v⟩, List.mem_cons_self .., hm⟩

/-- So the stacked buffer is the same whatever it was written over. -/
theorem stack_stored (c : Dev nD) (f : (cc0_scratch2 : Ref sig .tc).ty.Contents (Elt F)) :
    (wsM : Memref sig .tc .vmem S128x1024 .bf16).view.writes (Elt F) f [⟨rBot, uvOf m c⟩, ⟨rTop, ukOf m c⟩] = stackOf m c := by
  have h := View.read_writes_of_cover (View.whole cc0_scratch2) f (View.whole cc0_scratch2) (fun _ => ukOf m c (ValueIdx.ix2 0 0))
    [⟨rBot, uvOf m c⟩, ⟨rTop, ukOf m c⟩] (stack_cover (ukOf m c) (uvOf m c))
  rw [View.read_whole, View.read_whole] at h
  exact h

/-- The result block: the device's own eight blocks and the partner's three pieces. -/
def outOf (c : Dev nD) : (cc0_stg8_0 : Ref sig .tc).ty.Contents (Elt F) :=
  Out.result (a0 m c) (a1 m c) (a2 m c) (a3 m c) (a4 m c) (a5 m c) (a6 m c) (a7 m c) (latOf m (pt c)) (ukOf m (pt c)) (uvOf m (pt c))

def lsPts (c : Dev nD) (f : Buf (Elt F) ((lsM : Memref sig .tc .vmem S512x64 .bf16).view.loc (c : Thread nD τ))) : sProp 𝕄 :=
  (lsM : Memref sig .tc .vmem S512x64 .bf16).view.loc (c : Thread nD τ) ↦[(lsM : Memref sig .tc .vmem S512x64 .bf16).view.set]{fullShare} f
def lrPts (c : Dev nD) (f : Buf (Elt F) ((lrM : Memref sig .tc .vmem S512x64 .bf16).view.loc (c : Thread nD τ))) : sProp 𝕄 :=
  (lrM : Memref sig .tc .vmem S512x64 .bf16).view.loc (c : Thread nD τ) ↦[(lrM : Memref sig .tc .vmem S512x64 .bf16).view.set]{fullShare} f
def wsPts (c : Dev nD) (f : Buf (Elt F) ((wsM : Memref sig .tc .vmem S128x1024 .bf16).view.loc (c : Thread nD τ))) : sProp 𝕄 :=
  (wsM : Memref sig .tc .vmem S128x1024 .bf16).view.loc (c : Thread nD τ) ↦[(wsM : Memref sig .tc .vmem S128x1024 .bf16).view.set]{fullShare} f
def wrPts (c : Dev nD) (f : Buf (Elt F) ((wrM : Memref sig .tc .vmem S128x1024 .bf16).view.loc (c : Thread nD τ))) : sProp 𝕄 :=
  (wrM : Memref sig .tc .vmem S128x1024 .bf16).view.loc (c : Thread nD τ) ↦[(wrM : Memref sig .tc .vmem S128x1024 .bf16).view.set]{fullShare} f

omit [FloatOps F] in
instance lsPts_storable (c : Dev nD) (f) : BI.Storable (upEmb : UEmb _ 𝕄) (lsPts (F := F) c f) := by unfold lsPts; infer_instance
omit [FloatOps F] in
instance lrPts_storable (c : Dev nD) (f) : BI.Storable (upEmb : UEmb _ 𝕄) (lrPts (F := F) c f) := by unfold lrPts; infer_instance
omit [FloatOps F] in
instance wsPts_storable (c : Dev nD) (f) : BI.Storable (upEmb : UEmb _ 𝕄) (wsPts (F := F) c f) := by unfold wsPts; infer_instance
omit [FloatOps F] in
instance wrPts_storable (c : Dev nD) (f) : BI.Storable (upEmb : UEmb _ 𝕄) (wrPts (F := F) c f) := by unfold wrPts; infer_instance

/-! ## The schedule -/

/-- What the partner's signal hands a device: the partner's two landing buffers, and that the partner is at round 0 of
    both its receive cells. -/
def barPay (c : Dev nD) : sProp 𝕄 :=
  iprop((∃ f, lrPts (pt c) f) ∗ (∃ f, wrPts (pt c) f) ∗ reached ER (lrCell (pt c)) 0 ∗ reached ER (wrCell (pt c)) 0)
def lsPay (c : Dev nD) : sProp 𝕄 := lsPts c (latOf m c)
def lrPay (c : Dev nD) : sProp 𝕄 := lrPts c (latOf m (pt c))
def wsPay (c : Dev nD) : sProp 𝕄 := wsPts c (stackOf m c)
def wrPay (c : Dev nD) : sProp 𝕄 := wrPts c (stackOf m (pt c))

abbrev IsOurs (g : GSem nD τ sig) : Prop :=
  g.1.2 = .tc ∧ (g.2 = .reg barS ∨ g.2 = .dma ls0.sem ∨ g.2 = .dma lr0.sem ∨ g.2 = .dma ws0.sem ∨ g.2 = .dma wr0.sem)

/-- One round, round 0, one duty in it, on each of a device's five cells. -/
def xchg : Rounds.Schedule (GSem nD τ sig) Unit 𝕄 where
  duties g r := if r = 0 ∧ IsOurs g then {()} else ∅
  unitless _ := False
  amount g _ _ := if g.2 = .reg barS then 1 else if g.2 = .dma ls0.sem ∨ g.2 = .dma lr0.sem then NL else NW
  payload g _ _ :=
    if g.2 = .reg barS then barPay g.1.1
    else if g.2 = .dma ls0.sem then lsPay m g.1.1
    else if g.2 = .dma lr0.sem then lrPay m g.1.1
    else if g.2 = .dma ws0.sem then wsPay m g.1.1
    else if g.2 = .dma wr0.sem then wrPay m g.1.1
    else iprop(emp)
  amount_pos g _ _ _ := by
    by_cases h : g.2 = .reg barS
    · rw [if_pos h]; exact Nat.one_pos
    · rw [if_neg h]; split
      · exact NL_pos
      · exact NW_pos

instance xchg_payload_storable (g : GSem nD τ sig) (r : ℕ) (d : Unit) :
    BI.Storable (upEmb : UEmb _ 𝕄) ((xchg (F := F) m).payload g r d) := by
  show BI.Storable upEmb (if g.2 = .reg barS then barPay g.1.1
    else if g.2 = .dma ls0.sem then lsPay m g.1.1
    else if g.2 = .dma lr0.sem then lrPay m g.1.1
    else if g.2 = .dma ws0.sem then wsPay m g.1.1
    else if g.2 = .dma wr0.sem then wrPay m g.1.1
    else iprop(emp))
  unfold barPay lsPay lrPay wsPay wrPay
  (repeat' split) <;> infer_instance

section Sched
variable (c : Dev nD)

theorem ls_ne_bar : (SemLoc.dma ls0.sem : SemLoc sig) ≠ .reg barS := fun h => by cases h
theorem lr_ne_bar : (SemLoc.dma lr0.sem : SemLoc sig) ≠ .reg barS := fun h => by cases h
theorem ws_ne_bar : (SemLoc.dma ws0.sem : SemLoc sig) ≠ .reg barS := fun h => by cases h
theorem wr_ne_bar : (SemLoc.dma wr0.sem : SemLoc sig) ≠ .reg barS := fun h => by cases h
theorem lr_ne_ls : (SemLoc.dma lr0.sem : SemLoc sig) ≠ .dma ls0.sem := by decide
theorem ws_ne_ls : (SemLoc.dma ws0.sem : SemLoc sig) ≠ .dma ls0.sem := by decide
theorem ws_ne_lr : (SemLoc.dma ws0.sem : SemLoc sig) ≠ .dma lr0.sem := by decide
theorem wr_ne_ls : (SemLoc.dma wr0.sem : SemLoc sig) ≠ .dma ls0.sem := by decide
theorem wr_ne_lr : (SemLoc.dma wr0.sem : SemLoc sig) ≠ .dma lr0.sem := by decide
theorem wr_ne_ws : (SemLoc.dma wr0.sem : SemLoc sig) ≠ .dma ws0.sem := by decide

@[sl_rounds] theorem duties_bar : (xchg (F := F) m).duties (barCell c) 0 = {()} := by dsimp only [xchg]; exact if_pos ⟨rfl, rfl, .inl rfl⟩
@[sl_rounds] theorem duties_ls : (xchg (F := F) m).duties (lsCell c) 0 = {()} := by dsimp only [xchg]; exact if_pos ⟨rfl, rfl, .inr (.inl rfl)⟩
@[sl_rounds] theorem duties_lr : (xchg (F := F) m).duties (lrCell c) 0 = {()} := by dsimp only [xchg]; exact if_pos ⟨rfl, rfl, .inr (.inr (.inl rfl))⟩
@[sl_rounds] theorem duties_ws : (xchg (F := F) m).duties (wsCell c) 0 = {()} := by dsimp only [xchg]; exact if_pos ⟨rfl, rfl, .inr (.inr (.inr (.inl rfl)))⟩
@[sl_rounds] theorem duties_wr : (xchg (F := F) m).duties (wrCell c) 0 = {()} := by dsimp only [xchg]; exact if_pos ⟨rfl, rfl, .inr (.inr (.inr (.inr rfl)))⟩
theorem duties_later (g : GSem nD τ sig) : ∀ r, 1 ≤ r → (xchg (F := F) m).duties g r = ∅ :=
  fun r hr => by dsimp only [xchg]; rw [if_neg fun h => by omega]

@[sl_rounds] theorem amount_bar (d : Unit) : (xchg (F := F) m).amount (barCell c) 0 d = 1 := by dsimp only [xchg]; exact if_pos rfl
@[sl_rounds] theorem amount_ls (d : Unit) : (xchg (F := F) m).amount (lsCell c) 0 d = NL := by
  dsimp only [xchg]; rw [if_neg ls_ne_bar]; exact if_pos (.inl rfl)
@[sl_rounds] theorem amount_lr (d : Unit) : (xchg (F := F) m).amount (lrCell c) 0 d = NL := by
  dsimp only [xchg]; rw [if_neg lr_ne_bar]; exact if_pos (.inr rfl)
@[sl_rounds] theorem amount_ws (d : Unit) : (xchg (F := F) m).amount (wsCell c) 0 d = NW := by
  dsimp only [xchg]; rw [if_neg ws_ne_bar]; exact if_neg (fun h => h.elim ws_ne_ls ws_ne_lr)
@[sl_rounds] theorem amount_wr (d : Unit) : (xchg (F := F) m).amount (wrCell c) 0 d = NW := by
  dsimp only [xchg]; rw [if_neg wr_ne_bar]; exact if_neg (fun h => h.elim wr_ne_ls wr_ne_lr)

@[sl_rounds] theorem expect_bar : (xchg (F := F) m).expect (barCell c) 0 = 1 := by
  unfold Schedule.expect Schedule.amountOf; rw [duties_bar, Finset.sum_singleton, amount_bar]
@[sl_rounds] theorem expect_ls : (xchg (F := F) m).expect (lsCell c) 0 = NL := by
  unfold Schedule.expect Schedule.amountOf; rw [duties_ls, Finset.sum_singleton, amount_ls]
@[sl_rounds] theorem expect_lr : (xchg (F := F) m).expect (lrCell c) 0 = NL := by
  unfold Schedule.expect Schedule.amountOf; rw [duties_lr, Finset.sum_singleton, amount_lr]
@[sl_rounds] theorem expect_ws : (xchg (F := F) m).expect (wsCell c) 0 = NW := by
  unfold Schedule.expect Schedule.amountOf; rw [duties_ws, Finset.sum_singleton, amount_ws]
@[sl_rounds] theorem expect_wr : (xchg (F := F) m).expect (wrCell c) 0 = NW := by
  unfold Schedule.expect Schedule.amountOf; rw [duties_wr, Finset.sum_singleton, amount_wr]

theorem payload_bar (d : Unit) : (xchg (F := F) m).payload (barCell c) 0 d = barPay c := by dsimp only [xchg]; rw [if_pos rfl]
theorem payload_ls (d : Unit) : (xchg (F := F) m).payload (lsCell c) 0 d = lsPay m c := by
  dsimp only [xchg]; rw [if_neg ls_ne_bar, if_pos rfl]
theorem payload_lr (d : Unit) : (xchg (F := F) m).payload (lrCell c) 0 d = lrPay m c := by
  dsimp only [xchg]; rw [if_neg lr_ne_bar, if_neg lr_ne_ls, if_pos rfl]
theorem payload_ws (d : Unit) : (xchg (F := F) m).payload (wsCell c) 0 d = wsPay m c := by
  dsimp only [xchg]; rw [if_neg ws_ne_bar, if_neg ws_ne_ls, if_neg ws_ne_lr, if_pos rfl]
theorem payload_wr (d : Unit) : (xchg (F := F) m).payload (wrCell c) 0 d = wrPay m c := by
  dsimp only [xchg]; rw [if_neg wr_ne_bar, if_neg wr_ne_ls, if_neg wr_ne_lr, if_neg wr_ne_ws, if_pos rfl]

end Sched

/-! ## What each device owes at launch; the levels -/

/-- A device owes its partner's two receive cells their buffers' credit and its partner's barrier cell one unit — summed
    so that the signal peels the last summand, the latent copy the next, the weights copy the first. -/
def O₁ (c : Dev nD) : CellTallies nD τ sig Unit := tallyAt (wrCell (pt c)) () NW + tallyAt (lrCell (pt c)) () NL
def O₀ (c : Dev nD) : CellTallies nD τ sig Unit := O₁ c + tallyAt (barCell (pt c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma lr0.sem ∨ g.2 = .dma wr0.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = wrCell (pt c) ∨ g = lrCell (pt c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = wrCell (pt c) ∨ g = lrCell (pt c) ∨ g = barCell (pt c) := by
  unfold O₀ at h
  rw [Pi.add_apply, Finsupp.add_apply, tallyAt_apply] at h
  by_cases hb : g = barCell (pt c) ∧ u = ()
  · exact .inr (.inr hb.1)
  · rw [if_neg hb, Nat.add_zero] at h
    rcases O₁_pos h with h | h
    · exact .inl h
    · exact .inr (.inl h)

theorem lv_wr (c : Dev nD) (u : Unit) : lv (wrCell c) u = 2 := by
  dsimp only [lv]; rw [if_neg wr_ne_bar, if_pos (.inr rfl)]
theorem lv_lr (c : Dev nD) (u : Unit) : lv (lrCell c) u = 2 := by
  dsimp only [lv]; rw [if_neg lr_ne_bar, if_pos (.inl rfl)]
theorem lv_bar (c : Dev nD) (u : Unit) : lv (barCell c) u = 1 := by dsimp only [lv]; rw [if_pos rfl]

omit [FloatOps F] in
/-- A wait on a staging or send cell, owing everything or nothing: those cells stand below all that is owed. -/
theorem mayWait_low (c : Dev nD) (q : DmaSem sig) (hq1 : SemLoc.dma q ≠ .dma lr0.sem) (hq2 : SemLoc.dma q ≠ .dma wr0.sem)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq1 hq2)])
      (fun g u hg => by
        rcases O₀_pos hg with rfl | rfl | rfl
        · rw [lv_wr]; decide
        · rw [lv_lr]; decide
        · rw [lv_bar]; decide)
  · rw [MayWait_zero]; iintro -; iempintro

omit [FloatOps F] in
/-- At its barrier wait a device owes its partner's two receive cells only: they stand above its barrier cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_wr]; decide
      · rw [lv_lr]; decide)

end Cert.KernelIdeal.Proto

end
-- ==== Proof.KernelIdealBody.lean ====
/-
  One device's body, from the state the launch deals it to the state it hands back.

  The device starts holding: the invariants of its own five cells and of the three cells of its partner it pays into;
  its position at round 0 of its own cells; the tokens of the five duties it pays (the partner's barrier unit, the
  partner's two receive cells, its own two send cells); the credit for what others pay it (one barrier unit, two
  receive credits); its four scratch buffers at any contents; its nine staged blocks. It ends with the four scratch
  buffers, its four own cells closed at zero, the eight input blocks unchanged and the result block holding
  `Out.result` of its own blocks and the partner's three pieces.
-/
import proofs.«900378_g7700000000000379_dist_mla_v7x_xyz2x2x4_y_b2_s256_d1024_dc64_f32_1_alg».proof.Proof.KernelIdealProto

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The ghost state a device starts from -/

/-- The cells' invariants a device's body opens, under the names `K` the launch allocated them at: its own five, and
    its partner's barrier cell (its signal) and two receive cells (its copies). -/
def invs (K : Dev nD × Fin 5 → ℕ) (c : Dev nD) : sProp 𝕄 :=
  iprop(cellInv ER (xchg m) (K (c, 0)) (barCell c) ∗ cellInv ER (xchg m) (K (c, 1)) (lsCell c) ∗ cellInv ER (xchg m) (K (c, 2)) (lrCell c)
    ∗ cellInv ER (xchg m) (K (c, 3)) (wsCell c) ∗ cellInv ER (xchg m) (K (c, 4)) (wrCell c)
    ∗ cellInv ER (xchg m) (K (pt c, 0)) (barCell (pt c)) ∗ cellInv ER (xchg m) (K (pt c, 2)) (lrCell (pt c))
    ∗ cellInv ER (xchg m) (K (pt c, 4)) (wrCell (pt c)))

instance invs_persistent (K : Dev nD × Fin 5 → ℕ) (c : Dev nD) : BI.Persistent (invs m K c) := by unfold invs; infer_instance

/-- Positions at round 0 of the own cells; the rounds known reached; the tokens of the five duties the device pays. -/
def ghost (K : Dev nD × Fin 5 → ℕ) (c : Dev nD) : sProp 𝕄 :=
  iprop(invs m K c
    ∗ atPos ER (barCell c) 0 ∅ 0 ∗ atPos ER (lsCell c) 0 ∅ 0 ∗ atPos ER (lrCell c) 0 ∅ 0 ∗ atPos ER (wsCell c) 0 ∅ 0 ∗ atPos ER (wrCell c) 0 ∅ 0
    ∗ reached ER (barCell (pt c)) 0 ∗ reached ER (lrCell (pt c)) 0 ∗ reached ER (wrCell (pt c)) 0
    ∗ reached ER (lsCell c) 0 ∗ reached ER (wsCell c) 0 ∗ reached ER (lrCell c) 0 ∗ reached ER (wrCell c) 0
    ∗ dutyTok ER (barCell (pt c)) 0 () ∗ dutyTok ER (lrCell (pt c)) 0 () ∗ dutyTok ER (wrCell (pt c)) 0 ()
    ∗ dutyTok ER (lsCell c) 0 () ∗ dutyTok ER (wsCell c) 0 ())

/-- What the body starts from besides its buffers: the ghost state at some names, the credit for what others pay the
    device's cells, and the level facts. -/
def start (c : Dev nD) : sProp 𝕄 :=
  iprop((∃ K, ghost m K c) ∗ cred (tallyAt (barCell c) () 1) ∗ cred (tallyAt (lrCell c) () NL) ∗ cred (tallyAt (wrCell c) () NW) ∗ levAts L lv)

def scratch (c : Dev nD) : sProp 𝕄 := iprop((∃ f, lsPts c f) ∗ (∃ f, lrPts c f) ∗ (∃ f, wsPts c f) ∗ (∃ f, wrPts c f))

def Φ₀ (c : Dev nD) : sProp 𝕄 := iprop(start m c ∗ scratch c)
/-- After the body: the scratch buffers, and the four own cells closed at zero. -/
def Φ₁ (c : Dev nD) : sProp 𝕄 :=
  iprop(scratch c ∗ semVal (lsCell c) 0 ∗ semVal (lrCell c) 0 ∗ semVal (wsCell c) 0 ∗ semVal (wrCell c) 0)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => a0 m c
    | ⟨1, _⟩ => a1 m c
    | ⟨2, _⟩ => a2 m c
    | ⟨3, _⟩ => a3 m c
    | ⟨4, _⟩ => a4 m c
    | ⟨5, _⟩ => a5 m c
    | ⟨6, _⟩ => a6 m c
    | ⟨7, _⟩ => a7 m c
    | ⟨8, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

/-- Each input window is fetched at the one point: its staging buffer holds its block. -/
theorem before_in (c : Dev nD) (w : Fin cfg0.W) (hw : w.val < 8) (d) : (dats m 0 c).before w t₀ d = (dats m 0 c).after w t₀ := by
  have hf : (cfg0.win w).fetch t₀ = true := by
    match w, hw with
    | ⟨0, _⟩, _ => exact fetch0_0 t₀
    | ⟨1, _⟩, _ => exact fetch0_1 t₀
    | ⟨2, _⟩, _ => exact fetch0_2 t₀
    | ⟨3, _⟩, _ => exact fetch0_3 t₀
    | ⟨4, _⟩, _ => exact fetch0_4 t₀
    | ⟨5, _⟩, _ => exact fetch0_5 t₀
    | ⟨6, _⟩, _ => exact fetch0_6 t₀
    | ⟨7, _⟩, _ => exact fetch0_7 t₀
  unfold Dat.before; rw [if_pos hf]
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl
  | ⟨7, _⟩, _ => rfl

/-! ## The body's pre and post, as the obligation states them -/

/-- What the body is called with at the point: the invariant, what the device owes, and each window's staging buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

end Cert.KernelIdeal.Proto

end
-- ==== Proof.KernelIdealReads.lean ====
/-
  What the body's loads read and what its stores leave: a load of a whole buffer reads the buffer; one store over a whole
  buffer leaves what was stored; the stacked buffer is two pieces, rows 0 to 63 and rows 64 to 127, and a load of either
  half reads that piece.
-/
import proofs.«900378_g7700000000000379_dist_mla_v7x_xyz2x2x4_y_b2_s256_d1024_dc64_f32_1_alg».proof.Proof.KernelIdealBody
import Idealize.ShloMosaic.Lib.Pipeline.Value

noncomputable section

namespace Cert.KernelIdeal.Proto

open Cert.KernelIdeal Cert.KernelIdeal.Gen
open Idealize.ShloMosaic
open Idealize.ShloMosaic.TcCoe
open Idealize.SL.Sem

variable {F : FTy → Type} [FloatOps F]

variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a staged block through the rectangle of its full sizes at zero offsets reads the block. -/
theorem read_st0 (f : (cc0_stg0_0 : Ref sig .tc).ty.Contents (Elt F)) :
    View.readAt (Elt F) (st0_0 t0_0).view (Rect.unit (s := S2x256x1024) ![0, 0, 0] S2x256x1024.size Facts₀.inb_S2x256x1024_S2x256x1024_0_0_0).toLoadRect f = f :=
  Memref.readAt_unit_zero (Elt F) cc0_stg0_0 hz3 _ f
theorem read_st1 (f : (cc0_stg1_0 : Ref sig .tc).ty.Contents (Elt F)) :
    View.readAt (Elt F) (st0_1 t0_0).view (Rect.unit (s := S1024x64) ![0, 0] S1024x64.size Facts₀.inb_S1024x64_S1024x64_0_0).toLoadRect f = f :=
  Memref.readAt_unit_zero (Elt F) cc0_stg1_0 hz2 _ f
theorem read_st2 (f : (cc0_stg2_0 : Ref sig .tc).ty.Contents (Elt F)) :
    View.readAt (Elt F) (st0_2 t0_0).view (Rect.unit (s := S64x1024) ![0, 0] S64x1024.size Facts₀.inb_S64x1024_S64x1024_0_0).toLoadRect f = f :=
  Memref.readAt_unit_zero (Elt F) cc0_stg2_0 hz2 _ f
theorem read_st3 (f : (cc0_stg3_0 : Ref sig .tc).ty.Contents (Elt F)) :
    View.readAt (Elt F) (st0_3 t0_0).view (Rect.unit (s := S64x1024) ![0, 0] S64x1024.size Facts₀.inb_S64x1024_S64x1024_0_0).toLoadRect f = f :=
  Memref.readAt_unit_zero (Elt F) cc0_stg3_0 hz2 _ f
theorem read_st4 (f : (cc0_stg4_0 : Ref sig .tc).ty.Contents (Elt F)) :
    View.readAt (Elt F) (st0_4 t0_0).view (Rect.unit (s := S1024x1024) ![0, 0] S1024x1024.size Facts₀.inb_S1024x1024_S1024x1024_0_0).toLoadRect f = f :=
  Memref.readAt_unit_zero (Elt F) cc0_stg4_0 hz2 _ f
theorem read_st5 (f : (cc0_stg5_0 : Ref sig .tc).ty.Contents (Elt F)) :
    View.readAt (Elt F) (st0_5 t0_0).view (Rect.unit (s := S1024x512) ![0, 0] S1024x512.size Facts₀.inb_S1024x512_S1024x512_0_0).toLoadRect f = f :=
  Memref.readAt_unit_zero (Elt F) cc0_stg5_0 hz2 _ f
theorem read_st6 (f : (cc0_stg6_0 : Ref sig .tc).ty.Contents (Elt F)) :
    View.readAt (Elt F) (st0_6 t0_0).view (Rect.unit (s := S1024x32) ![0, 0] S1024x32.size Facts₀.inb_S1024x32_S1024x32_0_0).toLoadRect f = f :=
  Memref.readAt_unit_zero (Elt F) cc0_stg6_0 hz2 _ f
theorem read_st7 (f : (cc0_stg7_0 : Ref sig .tc).ty.Contents (Elt F)) :
    View.readAt (Elt F) (st0_7 t0_0).view (Rect.unit (s := S1024x1024) ![0, 0] S1024x1024.size Facts₀.inb_S1024x1024_S1024x1024_0_0).toLoadRect f = f :=
  Memref.readAt_unit_zero (Elt F) cc0_stg7_0 hz2 _ f

/-- One store of the whole latent send buffer leaves what was stored, whatever was there. -/
theorem ls_stored (f v : (cc0_scratch0 : Ref sig .tc).ty.Contents (Elt F)) :
    (lsM : Memref sig .tc .vmem S512x64 .bf16).view.writes (Elt F) f [⟨Rect.unit (s := S512x64) ![0, 0] S512x64.size Facts₀.inb_S512x64_S512x64_0_0, v⟩] = v := by
  have h := View.read_writes_eq_canon (View.whole cc0_scratch0) f
    [(⟨Rect.unit (s := S512x64) ![0, 0] S512x64.size Facts₀.inb_S512x64_S512x64_0_0, v⟩ : View.Piece (Elt F) S512x64 .bf16)]
    (fun y => ⟨_, List.mem_singleton_self _, View.mem_set_unit_zero hz2 Facts₀.inb_S512x64_S512x64_0_0 y⟩)
  exact h.trans (View.canon_unit_zero hz2 Facts₀.inb_S512x64_S512x64_0_0 v)

/-- A load of the whole latent landing buffer reads it. -/
theorem read_lr (f : (cc0_scratch1 : Ref sig .tc).ty.Contents (Elt F)) :
    View.readAt (Elt F) (lrM : Memref sig .tc .vmem S512x64 .bf16).view (Rect.unit (s := S512x64) ![0, 0] S512x64.size Facts₀.inb_S512x64_S512x64_0_0).toLoadRect f = f :=
  Memref.readAt_unit_zero (Elt F) cc0_scratch1 hz2 _ f

/-- One store of the whole result block leaves what was stored. -/
theorem out_stored (f v : (cc0_stg8_0 : Ref sig .tc).ty.Contents (Elt F)) :
    (st0_8 t0_0).view.writes (Elt F) f [⟨Rect.unit (s := S2x256x1024) ![0, 0, 0] S2x256x1024.size Facts₀.inb_S2x256x1024_S2x256x1024_0_0_0, v⟩] = v := by
  have h := View.read_writes_eq_canon (View.whole cc0_stg8_0 : View sig .tc .vmem S2x256x1024 .f32) f
    [(⟨Rect.unit (s := S2x256x1024) ![0, 0, 0] S2x256x1024.size Facts₀.inb_S2x256x1024_S2x256x1024_0_0_0, v⟩ : View.Piece (Elt F) S2x256x1024 .f32)]
    (fun y => ⟨_, List.mem_singleton_self _, View.mem_set_unit_zero hz3 Facts₀.inb_S2x256x1024_S2x256x1024_0_0_0 y⟩)
  rw [View.read_whole, View.canon_unit_zero (S := S2x256x1024) hz3] at h
  exact h

/-- The stacked contents, as two pieces over the landing buffer's own view. -/
theorem stack_landed (p : Dev nD) :
    stackOf m p = (wrM : Memref sig .tc .vmem S128x1024 .bf16).view.writes (Elt F) (fun _ => ukOf m p (ValueIdx.ix2 0 0)) [⟨rBot, uvOf m p⟩, ⟨rTop, ukOf m p⟩] := by
  have h := View.read_writes_of_cover (View.whole cc0_scratch2) (fun _ => ukOf m p (ValueIdx.ix2 0 0)) (View.whole cc0_scratch3) (fun _ => ukOf m p (ValueIdx.ix2 0 0))
    ([⟨rBot, uvOf m p⟩, ⟨rTop, ukOf m p⟩] : List (View.Piece (Elt F) S128x1024 .bf16)) (stack_cover (ukOf m p) (uvOf m p))
  rw [View.read_whole, View.read_whole] at h
  exact h

/-- The bottom piece (rows 64 to 127) and the top rectangle (rows 0 to 63) share no row. -/
theorem bot_disjoint_top : Disjoint rBot.set rTop.toLoadRect.set := by
  show Disjoint rBot.set rTop.set
  exact Rect.unit_disjoint (0 : Fin 2) (Or.inr (by decide))

/-- Rows 64 to 127 of the stacked contents are the rows of Wuv: the newest piece, read through its own rectangle. -/
theorem read_bot (p : Dev nD) :
    View.readAt (Elt F) (wrM : Memref sig .tc .vmem S128x1024 .bf16).view rBot.toLoadRect (stackOf m p) = uvOf m p := by
  rw [stack_landed, View.readAt_writes_of_cover _ _ _ _ (fun j => ⟨⟨rBot, uvOf m p⟩, List.mem_cons_self .., rBot.toLoadRect.idx_mem j⟩),
    View.readCov_cons_toLoadRect]

/-- Among the two pieces, the top rectangle is covered by the older one alone: the newer piece lies wholly below it. -/
theorem read_top_cov (p : Dev nD) :
    (wrM : Memref sig .tc .vmem S128x1024 .bf16).view.readCov ([⟨rBot, uvOf m p⟩, ⟨rTop, ukOf m p⟩] : List (View.Piece (Elt F) S128x1024 .bf16)) rTop.toLoadRect
      = ukOf m p := by
  rw [View.readCov_eq_canon']
  funext j
  rw [View.canon_cons_of_not_mem (⟨rBot, uvOf m p⟩ : View.Piece (Elt F) S128x1024 .bf16) [(⟨rTop, ukOf m p⟩ : View.Piece (Elt F) S128x1024 .bf16)]
    (Finset.disjoint_right.mp bot_disjoint_top (rTop.toLoadRect.idx_mem j))]
  exact View.canon_cons_emb (Val := Elt F) (e := .bf16) rTop (ukOf m p) [] j

/-- Rows 0 to 63 of the stacked contents are the rows of Wuk. -/
theorem read_top (p : Dev nD) :
    View.readAt (Elt F) (wrM : Memref sig .tc .vmem S128x1024 .bf16).view rTop.toLoadRect (stackOf m p) = ukOf m p := by
  rw [stack_landed, View.readAt_writes_of_cover _ _ _ _
    (fun j => ⟨⟨rTop, ukOf m p⟩, List.mem_cons_of_mem _ (List.mem_singleton.mpr rfl), rTop.toLoadRect.idx_mem j⟩)]
  exact read_top_cov m p

end Cert.KernelIdeal.Proto

end
-- ==== Proof.KernelIdealRun.lean ====
/-
  One device's body, run.

  In program order: the unit to the partner's barrier cell (with it the device's two landing buffers and that it stands at
  round 0 of both its receive cells); the wait on its own barrier cell (with it the partner's landing buffers); the loads
  of x, Wdkv, Wuk, Wuv; the three stores into the send buffers; the two copies to the partner; the loads of Wq, Wqr, Wkr;
  the four waits on its own send and receive cells; the loads of what landed; the load of Wo and the store of the result.
-/
import proofs.«900378_g7700000000000379_dist_mla_v7x_xyz2x2x4_y_b2_s256_d1024_dc64_f32_1_alg».proof.Proof.KernelIdealReads

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The payloads with their buffers written out -/

/-- A barrier cell's one duty hands its owner the partner's two landing buffers, at any contents, and that the partner
    stands at round 0 of both its receive cells. -/
@[sl_rounds] theorem payload_bar_x (c : Dev nD) (d : Unit) :
    (xchg (F := F) m).payload (barCell c) 0 d
      = iprop((∃ f, ((lrM : Memref sig .tc .vmem S512x64 .bf16).view.loc (pt c : Thread nD τ) ↦[(lrM : Memref sig .tc .vmem S512x64 .bf16).view.set]{fullShare} f)) ∗ (∃ f, ((wrM : Memref sig .tc .vmem S128x1024 .bf16).view.loc (pt c : Thread nD τ) ↦[(wrM : Memref sig .tc .vmem S128x1024 .bf16).view.set]{fullShare} f))
          ∗ reached ER (lrCell (pt c)) 0 ∗ reached ER (wrCell (pt c)) 0) :=
  (payload_bar m c d).trans rfl
/-- A send cell's duty hands back the send buffer as it was sent; a receive cell's, the landing buffer holding the
    partner's piece. -/
@[sl_rounds] theorem payload_ls_x (c : Dev nD) (d : Unit) :
    (xchg (F := F) m).payload (lsCell c) 0 d = ((lsM : Memref sig .tc .vmem S512x64 .bf16).view.loc (c : Thread nD τ) ↦[(lsM : Memref sig .tc .vmem S512x64 .bf16).view.set]{fullShare} latOf m c) := (payload_ls m c d).trans rfl
@[sl_rounds] theorem payload_lr_x (c : Dev nD) (d : Unit) :
    (xchg (F := F) m).payload (lrCell c) 0 d = ((lrM : Memref sig .tc .vmem S512x64 .bf16).view.loc (c : Thread nD τ) ↦[(lrM : Memref sig .tc .vmem S512x64 .bf16).view.set]{fullShare} latOf m (pt c)) := (payload_lr m c d).trans rfl
@[sl_rounds] theorem payload_ws_x (c : Dev nD) (d : Unit) :
    (xchg (F := F) m).payload (wsCell c) 0 d = ((wsM : Memref sig .tc .vmem S128x1024 .bf16).view.loc (c : Thread nD τ) ↦[(wsM : Memref sig .tc .vmem S128x1024 .bf16).view.set]{fullShare} stackOf m c) := (payload_ws m c d).trans rfl
@[sl_rounds] theorem payload_wr_x (c : Dev nD) (d : Unit) :
    (xchg (F := F) m).payload (wrCell c) 0 d = ((wrM : Memref sig .tc .vmem S128x1024 .bf16).view.loc (c : Thread nD τ) ↦[(wrM : Memref sig .tc .vmem S128x1024 .bf16).view.set]{fullShare} stackOf m (pt c)) := (payload_wr m c d).trans rfl

/-- The same three duties as their PAYER reads them, the cell being the partner's: what the device hands over with its
    signal is its OWN two landing buffers and its own standing; what its copies leave in the partner's landing buffers
    is its own pieces. (The partner's partner is the device.) -/
@[sl_rounds high] theorem payload_bar_pt (c : Dev nD) (d : Unit) :
    (xchg (F := F) m).payload (barCell (pt c)) 0 d
      = iprop((∃ f, ((lrM : Memref sig .tc .vmem S512x64 .bf16).view.loc (c : Thread nD τ) ↦[(lrM : Memref sig .tc .vmem S512x64 .bf16).view.set]{fullShare} f)) ∗ (∃ f, ((wrM : Memref sig .tc .vmem S128x1024 .bf16).view.loc (c : Thread nD τ) ↦[(wrM : Memref sig .tc .vmem S128x1024 .bf16).view.set]{fullShare} f))
          ∗ reached ER (lrCell c) 0 ∗ reached ER (wrCell c) 0) := by
  rw [payload_bar]; unfold barPay lrPts wrPts; rw [pt_pt]
@[sl_rounds high] theorem payload_lr_pt (c : Dev nD) (d : Unit) :
    (xchg (F := F) m).payload (lrCell (pt c)) 0 d = ((lrM : Memref sig .tc .vmem S512x64 .bf16).view.loc (pt c : Thread nD τ) ↦[(lrM : Memref sig .tc .vmem S512x64 .bf16).view.set]{fullShare} latOf m c) := by
  rw [payload_lr]; unfold lrPay lrPts; rw [pt_pt]
@[sl_rounds high] theorem payload_wr_pt (c : Dev nD) (d : Unit) :
    (xchg (F := F) m).payload (wrCell (pt c)) 0 d = ((wrM : Memref sig .tc .vmem S128x1024 .bf16).view.loc (pt c : Thread nD τ) ↦[(wrM : Memref sig .tc .vmem S128x1024 .bf16).view.set]{fullShare} stackOf m c) := by
  rw [payload_wr]; unfold wrPay wrPts; rw [pt_pt]

attribute [local sl_rounds] pt_pt

-- the partner and the printed device words are compared through the equations `dev1_eq`, `dev2_eq`, `dev3_eq`, never by
-- unfolding their word arithmetic at a symbolic device
attribute [local irreducible] Out.partner k0_dev1 k0_dev2 k0_dev3

/-! ## The run -/

set_option maxHeartbeats 1600000 in
theorem sound_body (c : Dev nD) (t : Fin cfg0.N) :
    bodyPre m c t ⊢ wp frame (wpE (defs₀ (F := F)) 𝒱₀ c none) Set.univ (bodyAt0 t) (fun _ => bodyPost m c t) := by
  rw [fin_N0 t]
  unfold bodyPre bodyPost
  rw [show (dats m 0 c).Φ t0_0.castSucc = Φ₀ m c from rfl, show (dats m 0 c).Φ t0_0.succ = Φ₁ c from rfl]
  unfold Φ₀ start scratch lsPts lrPts wsPts wrPts owns
  iintro ⟨⟨⟨⟨%K, Hg⟩, HcB, HcLR, HcWR, #Hlev⟩, ⟨%f0, Hls⟩, ⟨%f1, Hlr⟩, ⟨%f2, Hws⟩, ⟨%f3, Hwr⟩⟩, Ho,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩⟩
  unfold ghost invs
  icases Hg with ⟨⟨#HIbar, #HIls, #HIlr, #HIws, #HIwr, #HIbarP, #HIlrP, #HIwrP⟩, HatB, HatLS, HatLR, HatWS, HatWR, #HrBP, #HrLRP, #HrWRP, #HrLS, #HrWS, #HrLR, #HrWR,
      HtBP, HtLRP, HtWRP, HtLS, HtWS⟩
  have h0 : g0 = a0 m c := hg0.trans (before_in m c (0 : Fin 9) (by decide) d0)
  have h1 : g1 = a1 m c := hg1.trans (before_in m c (1 : Fin 9) (by decide) d1)
  have h2 : g2 = a2 m c := hg2.trans (before_in m c (2 : Fin 9) (by decide) d2)
  have h3 : g3 = a3 m c := hg3.trans (before_in m c (3 : Fin 9) (by decide) d3)
  have h4 : g4 = a4 m c := hg4.trans (before_in m c (4 : Fin 9) (by decide) d4)
  have h5 : g5 = a5 m c := hg5.trans (before_in m c (5 : Fin 9) (by decide) d5)
  have h6 : g6 = a6 m c := hg6.trans (before_in m c (6 : Fin 9) (by decide) d6)
  have h7 : g7 = a7 m c := hg7.trans (before_in m c (7 : Fin 9) (by decide) d7)
  subst h0 h1 h2 h3 h4 h5 h6 h7
  unfold Dat.owesAt Pipeline.owesWithin
  icases Ho with ⟨%W, %hW, HO⟩
  rw [show (dats m 0 c).owed t0_0.castSucc = O₀ c from rfl]
  unfold O₀ O₁
  have hd1 : (⟨k0_dev1 c, Facts₀.k0_dev1_lt c⟩ : Dev nD) = pt c := dev1_eq c
  have hd2 : (⟨k0_dev2 c, Facts₀.k0_dev2_lt c⟩ : Dev nD) = pt c := dev2_eq c
  have hd3 : (⟨k0_dev3 c, Facts₀.k0_dev3_lt c⟩ : Dev nD) = pt c := dev3_eq c
  -- at the barrier wait the device still owes the partner's two receive cells, which stand above its barrier cell
  have hmw : (levAts L lv : sProp 𝕄) ⊢ MayWait (c : Thread nD τ) (.reg barS) () (tallyAt (wrCell (pt c)) () NW + tallyAt (lrCell (pt c)) () NL) :=
    mayWait_bar c
  unfold bodyAt0
  sl_unfold [cc0_body]
  -- to the copies: the signal, the barrier wait, the loads of x, Wdkv, Wuk, Wuv and the three stores
  set_option sl_exec.maxSteps 22 in sl_exec
  -- the send buffers hold what the copies' duties say they hand back: the device's latent columns, and its rows of
  -- Wuk stacked on its rows of Wuv
  sl_unfold_words
  rw [read_st0, read_st1, read_st2, read_st3]
  rw [ls_stored, show k0_pay6 (k0_pay5 (a0 m c) (a1 m c)) = latOf m c from rfl,
    show k0_pay8 (k0_pay4 (a3 m c)) = uvOf m c from rfl, show k0_pay7 (k0_pay3 (a2 m c)) = ukOf m c from rfl, stack_stored]
  sl_exec
  -- the four own cells have no later round: closed, their counters at zero are the device's again
  imod (Rounds.cell_close ER (xchg m) (Set.mem_univ (K (c, 1))) (fun h => h) (R := 0 + 1) (duties_later m (lsCell c))) $$ [HatLS] with HzLS
  · isplitr; · iexact HIls
    iexact HatLS
  imod (Rounds.cell_close ER (xchg m) (Set.mem_univ (K (c, 2))) (fun h => h) (R := 0 + 1) (duties_later m (lrCell c))) $$ [HatLR] with HzLR
  · isplitr; · iexact HIlr
    iexact HatLR
  imod (Rounds.cell_close ER (xchg m) (Set.mem_univ (K (c, 3))) (fun h => h) (R := 0 + 1) (duties_later m (wsCell c))) $$ [HatWS] with HzWS
  · isplitr; · iexact HIws
    iexact HatWS
  imod (Rounds.cell_close ER (xchg m) (Set.mem_univ (K (c, 4))) (fun h => h) (R := 0 + 1) (duties_later m (wrCell c))) $$ [HatWR] with HzWR
  · isplitr; · iexact HIwr
    iexact HatWR
  -- the result block: every load read its whole buffer, the landed pieces are the partner's, the one store covers the block
  sl_unfold_words
  rw [read_st4, read_st5, read_st6, read_st7, read_lr, read_top, read_bot, out_stored]
  sl_step
  rw [show (dats m 0 c).owed t0_0.succ = 0 from rfl]
  isplitl [HatLS_pay1 HatLR_pay1 HatWS_pay1 HatWR_pay1 HzLS HzLR HzWS HzWR]
  · unfold Φ₁ scratch lsPts lrPts wsPts wrPts
    isplitl [HatLS_pay1 HatLR_pay1 HatWS_pay1 HatWR_pay1]
    · isplitl [HatLS_pay1]; · iexists _; iexact HatLS_pay1
      isplitl [HatLR_pay1]; · iexists _; iexact HatLR_pay1
      isplitl [HatWS_pay1]; · iexists _; iexact HatWS_pay1
      iexists _; iexact HatWR_pay1
    isplitl [HzLS]; · iexact HzLS
    isplitl [HzLR]; · iexact HzLR
    isplitl [HzWS]; · iexact HzWS
    iexact HzWR
  isplitl [HO]
  · iexists _; isplitr
    rotate_left
    · iexact HO
    · ipureintro; exact fun _ _ => Or.inl trivial
  isplitl [H0]
  · iexists _; isplitr
    · ipureintro; rfl
    · iexact H0
  isplitl [H1]
  · iexists _; isplitr
    · ipureintro; rfl
    · iexact H1
  isplitl [H2]
  · iexists _; isplitr
    · ipureintro; rfl
    · iexact H2
  isplitl [H3]
  · iexists _; isplitr
    · ipureintro; rfl
    · iexact H3
  isplitl [H4]
  · iexists _; isplitr
    · ipureintro; rfl
    · iexact H4
  isplitl [H5]
  · iexists _; isplitr
    · ipureintro; rfl
    · iexact H5
  isplitl [H6]
  · iexists _; isplitr
    · ipureintro; rfl
    · iexact H6
  isplitl [H7]
  · iexists _; isplitr
    · ipureintro; rfl
    · iexact H7
  iexists _; isplitr
  · ipureintro; rfl
  · iexact H8

/-- The library's body obligation, on every device: the windows opened one by one, then the run. -/
theorem body_obligation (c : Dev nD) : BodyObligation (dats (F := F) m 0 c) (defs₀ (F := F)) 𝒱₀ () Set.univ := fun t => by
  rw [bigSep_W0, bigSep_W0]
  exact sound_body m c t

end Cert.KernelIdeal.Proto

end
-- ==== Proof.KernelIdealLaunch.lean ====
/-
  The launch: from every device's body to the run of the whole mesh.

  At launch the exchange's ghost state is made once for all sixteen devices: every cell of the schedule gets its round
  state, its owner's position and its duty token. The tokens are then dealt to the devices that PAY the duties — a
  device's barrier token and its two receive tokens go to its partner, its two send tokens stay —, the cells'
  invariants are allocated from the semaphores' zero counters (the four own ones and the runtime's barrier semaphore),
  and each device is credited with what the others owe its cells: one barrier unit and two receive credits, all from
  its partner. The levels (barrier cells below receive cells, everything else below both) make every wait of the
  pipeline and of the body admissible.
-/
import proofs.«900378_g7700000000000379_dist_mla_v7x_xyz2x2x4_y_b2_s256_d1024_dc64_f32_1_alg».proof.Proof.KernelIdealRun

noncomputable section

namespace Cert.KernelIdeal.Proto

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Each cell's one duty token, as minted. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of a device's own cells. -/
def toks (c : Dev nD) : sProp 𝕄 :=
  iprop(dutyTok ER (barCell c) 0 () ∗ dutyTok ER (lsCell c) 0 () ∗ dutyTok ER (lrCell c) 0 () ∗ dutyTok ER (wsCell c) 0 () ∗ dutyTok ER (wrCell c) 0 ())

/-- What the launch element deals a device. -/
def G (c : Dev nD) : sProp 𝕄 :=
  iprop((bigSep Finset.univ fun k : Fin 5 => roundState ER (xchg m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (xchg m) xCells xToks) $$ HX with ⟨Hst, Hr, Hat, Htok⟩
  imodintro
  ihave Hst' := (Entails.of_eq (hX fun g => roundState ER (xchg m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The four copy semaphores are the kernel's own; -/
theorem ownSems0_eq (c : Dev nD) : (Pipeline.ownSems0 (Ix := Unit) (Name := ℕ) (U := UU) (Lvl := ℕ) (Val := Elt F) (τ := τ) osem c : sProp 𝕄)
    = iprop(semVal (lsCell c) 0 ∗ semVal (lrCell c) 0 ∗ semVal (wsCell c) 0 ∗ semVal (wrCell c) 0) := by
  rw [Pipeline.ownSems0_eq_of_list c osem [0, 1, 2, 3] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xchg m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (xchg m) (kcell (c, k)) 0)
      ⊢ (|={Set.univ}=> bigSep Finset.univ fun k => iprop(∃ κ : ℕ, cellInv ER (xchg m) κ (kcell (c, k))) : sProp 𝕄) from by
        rw [← bigSep_sep']
        exact (bigSep_mono fun k _ => (Rounds.body_intro ER (xchg m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 5 → ℕ) : sProp 𝕄 :=
  iprop((bigSep Finset.univ fun ck : Dev nD × Fin 5 => cellInv ER (xchg m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (xchg m) (K ck) (kcell ck) : sProp 𝕄)) ⊢ cellInv ER (xchg m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- What stays with a device: its positions, and the tokens of the duties IT pays. -/
def payToks (c : Dev nD) : sProp 𝕄 :=
  iprop(dutyTok ER (barCell (pt c)) 0 () ∗ dutyTok ER (lrCell (pt c)) 0 () ∗ dutyTok ER (wrCell (pt c)) 0 () ∗ dutyTok ER (lsCell c) 0 () ∗ dutyTok ER (wsCell c) 0 ())
def linear (c : Dev nD) : sProp 𝕄 :=
  iprop((atPos ER (barCell c) 0 ∅ 0 ∗ atPos ER (lsCell c) 0 ∅ 0 ∗ atPos ER (lrCell c) 0 ∅ 0 ∗ atPos ER (wsCell c) 0 ∅ 0 ∗ atPos ER (wrCell c) 0 ∅ 0) ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaLS, HaLR, HaWS, HaWR⟩, HtB, HtLR, HtWR, HtLS, HtWS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (pt c, 0)); iexact HI
    isplitr; · iapply (inv_at m K (pt c, 2)); iexact HI
    iapply (inv_at m K (pt c, 4)); iexact HI
  isplitl [HaB]; · iexact HaB
  isplitl [HaLS]; · iexact HaLS
  isplitl [HaLR]; · iexact HaLR
  isplitl [HaWS]; · iexact HaWS
  isplitl [HaWR]; · iexact HaWR
  isplitr; · iapply (reached_at (F := F) (pt c, 0)); iexact HR
  isplitr; · iapply (reached_at (F := F) (pt c, 2)); iexact HR
  isplitr; · iapply (reached_at (F := F) (pt c, 4)); iexact HR
  isplitr; · iapply (reached_at (F := F) (c, 1)); iexact HR
  isplitr; · iapply (reached_at (F := F) (c, 3)); iexact HR
  isplitr; · iapply (reached_at (F := F) (c, 2)); iexact HR
  isplitr; · iapply (reached_at (F := F) (c, 4)); iexact HR
  isplitl [HtB]; · iexact HtB
  isplitl [HtLR]; · iexact HtLR
  isplitl [HtWR]; · iexact HtWR
  isplitl [HtLS]; · iexact HtLS
  iexact HtWS

/-- The tokens dealt within each pair: a barrier's and the two receive cells' to the partner, the send cells' kept. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pair (fun c : Dev nD => (dutyTok ER (barCell c) 0 () : sProp 𝕄)),
    bigSep_univ_equiv pair (fun c : Dev nD => (dutyTok ER (lrCell c) 0 () : sProp 𝕄)),
    bigSep_univ_equiv pair (fun c : Dev nD => (dutyTok ER (wrCell c) 0 () : sProp 𝕄))]
  iintro ⟨HB, HLS, HLR, HWS, HWR⟩
  isplitl [HB]; · iexact HB
  isplitl [HLR]; · iexact HLR
  isplitl [HWR]; · iexact HWR
  isplitl [HLS]; · iexact HLS
  iexact HWS

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (xchg m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (xchg m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (xchg m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem cell_dev_eq {a b : Dev nD} {s : SemLoc sig} (h : ((a : Thread nD τ), s) = (((b : Thread nD τ), s) : GSem nD τ sig)) : a = b :=
  Fin.ext (congrArg (fun g : GSem nD τ sig => g.1.1.val) h)

/-- What device `d` owes device `c`'s barrier cell: a unit if it is `c`'s partner. -/
theorem owed_bar (d c : Dev nD) : O₀ d (barCell c) () = if d = pt c then 1 else 0 := by
  unfold O₀ O₁
  rw [Pi.add_apply, Finsupp.add_apply, Pi.add_apply, Finsupp.add_apply,
    tallyAt_ne_cell (fun h => wr_ne_bar (congrArg Prod.snd h).symm), tallyAt_ne_cell (fun h => lr_ne_bar (congrArg Prod.snd h).symm),
    tallyAt_apply, Finsupp.zero_apply, Nat.zero_add, Nat.zero_add]
  by_cases h : d = pt c
  · subst h; rw [pt_pt, if_pos ⟨rfl, rfl⟩, if_pos rfl]
  · rw [if_neg (fun ⟨h1, _⟩ => h (by rw [← pt_pt d]; exact congrArg pt (cell_dev_eq h1).symm)), if_neg h]

theorem owed_lr (d c : Dev nD) : O₀ d (lrCell c) () = if d = pt c then NL else 0 := by
  unfold O₀ O₁
  rw [Pi.add_apply, Finsupp.add_apply, Pi.add_apply, Finsupp.add_apply,
    tallyAt_ne_cell (fun h => wr_ne_lr (congrArg Prod.snd h).symm), tallyAt_apply,
    tallyAt_ne_cell (fun h => lr_ne_bar (congrArg Prod.snd h)), Finsupp.zero_apply, Nat.zero_add, Nat.add_zero]
  by_cases h : d = pt c
  · subst h; rw [pt_pt, if_pos ⟨rfl, rfl⟩, if_pos rfl]
  · rw [if_neg (fun ⟨h1, _⟩ => h (by rw [← pt_pt d]; exact congrArg pt (cell_dev_eq h1).symm)), if_neg h]

theorem owed_wr (d c : Dev nD) : O₀ d (wrCell c) () = if d = pt c then NW else 0 := by
  unfold O₀ O₁
  rw [Pi.add_apply, Finsupp.add_apply, Pi.add_apply, Finsupp.add_apply,
    tallyAt_apply, tallyAt_ne_cell (fun h => wr_ne_lr (congrArg Prod.snd h)),
    tallyAt_ne_cell (fun h => wr_ne_bar (congrArg Prod.snd h)), Finsupp.zero_apply, Nat.add_zero, Nat.add_zero]
  by_cases h : d = pt c
  · subst h; rw [pt_pt, if_pos ⟨rfl, rfl⟩, if_pos rfl]
  · rw [if_neg (fun ⟨h1, _⟩ => h (by rw [← pt_pt d]; exact congrArg pt (cell_dev_eq h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pt c) fun _ => 1, if_pos (Finset.mem_univ _)]
theorem launch_lr (c : Dev nD) :
    tallyOn (lrCell c) (launchCredit (Pipeline.owing O₀) 0 (lrCell c)) = (tallyAt (lrCell c) () NL : CellTallies nD τ sig Unit) := by
  unfold tallyAt; refine congrArg _ (Finsupp.ext fun u => ?_); cases u
  rw [Pipeline.launchCredit_owing, Finsupp.single_eq_same, Finset.sum_congr rfl fun d _ => owed_lr d c,
    Finset.sum_ite_eq' Finset.univ (pt c) fun _ => NL, if_pos (Finset.mem_univ _)]
theorem launch_wr (c : Dev nD) :
    tallyOn (wrCell c) (launchCredit (Pipeline.owing O₀) 0 (wrCell c)) = (tallyAt (wrCell c) () NW : CellTallies nD τ sig Unit) := by
  unfold tallyAt; refine congrArg _ (Finsupp.ext fun u => ?_); cases u
  rw [Pipeline.launchCredit_owing, Finsupp.single_eq_same, Finset.sum_congr rfl fun d _ => owed_wr d c,
    Finset.sum_ite_eq' Finset.univ (pt c) fun _ => NW, if_pos (Finset.mem_univ _)]

theorem creds (c : Dev nD) :
    (Pipeline.launchCred O₀ c : sProp 𝕄) ⊢ iprop(cred (tallyAt (barCell c) () 1) ∗ cred (tallyAt (lrCell c) () NL) ∗ cred (tallyAt (wrCell c) () NW)) := by
  unfold Pipeline.launchCred
  rw [bigSep_univ_at _ (SemLoc.reg barS), launch_bar]
  refine sep_mono_right ?_
  rw [bigSep_erase (i := SemLoc.dma lr0.sem) (Finset.mem_erase.mpr ⟨lr_ne_bar, Finset.mem_univ _⟩), launch_lr]
  refine sep_mono_right ?_
  rw [← launch_wr]
  exact bigSep_elim (Finset.mem_erase.mpr ⟨wr_ne_lr, Finset.mem_erase.mpr ⟨wr_ne_bar, Finset.mem_univ _⟩⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, H2, H3⟩
  imodintro
  unfold start G'
  isplitl
  · isplitl [HG]; · iexact HG
    isplitl [H1]; · iexact H1
    isplitl [H2]; · iexact H2
    isplitl [H3]; · iexact H3
    iexact Hlev
  · iempintro

theorem scratch_eq (c : Dev nD) : (scratch c : sProp 𝕄) = Pipeline.scopedRest cfg0.spec c := by
  rw [scopedRest0_eq]; unfold scratch lsPts lrPts wsPts wrPts
  simp only [Memref.view_whole, View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratch_eq]
  unfold Φ₀
  iintro ⟨Hs, -, Hr⟩
  isplitl [Hs] <;> iassumption

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, ← scratch_eq, ownSems0_eq]
  unfold Φ₁
  iintro ⟨Hr, Hz⟩
  isplitr; · iempintro
  isplitl [Hz] <;> iassumption

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of sixteen devices, for any float values, from any memory with zero counters: every weakly fair
    execution of @main — the partners greeting each other on the runtime's barrier semaphore, then exchanging their
    halves — terminates, and every final state has every windowed array at the contents the proof data computes. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdeal.Proto

end
-- ==== Proof.KernelIdealFinal.lean ====
/-
  The arrays after the grid's one point.

  The grid has a single point. The eight argument windows are inputs: an input's array is never written back, so
  after the point it holds what it held at entry. The ninth window is the output: its block is the whole result
  array, written back at the point, and a write of the whole block over the array leaves exactly the block, whatever
  the array held before. So a memory that holds every window's final array holds the result block in the result
  buffer and the eight arguments unchanged.
-/
import proofs.«900378_g7700000000000379_dist_mla_v7x_xyz2x2x4_y_b2_s256_d1024_dc64_f32_1_alg».proof.Proof.KernelIdealBody

noncomputable section

namespace Cert.KernelIdeal.Final

open Cert.KernelIdeal Cert.KernelIdeal.Gen Cert.KernelIdeal.Proto

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- An input window's array after the point is its array at entry. -/
theorem final_in (c : Dev nD) (w : Fin cfg0.W) (hw : w.val < 8) :
    (dats m 0 c).arrAt w cfg0.N = m ((cfg0.win w).arr.view.loc (c : Thread nD τ)) := by
  match w, hw with
  | ⟨0, _⟩, _ => exact (dats m 0 c).arrAt_in 0 rfl _
  | ⟨1, _⟩, _ => exact (dats m 0 c).arrAt_in 1 rfl _
  | ⟨2, _⟩, _ => exact (dats m 0 c).arrAt_in 2 rfl _
  | ⟨3, _⟩, _ => exact (dats m 0 c).arrAt_in 3 rfl _
  | ⟨4, _⟩, _ => exact (dats m 0 c).arrAt_in 4 rfl _
  | ⟨5, _⟩, _ => exact (dats m 0 c).arrAt_in 5 rfl _
  | ⟨6, _⟩, _ => exact (dats m 0 c).arrAt_in 6 rfl _
  | ⟨7, _⟩, _ => exact (dats m 0 c).arrAt_in 7 rfl _

/-- The output window's array after the point is the result block: the one write-back writes the whole block, at
    zero offsets, over the whole array. -/
theorem final_out (c : Dev nD) : (dats m 0 c).arrAt (8 : Fin 9) cfg0.N = outOf m c := by
  have hN : cfg0.N = t0_0.val + 1 := N_0
  rw [hN, (dats m 0 c).arrAt_succ 8 t0_0, if_pos (flush0_8 t0_0)]
  have hz : (fun a => win0_8.index t0_0 a * main_v1.ty.shape.size a) = fun _ => 0 := funext fun a => Nat.zero_mul _
  exact Memref.write_access_unit_zero_univ (Elt F) main_v1 hz (fun a => by rw [congrFun hz a]; simp) _ (outOf m c)

/-- A memory holding every window's final array holds the result block in the result buffer and the eight
    arguments as they were. -/
theorem post_of_final (r : MemSt nD τ sig (Elt F))
    (h : ∀ c : Dev nD, ∀ w : Fin cfg0.W, r.mem ((cfg0.win w).arr.view.loc (c : Thread nD τ)) = (dats m 0 c).arrAt w cfg0.N)
    (c : Dev nD) :
    r.mem ((c.tc : Thread nD τ).loc main_v1) = outOf m c
      ∧ r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)
      ∧ r.mem ((c.tc : Thread nD τ).loc main_arg6) = m ((c.tc : Thread nD τ).loc main_arg6)
      ∧ r.mem ((c.tc : Thread nD τ).loc main_arg7) = m ((c.tc : Thread nD τ).loc main_arg7) :=
  ⟨(h c 8).trans (final_out m c),
    (h c 0).trans (final_in m c 0 (by decide)),
    (h c 1).trans (final_in m c 1 (by decide)),
    (h c 2).trans (final_in m c 2 (by decide)),
    (h c 3).trans (final_in m c 3 (by decide)),
    (h c 4).trans (final_in m c 4 (by decide)),
    (h c 5).trans (final_in m c 5 (by decide)),
    (h c 6).trans (final_in m c 6 (by decide)),
    (h c 7).trans (final_in m c 7 (by decide))⟩

end Cert.KernelIdeal.Final

end
-- ==== Proof.KernelIdealFrame.lean ====
/-
  The whole mesh's run, with the strongest post the claims need: after every weakly fair execution each device's result
  array holds its result block — a term of its own argument blocks and of the three pieces its partner sent — and each
  of its eight argument arrays holds what it held.
-/
import proofs.«900378_g7700000000000379_dist_mla_v7x_xyz2x2x4_y_b2_s256_d1024_dc64_f32_1_alg».proof.Proof.KernelIdealLaunch
import proofs.«900378_g7700000000000379_dist_mla_v7x_xyz2x2x4_y_b2_s256_d1024_dc64_f32_1_alg».proof.Proof.KernelIdealFinal

noncomputable section

namespace Cert.KernelIdeal.Proto

open Cert.KernelIdeal Cert.KernelIdeal.Gen
open Idealize.ShloMosaic Idealize.ShloMosaic.TcCoe Idealize.SL.Sem

variable {F : FTy → Type} [FloatOps F]

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => Cert.KernelIdeal.Final.post_of_final m r.2 h c) (run_main m ρ)

end Cert.KernelIdeal.Proto

end
-- ==== Proof.Spec.lean ====
/-
  Multi-head latent attention, index by index, over the whole arrays and the extended reals.

  x : [2, 256, 1024] (batch b, position s, model axis i). The latent is lat = x · Wdkv : [2, 256, 128]; keys and values
  are read out of it per head h < 16 and head coordinate d < 64 by Wuk and Wuv (column 64 h + d); queries by Wq from x
  directly. A second, position part of 32 coordinates per head comes from Wqr for the query (column 32 h + e) and from
  Wkr for the key, the same for every head. The score of query position s against key position t in head h is the sum
  of the two inner products; its weight is exp (score · scale), and the attention output is the weighted sum of the
  values over t divided by the sum of the weights. The result multiplies the heads, laid side by side (column
  64 h + d), by Wo.
-/
import Idealize.ShloMosaic.PureOps.Ideal
import Idealize.ShloMosaic.Lib.ValueIdx

noncomputable section

namespace Cert.Spec

open Idealize.ShloMosaic Idealize.ShloMosaic.ValueIdx

/-- Every entry of an array is a real number (neither infinity). -/
def AllReal {S : Shape} (v : S.Idx → EReal) : Prop := ∀ i, ∃ r : ℝ, v i = (r : EReal)

/-- Column `w h + d` of an axis of `16 w` columns: head `h`, coordinate `d`. -/
def headCol {w : Nat} (h : Fin 16) (d : Fin w) : Fin (16 * w) :=
  ⟨w * h.val + d.val, by have := h.isLt; have := d.isLt; nlinarith⟩

/-- The softmax scale, 96^(-1/2) rounded to f32: the one word both programs carry. -/
def scale : EReal := Ideal.ofBits .f32 0x3DD105EC#32

variable (X : (⟨3, ![2, 256, 1024]⟩ : Shape).Idx → EReal) (Wdkv : (⟨2, ![1024, 128]⟩ : Shape).Idx → EReal)
  (Wuk Wuv : (⟨2, ![128, 1024]⟩ : Shape).Idx → EReal) (Wq : (⟨2, ![1024, 1024]⟩ : Shape).Idx → EReal)
  (Wqr : (⟨2, ![1024, 512]⟩ : Shape).Idx → EReal) (Wkr : (⟨2, ![1024, 32]⟩ : Shape).Idx → EReal)
  (Wo : (⟨2, ![1024, 1024]⟩ : Shape).Idx → EReal)

/-- The latent: x · Wdkv. -/
def lat (b : Fin 2) (s : Fin 256) (j : Fin 128) : EReal := ∑ i : Fin 1024, X (ix3 b s i) * Wdkv (ix2 i j)

/-- Keys: the latent through Wuk, head `h`, coordinate `d`. -/
def key (b : Fin 2) (t : Fin 256) (h : Fin 16) (d : Fin 64) : EReal :=
  ∑ j : Fin 128, lat X Wdkv b t j * Wuk (ix2 j (headCol h d))

/-- Values: the latent through Wuv. -/
def value (b : Fin 2) (t : Fin 256) (h : Fin 16) (d : Fin 64) : EReal :=
  ∑ j : Fin 128, lat X Wdkv b t j * Wuv (ix2 j (headCol h d))

/-- Queries: x through Wq. -/
def query (b : Fin 2) (s : Fin 256) (h : Fin 16) (d : Fin 64) : EReal :=
  ∑ i : Fin 1024, X (ix3 b s i) * Wq (ix2 i (headCol h d))

/-- The position part of the query: x through Wqr, 32 coordinates per head. -/
def queryPos (b : Fin 2) (s : Fin 256) (h : Fin 16) (e : Fin 32) : EReal :=
  ∑ i : Fin 1024, X (ix3 b s i) * Wqr (ix2 i (headCol h e))

/-- The position part of the key: x through Wkr, shared by the heads. -/
def keyPos (b : Fin 2) (t : Fin 256) (e : Fin 32) : EReal := ∑ i : Fin 1024, X (ix3 b t i) * Wkr (ix2 i e)

/-- The score of query position `s` against key position `t` in head `h`. -/
def score (b : Fin 2) (h : Fin 16) (s t : Fin 256) : EReal :=
  (∑ d : Fin 64, query X Wq b s h d * key X Wdkv Wuk b t h d) + ∑ e : Fin 32, queryPos X Wqr b s h e * keyPos X Wkr b t e

/-- The unnormalised softmax weight. -/
def weight (b : Fin 2) (h : Fin 16) (s t : Fin 256) : EReal :=
  Ideal.exp (score X Wdkv Wuk Wq Wqr Wkr b h s t * scale)

/-- Attention: the weighted sum of the values over the key positions, divided by the sum of the weights. -/
def attend (b : Fin 2) (s : Fin 256) (h : Fin 16) (d : Fin 64) : EReal :=
  Ideal.div (∑ t : Fin 256, weight X Wdkv Wuk Wq Wqr Wkr b h s t * value X Wdkv Wuv b t h d)
    (∑ t : Fin 256, weight X Wdkv Wuk Wq Wqr Wkr b h s t)

/-- The result: the heads side by side (column 64 h + d), through Wo. -/
def out (b : Fin 2) (s : Fin 256) (n : Fin 1024) : EReal :=
  ∑ h : Fin 16, ∑ d : Fin 64, attend X Wdkv Wuk Wuv Wq Wqr Wkr b s h d * Wo (ix2 (headCol h d) n)

end Cert.Spec

end
-- ==== Proof.Finite.lean ====
/-
  From the precondition to "every entry is a real number".

  The precondition is the conjunction, over the eight float inputs, of "every entry's absolute value is below
  +infinity": each input is compared entry by entry with the f32 word of +infinity, the comparisons are reduced by
  "and" over every axis from the constant 1, and the eight results are and-ed together. Its being 1 therefore gives,
  for each input, that the comparison is 1 at every entry; over the extended reals max x (-x) < ⊤ leaves only the reals.

  Two of the weights are held in halves: the latent axis of 128 is cut in two blocks of 64 along the second mesh
  axis, so a device at coordinate 0 on that axis (device 0) holds the first half and one at coordinate 1 (device 4)
  the second. An entry at latent coordinate j is entry j of device 0's block when j < 64 and entry j - 64 of device
  4's block otherwise, so the whole array is real as soon as every device's block is.
-/
import Idealize.ShloMosaic.PureOps.Ideal
import Idealize.ShloMosaic.PureOps.Ideal.Laws
import Idealize.ShloMosaic.Lib.ValueIdx
import Idealize.ShloMosaic.Lib.Layout
import Idealize.ShloMosaic.Lib.ReduceAll
import proofs.«900378_g7700000000000379_dist_mla_v7x_xyz2x2x4_y_b2_s256_d1024_dc64_f32_1_alg».proof.Pre_finite_inputs_Kernel
import proofs.«900378_g7700000000000379_dist_mla_v7x_xyz2x2x4_y_b2_s256_d1024_dc64_f32_1_alg».proof.Proof.Spec

noncomputable section

namespace Cert.Finite

open Idealize.ShloMosaic Idealize.ShloMosaic.ValueIdx
open Cert.Spec (AllReal)

/-! ## One entry -/

/-- The f32 word of +infinity is the top of the extended reals. -/
theorem ofBits_inf_f32 : Ideal.ofBits .f32 0x7F800000#32 = (⊤ : EReal) := by simp [Ideal.ofBits, Ideal.ieee]

/-- An extended real whose absolute value is below +infinity is a real. -/
theorem real_of_abs_lt_top (x : EReal) (h : max x (-x) < ⊤) : ∃ r : ℝ, x = (r : EReal) := by
  induction x using EReal.rec with
  | bot => simp at h
  | coe r => exact ⟨r, rfl⟩
  | top => simp at h

theorem ofBool_eq_one (b : Bool) : BitVec.ofBool b = 1#1 ↔ b = true := by cases b <;> decide

/-- The comparison |x| < +infinity, read back. -/
theorem real_of_cmp (x : EReal) (h : Ideal.cmp .olt (max x (-x)) (Ideal.ofBits .f32 0x7F800000#32) = 1#1) :
    ∃ r : ℝ, x = (r : EReal) := by
  rw [ofBits_inf_f32] at h
  unfold Ideal.cmp at h
  rw [ofBool_eq_one] at h
  exact real_of_abs_lt_top x (of_decide_eq_true h)

/-! ## One input -/

/-- The scalar shape has one index. -/
instance : Subsingleton (⟨0, ![]⟩ : Shape).Idx := ⟨fun a b => funext fun d => d.elim0⟩

/-- One conjunct of the precondition: the "and" over every axis of |x| < +infinity is 1, so every entry of x is real. -/
theorem allReal_of_all {S : Shape} {axes : List (Fin S.rank)} (x : FVec Ideal S .f32)
    (hb : (⟨0, ![]⟩ : Shape).BroadcastsInDim S ![]) (hr : S.ReducesTo axes ⟨0, ![]⟩) (hu : 0 < (⟨0, ![]⟩ : Shape).numel)
    (init : (⟨0, ![]⟩ : Shape).Idx → BitVec 1)
    (e : Host.reduce IntOp.andi
          (cmpf .olt (Host.absf x) (broadcastInDim S ![] hb (constant (F := Ideal) ⟨0, ![]⟩ .f32 0x7F800000#32)))
          init hr hu ix0 = 1#1) :
    AllReal x := by
  intro i
  have hi := Host.reduce_andi_all _ init hr hu ix0 e i
  exact real_of_cmp (x i) hi

/-- An "and" of two one-bit scalars is 1 only if both are. -/
theorem andi_ix0 (a b : IVec ⟨0, ![]⟩ 1) (h : andi a b ix0 = 1#1) : a ix0 = 1#1 ∧ b ix0 = 1#1 := IntOp.andi_eq_one.1 h

/-! ## The precondition -/

theorem allReal_of_pre [Cert.Pre_finite_inputs_Kernel.Facts]
    (x : FVec Ideal Cert.Pre_finite_inputs_Kernel.S2x256x1024 .f32)
    (wdkv : FVec Ideal Cert.Pre_finite_inputs_Kernel.S1024x64 .f32)
    (wuk wuv : FVec Ideal Cert.Pre_finite_inputs_Kernel.S64x1024 .f32)
    (wq : FVec Ideal Cert.Pre_finite_inputs_Kernel.S1024x1024 .f32)
    (wqr : FVec Ideal Cert.Pre_finite_inputs_Kernel.S1024x512 .f32)
    (wkr : FVec Ideal Cert.Pre_finite_inputs_Kernel.S1024x32 .f32)
    (wo : FVec Ideal Cert.Pre_finite_inputs_Kernel.S1024x1024 .f32)
    (h : Cert.Pre_finite_inputs_Kernel.fn (F := Ideal) x wdkv wuk wuv wq wqr wkr wo = fun _ => 1#1) :
    Cert.Spec.AllReal x ∧ Cert.Spec.AllReal wdkv ∧ Cert.Spec.AllReal wuk ∧ Cert.Spec.AllReal wuv ∧ Cert.Spec.AllReal wq
      ∧ Cert.Spec.AllReal wqr ∧ Cert.Spec.AllReal wkr ∧ Cert.Spec.AllReal wo := by
  have e := congrFun h ix0
  dsimp only [Cert.Pre_finite_inputs_Kernel.fn, Cert.Pre_finite_inputs_Kernel.fn_part1,
    Cert.Pre_finite_inputs_Kernel.fn_part2] at e
  obtain ⟨e, h7⟩ := andi_ix0 _ _ e
  obtain ⟨e, h6⟩ := andi_ix0 _ _ e
  obtain ⟨e, h5⟩ := andi_ix0 _ _ e
  obtain ⟨e, h4⟩ := andi_ix0 _ _ e
  obtain ⟨e, h3⟩ := andi_ix0 _ _ e
  obtain ⟨e, h2⟩ := andi_ix0 _ _ e
  obtain ⟨h0, h1⟩ := andi_ix0 _ _ e
  exact ⟨allReal_of_all x _ _ _ _ h0, allReal_of_all wdkv _ _ _ _ h1, allReal_of_all wuk _ _ _ _ h2,
    allReal_of_all wuv _ _ _ _ h3, allReal_of_all wq _ _ _ _ h4, allReal_of_all wqr _ _ _ _ h5,
    allReal_of_all wkr _ _ _ _ h6, allReal_of_all wo _ _ _ _ h7⟩

/-! ## From the devices' halves to the whole array -/

/-- Columns: the [1024, 128] array cut along its second axis in two blocks of 64, by the second mesh axis. -/
theorem allReal_whole_cols (W : (⟨2, ![1024, 128]⟩ : Shape).Idx → EReal)
    (h : ∀ c : Fin 16, Cert.Spec.AllReal (Layout.blockN ⟨2, ![1024, 64]⟩ ⟨2, ![1024, 128]⟩ (Layout.meshBlock [2, 2, 4] ![[], [1]] c) W)) :
    Cert.Spec.AllReal W := by
  intro i
  obtain ⟨p, q, rfl⟩ : ∃ (p : Fin 1024) (q : Fin 128), i = ix2 p q := ⟨i 0, i 1, eq_ix2 i⟩
  have hq := q.isLt
  by_cases hlt : q.val < 64
  · obtain ⟨r, hr⟩ := h 0 (ix2 p ⟨q.val, hlt⟩)
    rw [Layout.blockN_apply] at hr
    refine ⟨r, Eq.trans (congrArg W (funext fun a => Fin.ext ?_)) hr⟩
    rw [Layout.TilesN.idx_val, Layout.meshBlock_val]
    match a with
    | ⟨0, _⟩ => show p.val = 0 * 1024 + p.val; omega
    | ⟨1, _⟩ => show q.val = 0 * 64 + q.val; omega
  · obtain ⟨r, hr⟩ := h 4 (ix2 p ⟨q.val - 64, by omega⟩)
    rw [Layout.blockN_apply] at hr
    refine ⟨r, Eq.trans (congrArg W (funext fun a => Fin.ext ?_)) hr⟩
    rw [Layout.TilesN.idx_val, Layout.meshBlock_val]
    match a with
    | ⟨0, _⟩ => show p.val = 0 * 1024 + p.val; omega
    | ⟨1, _⟩ => show q.val = 1 * 64 + (q.val - 64); omega

/-- Rows: the [128, 1024] array cut along its first axis in two blocks of 64, by the second mesh axis. -/
theorem allReal_whole_rows (W : (⟨2, ![128, 1024]⟩ : Shape).Idx → EReal)
    (h : ∀ c : Fin 16, Cert.Spec.AllReal (Layout.blockN ⟨2, ![64, 1024]⟩ ⟨2, ![128, 1024]⟩ (Layout.meshBlock [2, 2, 4] ![[1], []] c) W)) :
    Cert.Spec.AllReal W := by
  intro i
  obtain ⟨p, q, rfl⟩ : ∃ (p : Fin 128) (q : Fin 1024), i = ix2 p q := ⟨i 0, i 1, eq_ix2 i⟩
  have hp := p.isLt
  by_cases hlt : p.val < 64
  · obtain ⟨r, hr⟩ := h 0 (ix2 ⟨p.val, hlt⟩ q)
    rw [Layout.blockN_apply] at hr
    refine ⟨r, Eq.trans (congrArg W (funext fun a => Fin.ext ?_)) hr⟩
    rw [Layout.TilesN.idx_val, Layout.meshBlock_val]
    match a with
    | ⟨0, _⟩ => show p.val = 0 * 64 + p.val; omega
    | ⟨1, _⟩ => show q.val = 0 * 1024 + q.val; omega
  · obtain ⟨r, hr⟩ := h 4 (ix2 ⟨p.val - 64, by omega⟩ q)
    rw [Layout.blockN_apply] at hr
    refine ⟨r, Eq.trans (congrArg W (funext fun a => Fin.ext ?_)) hr⟩
    rw [Layout.TilesN.idx_val, Layout.meshBlock_val]
    match a with
    | ⟨0, _⟩ => show p.val = 1 * 64 + (p.val - 64); omega
    | ⟨1, _⟩ => show q.val = 0 * 1024 + q.val; omega

end Cert.Finite

end
-- ==== Proof.ReferenceValueIdx.lean ====
/-
  The index functions of the reference's operations, at an index given by its coordinates.

  Each operation of the reference reads its operands at indices computed from the result index (and, for a
  contraction, from the contracted coordinate). At a result index written by coordinates these are again indices
  written by coordinates: a contraction `[.., k] × [k, ..]` reads row `k` and column `k`; a transposition permutes the
  coordinates; a broadcast along an axis of extent one reads coordinate zero there; and the reshapes between
  `[2, 256, 16 w]` and `[2, 256, 16, w]` identify column `w h + d` with the pair `(h, d)` (row-major order: the flat
  offset of `(b, s, h, d)` is `((256 b + s) 16 + h) w + d`).
-/
import proofs.«900378_g7700000000000379_dist_mla_v7x_xyz2x2x4_y_b2_s256_d1024_dc64_f32_1_alg».proof.Proof.Gen.ReferenceIdeal.Read
import proofs.«900378_g7700000000000379_dist_mla_v7x_xyz2x2x4_y_b2_s256_d1024_dc64_f32_1_alg».proof.Proof.Spec

noncomputable section

open scoped BigOperators

namespace Cert.ReferenceValue

open Idealize.ShloMosaic Idealize.ShloMosaic.ValueIdx Cert.Spec Cert.ReferenceIdeal Cert.ReferenceIdeal.Read

/-! ## Contractions of the last axis of `[2, 256, m]` against the first axis of `[m, n]` -/

theorem lidx_v0 (b : Fin 2) (s : Fin 256) (c : Fin 128) (k : Fin 1024) :
    lidx_main_v0 (ix3 b s c) k = ix3 b s k :=
  funext fun a => Fin.ext (by match a with | ⟨0, _⟩ => rfl | ⟨1, _⟩ => rfl | ⟨2, _⟩ => rfl)
theorem ridx_v0 (b : Fin 2) (s : Fin 256) (c : Fin 128) (k : Fin 1024) :
    ridx_main_v0 (ix3 b s c) k = ix2 k c :=
  funext fun a => Fin.ext (by match a with | ⟨0, _⟩ => rfl | ⟨1, _⟩ => rfl)
theorem lidx_v1 (b : Fin 2) (s : Fin 256) (c : Fin 1024) (k : Fin 128) :
    lidx_main_v1 (ix3 b s c) k = ix3 b s k :=
  funext fun a => Fin.ext (by match a with | ⟨0, _⟩ => rfl | ⟨1, _⟩ => rfl | ⟨2, _⟩ => rfl)
theorem ridx_v1 (b : Fin 2) (s : Fin 256) (c : Fin 1024) (k : Fin 128) :
    ridx_main_v1 (ix3 b s c) k = ix2 k c :=
  funext fun a => Fin.ext (by match a with | ⟨0, _⟩ => rfl | ⟨1, _⟩ => rfl)
theorem lidx_v3 (b : Fin 2) (s : Fin 256) (c : Fin 1024) (k : Fin 128) :
    lidx_main_v3 (ix3 b s c) k = ix3 b s k :=
  funext fun a => Fin.ext (by match a with | ⟨0, _⟩ => rfl | ⟨1, _⟩ => rfl | ⟨2, _⟩ => rfl)
theorem ridx_v3 (b : Fin 2) (s : Fin 256) (c : Fin 1024) (k : Fin 128) :
    ridx_main_v3 (ix3 b s c) k = ix2 k c :=
  funext fun a => Fin.ext (by match a with | ⟨0, _⟩ => rfl | ⟨1, _⟩ => rfl)
theorem lidx_v5 (b : Fin 2) (s : Fin 256) (c : Fin 1024) (k : Fin 1024) :
    lidx_main_v5 (ix3 b s c) k = ix3 b s k :=
  funext fun a => Fin.ext (by match a with | ⟨0, _⟩ => rfl | ⟨1, _⟩ => rfl | ⟨2, _⟩ => rfl)
theorem ridx_v5 (b : Fin 2) (s : Fin 256) (c : Fin 1024) (k : Fin 1024) :
    ridx_main_v5 (ix3 b s c) k = ix2 k c :=
  funext fun a => Fin.ext (by match a with | ⟨0, _⟩ => rfl | ⟨1, _⟩ => rfl)
theorem lidx_v7 (b : Fin 2) (s : Fin 256) (c : Fin 512) (k : Fin 1024) :
    lidx_main_v7 (ix3 b s c) k = ix3 b s k :=
  funext fun a => Fin.ext (by match a with | ⟨0, _⟩ => rfl | ⟨1, _⟩ => rfl | ⟨2, _⟩ => rfl)
theorem ridx_v7 (b : Fin 2) (s : Fin 256) (c : Fin 512) (k : Fin 1024) :
    ridx_main_v7 (ix3 b s c) k = ix2 k c :=
  funext fun a => Fin.ext (by match a with | ⟨0, _⟩ => rfl | ⟨1, _⟩ => rfl)
theorem lidx_v9 (b : Fin 2) (s : Fin 256) (c : Fin 32) (k : Fin 1024) :
    lidx_main_v9 (ix3 b s c) k = ix3 b s k :=
  funext fun a => Fin.ext (by match a with | ⟨0, _⟩ => rfl | ⟨1, _⟩ => rfl | ⟨2, _⟩ => rfl)
theorem ridx_v9 (b : Fin 2) (s : Fin 256) (c : Fin 32) (k : Fin 1024) :
    ridx_main_v9 (ix3 b s c) k = ix2 k c :=
  funext fun a => Fin.ext (by match a with | ⟨0, _⟩ => rfl | ⟨1, _⟩ => rfl)
theorem lidx_v29 (b : Fin 2) (s : Fin 256) (c : Fin 1024) (k : Fin 1024) :
    lidx_main_v29 (ix3 b s c) k = ix3 b s k :=
  funext fun a => Fin.ext (by match a with | ⟨0, _⟩ => rfl | ⟨1, _⟩ => rfl | ⟨2, _⟩ => rfl)
theorem ridx_v29 (b : Fin 2) (s : Fin 256) (c : Fin 1024) (k : Fin 1024) :
    ridx_main_v29 (ix3 b s c) k = ix2 k c :=
  funext fun a => Fin.ext (by match a with | ⟨0, _⟩ => rfl | ⟨1, _⟩ => rfl)

/-! ## The reshapes `[2, 256, 16 w] → [2, 256, 16, w]`: head `h`, coordinate `d` is column `w h + d` -/

theorem idx_v2 (b : Fin 2) (t : Fin 256) (h : Fin 16) (d : Fin 64) :
    idx_main_v2 (ix4 b t h d) = ix3 b t (headCol (w := 64) h d) := by
  have hb := b.isLt; have ht := t.isLt; have hh := h.isLt; have hd := d.isLt
  funext a; apply Fin.ext
  match a with
  | ⟨0, _⟩ => show (((b.val * 256 + t.val) * 16 + h.val) * 64 + d.val) / 262144 = b.val; omega
  | ⟨1, _⟩ => show (((b.val * 256 + t.val) * 16 + h.val) * 64 + d.val) / 1024 % 256 = t.val; omega
  | ⟨2, _⟩ => show (((b.val * 256 + t.val) * 16 + h.val) * 64 + d.val) % 1024 = 64 * h.val + d.val; omega
theorem idx_v4 (b : Fin 2) (t : Fin 256) (h : Fin 16) (d : Fin 64) :
    idx_main_v4 (ix4 b t h d) = ix3 b t (headCol (w := 64) h d) := by
  have hb := b.isLt; have ht := t.isLt; have hh := h.isLt; have hd := d.isLt
  funext a; apply Fin.ext
  match a with
  | ⟨0, _⟩ => show (((b.val * 256 + t.val) * 16 + h.val) * 64 + d.val) / 262144 = b.val; omega
  | ⟨1, _⟩ => show (((b.val * 256 + t.val) * 16 + h.val) * 64 + d.val) / 1024 % 256 = t.val; omega
  | ⟨2, _⟩ => show (((b.val * 256 + t.val) * 16 + h.val) * 64 + d.val) % 1024 = 64 * h.val + d.val; omega
theorem idx_v6 (b : Fin 2) (t : Fin 256) (h : Fin 16) (d : Fin 64) :
    idx_main_v6 (ix4 b t h d) = ix3 b t (headCol (w := 64) h d) := by
  have hb := b.isLt; have ht := t.isLt; have hh := h.isLt; have hd := d.isLt
  funext a; apply Fin.ext
  match a with
  | ⟨0, _⟩ => show (((b.val * 256 + t.val) * 16 + h.val) * 64 + d.val) / 262144 = b.val; omega
  | ⟨1, _⟩ => show (((b.val * 256 + t.val) * 16 + h.val) * 64 + d.val) / 1024 % 256 = t.val; omega
  | ⟨2, _⟩ => show (((b.val * 256 + t.val) * 16 + h.val) * 64 + d.val) % 1024 = 64 * h.val + d.val; omega
theorem idx_v8 (b : Fin 2) (t : Fin 256) (h : Fin 16) (d : Fin 32) :
    idx_main_v8 (ix4 b t h d) = ix3 b t (headCol (w := 32) h d) := by
  have hb := b.isLt; have ht := t.isLt; have hh := h.isLt; have hd := d.isLt
  funext a; apply Fin.ext
  match a with
  | ⟨0, _⟩ => show (((b.val * 256 + t.val) * 16 + h.val) * 32 + d.val) / 131072 = b.val; omega
  | ⟨1, _⟩ => show (((b.val * 256 + t.val) * 16 + h.val) * 32 + d.val) / 512 % 256 = t.val; omega
  | ⟨2, _⟩ => show (((b.val * 256 + t.val) * 16 + h.val) * 32 + d.val) % 512 = 32 * h.val + d.val; omega

/-! ## The position part of the key: `[2, 256, 32] → [2, 256, 1, 32]`, then the same for every head -/

theorem idx_v10 (b : Fin 2) (t : Fin 256) (z : Fin 1) (e : Fin 32) :
    idx_main_v10 (ix4 b t z e) = ix3 b t e := by
  have hb := b.isLt; have ht := t.isLt; have hz := z.isLt; have he := e.isLt
  funext a; apply Fin.ext
  match a with
  | ⟨0, _⟩ => show (((b.val * 256 + t.val) * 1 + z.val) * 32 + e.val) / 8192 = b.val; omega
  | ⟨1, _⟩ => show (((b.val * 256 + t.val) * 1 + z.val) * 32 + e.val) / 32 % 256 = t.val; omega
  | ⟨2, _⟩ => show (((b.val * 256 + t.val) * 1 + z.val) * 32 + e.val) % 32 = e.val; omega
theorem idx_v12 (b : Fin 2) (t : Fin 256) (h : Fin 16) (e : Fin 32) :
    idx_main_v12 (ix4 b t h e) = ix4 b t (0 : Fin 1) e :=
  funext fun a => Fin.ext (by match a with | ⟨0, _⟩ => rfl | ⟨1, _⟩ => rfl | ⟨2, _⟩ => rfl | ⟨3, _⟩ => rfl)

/-! ## The scores: query position `s` against key position `t`, per batch `b` and head `h` -/

theorem lidx_v11 (b : Fin 2) (h : Fin 16) (s t : Fin 256) (k : Fin 64) :
    lidx_main_v11 (ix4 b h s t) k = ix4 b s h k :=
  funext fun a => Fin.ext (by match a with | ⟨0, _⟩ => rfl | ⟨1, _⟩ => rfl | ⟨2, _⟩ => rfl | ⟨3, _⟩ => rfl)
theorem ridx_v11 (b : Fin 2) (h : Fin 16) (s t : Fin 256) (k : Fin 64) :
    ridx_main_v11 (ix4 b h s t) k = ix4 b t h k :=
  funext fun a => Fin.ext (by match a with | ⟨0, _⟩ => rfl | ⟨1, _⟩ => rfl | ⟨2, _⟩ => rfl | ⟨3, _⟩ => rfl)
theorem lidx_v13 (b : Fin 2) (h : Fin 16) (s t : Fin 256) (k : Fin 32) :
    lidx_main_v13 (ix4 b h s t) k = ix4 b s h k :=
  funext fun a => Fin.ext (by match a with | ⟨0, _⟩ => rfl | ⟨1, _⟩ => rfl | ⟨2, _⟩ => rfl | ⟨3, _⟩ => rfl)
theorem ridx_v13 (b : Fin 2) (h : Fin 16) (s t : Fin 256) (k : Fin 32) :
    ridx_main_v13 (ix4 b h s t) k = ix4 b t h k :=
  funext fun a => Fin.ext (by match a with | ⟨0, _⟩ => rfl | ⟨1, _⟩ => rfl | ⟨2, _⟩ => rfl | ⟨3, _⟩ => rfl)

/-! ## The row maximum and the row sum, broadcast back along the key axis -/

theorem idx_v18 (b : Fin 2) (h : Fin 16) (s : Fin 256) (z : Fin 1) :
    idx_main_v18 (ix4 b h s z) = ix3 b h s :=
  funext fun a => Fin.ext (by match a with | ⟨0, _⟩ => rfl | ⟨1, _⟩ => rfl | ⟨2, _⟩ => rfl)
theorem idx_v19 (b : Fin 2) (h : Fin 16) (s t : Fin 256) :
    idx_main_v19 (ix4 b h s t) = ix4 b h s (0 : Fin 1) :=
  funext fun a => Fin.ext (by match a with | ⟨0, _⟩ => rfl | ⟨1, _⟩ => rfl | ⟨2, _⟩ => rfl | ⟨3, _⟩ => rfl)
theorem idx_v22 (b : Fin 2) (h : Fin 16) (s : Fin 256) (k : Fin 256) :
    idx_main_v22 (ix3 b h s) k = ix4 b h s k :=
  funext fun a => Fin.ext (by match a with | ⟨0, _⟩ => rfl | ⟨1, _⟩ => rfl | ⟨2, _⟩ => rfl | ⟨3, _⟩ => rfl)
theorem idx_v23 (b : Fin 2) (h : Fin 16) (s : Fin 256) (z : Fin 1) :
    idx_main_v23 (ix4 b h s z) = ix3 b h s :=
  funext fun a => Fin.ext (by match a with | ⟨0, _⟩ => rfl | ⟨1, _⟩ => rfl | ⟨2, _⟩ => rfl)
theorem idx_v24 (b : Fin 2) (h : Fin 16) (s t : Fin 256) :
    idx_main_v24 (ix4 b h s t) = ix4 b h s (0 : Fin 1) :=
  funext fun a => Fin.ext (by match a with | ⟨0, _⟩ => rfl | ⟨1, _⟩ => rfl | ⟨2, _⟩ => rfl | ⟨3, _⟩ => rfl)

/-! ## The weighted sum of the values over the key positions, transposed and laid side by side -/

theorem lidx_v26 (b : Fin 2) (h : Fin 16) (d : Fin 64) (s : Fin 256) (k : Fin 256) :
    lidx_main_v26 (ix4 b h d s) k = ix4 b k h d :=
  funext fun a => Fin.ext (by match a with | ⟨0, _⟩ => rfl | ⟨1, _⟩ => rfl | ⟨2, _⟩ => rfl | ⟨3, _⟩ => rfl)
theorem ridx_v26 (b : Fin 2) (h : Fin 16) (d : Fin 64) (s : Fin 256) (k : Fin 256) :
    ridx_main_v26 (ix4 b h d s) k = ix4 b h s k :=
  funext fun a => Fin.ext (by match a with | ⟨0, _⟩ => rfl | ⟨1, _⟩ => rfl | ⟨2, _⟩ => rfl | ⟨3, _⟩ => rfl)
theorem idx_v27 (b : Fin 2) (s : Fin 256) (h : Fin 16) (d : Fin 64) :
    idx_main_v27 (ix4 b s h d) = ix4 b h d s :=
  funext fun a => Fin.ext (by match a with | ⟨0, _⟩ => rfl | ⟨1, _⟩ => rfl | ⟨2, _⟩ => rfl | ⟨3, _⟩ => rfl)
theorem idx_v28 (b : Fin 2) (s : Fin 256) (h : Fin 16) (d : Fin 64) :
    idx_main_v28 (ix3 b s (headCol (w := 64) h d)) = ix4 b s h d := by
  have hb := b.isLt; have hs := s.isLt; have hh := h.isLt; have hd := d.isLt
  funext a; apply Fin.ext
  match a with
  | ⟨0, _⟩ => show ((b.val * 256 + s.val) * 1024 + (64 * h.val + d.val)) / 262144 = b.val; omega
  | ⟨1, _⟩ => show ((b.val * 256 + s.val) * 1024 + (64 * h.val + d.val)) / 1024 % 256 = s.val; omega
  | ⟨2, _⟩ => show ((b.val * 256 + s.val) * 1024 + (64 * h.val + d.val)) / 64 % 16 = h.val; omega
  | ⟨3, _⟩ => show ((b.val * 256 + s.val) * 1024 + (64 * h.val + d.val)) % 64 = d.val; omega

/-! ## The 1024 columns as 16 heads of 64 coordinates -/

/-- A sum over the 1024 columns is the double sum over the heads and their coordinates. -/
theorem sum_headCol {M : Type*} [AddCommMonoid M] (f : Fin 1024 → M) :
    ∑ k, f k = ∑ h : Fin 16, ∑ d : Fin 64, f (headCol (w := 64) h d) :=
  calc ∑ k, f k = ∑ p : Fin 16 × Fin 64, f (finProdFinEquiv p) :=
        (Equiv.sum_comp (finProdFinEquiv (m := 16) (n := 64)) f).symm
    _ = ∑ h : Fin 16, ∑ d : Fin 64, f (finProdFinEquiv (h, d)) := Fintype.sum_prod_type _
    _ = _ := Finset.sum_congr rfl fun h _ => Finset.sum_congr rfl fun d _ =>
        congrArg f (Fin.ext (by show d.val + 64 * h.val = 64 * h.val + d.val; omega))

end Cert.ReferenceValue

end
-- ==== Proof.ReferenceValueStages.lean ====
/-
  The reference's arrays up to the scaled scores, read at an index given by its coordinates: each is the
  specification's array of the same name.

  The latent is `x · Wdkv`; keys, values and queries are contractions against `Wuk`, `Wuv`, `Wq` reshaped so that
  column `64 h + d` becomes head `h`, coordinate `d`; the position parts likewise with 32 coordinates per head, the
  key's shared by the heads through a broadcast. The score contracts the head coordinate of query and key and adds the
  position part; the scaled score multiplies it by the scale word, which is never evaluated.
-/
import proofs.«900378_g7700000000000379_dist_mla_v7x_xyz2x2x4_y_b2_s256_d1024_dc64_f32_1_alg».proof.Proof.ReferenceValueIdx

noncomputable section

open scoped BigOperators

namespace Cert.ReferenceValue

open Idealize.ShloMosaic Idealize.ShloMosaic.ValueIdx Cert.Spec Cert.ReferenceIdeal Cert.ReferenceIdeal.Read

variable (X : (⟨3, ![2, 256, 1024]⟩ : Shape).Idx → EReal) (Wdkv : (⟨2, ![1024, 128]⟩ : Shape).Idx → EReal)
  (Wuk Wuv : (⟨2, ![128, 1024]⟩ : Shape).Idx → EReal) (Wq : (⟨2, ![1024, 1024]⟩ : Shape).Idx → EReal)
  (Wqr : (⟨2, ![1024, 512]⟩ : Shape).Idx → EReal) (Wkr : (⟨2, ![1024, 32]⟩ : Shape).Idx → EReal)
  (Wo : (⟨2, ![1024, 1024]⟩ : Shape).Idx → EReal)

/-- The latent. -/
theorem v0_at (b : Fin 2) (s : Fin 256) (j : Fin 128) :
    val_main_v0 (F := Ideal) X Wdkv (ix3 b s j) = lat X Wdkv b s j := by
  unfold lat
  rw [val_main_v0_apply]
  refine Finset.sum_congr rfl fun k _ => ?_
  rw [lidx_v0, ridx_v0]

/-- The latent through `Wuk`, at column `c`. -/
theorem v1_at (b : Fin 2) (t : Fin 256) (c : Fin 1024) :
    val_main_v1 (F := Ideal) X Wdkv Wuk (ix3 b t c) = ∑ j : Fin 128, lat X Wdkv b t j * Wuk (ix2 j c) := by
  rw [val_main_v1_apply]
  refine Finset.sum_congr rfl fun k _ => ?_
  rw [lidx_v1, ridx_v1, v0_at]

/-- The keys. -/
theorem v2_at (b : Fin 2) (t : Fin 256) (h : Fin 16) (d : Fin 64) :
    val_main_v2 (F := Ideal) X Wdkv Wuk (ix4 b t h d) = key X Wdkv Wuk b t h d :=
  (val_main_v2_apply (F := Ideal) X Wdkv Wuk (ix4 b t h d)).trans
    ((congrArg (val_main_v1 (F := Ideal) X Wdkv Wuk) (idx_v2 b t h d)).trans (v1_at X Wdkv Wuk b t (headCol (w := 64) h d)))

/-- The latent through `Wuv`, at column `c`. -/
theorem v3_at (b : Fin 2) (t : Fin 256) (c : Fin 1024) :
    val_main_v3 (F := Ideal) X Wdkv Wuv (ix3 b t c) = ∑ j : Fin 128, lat X Wdkv b t j * Wuv (ix2 j c) := by
  rw [val_main_v3_apply]
  refine Finset.sum_congr rfl fun k _ => ?_
  rw [lidx_v3, ridx_v3, v0_at]

/-- The values. -/
theorem v4_at (b : Fin 2) (t : Fin 256) (h : Fin 16) (d : Fin 64) :
    val_main_v4 (F := Ideal) X Wdkv Wuv (ix4 b t h d) = value X Wdkv Wuv b t h d :=
  (val_main_v4_apply (F := Ideal) X Wdkv Wuv (ix4 b t h d)).trans
    ((congrArg (val_main_v3 (F := Ideal) X Wdkv Wuv) (idx_v4 b t h d)).trans (v3_at X Wdkv Wuv b t (headCol (w := 64) h d)))

/-- `x` through `Wq`, at column `c`. -/
theorem v5_at (b : Fin 2) (s : Fin 256) (c : Fin 1024) :
    val_main_v5 (F := Ideal) X Wq (ix3 b s c) = ∑ i : Fin 1024, X (ix3 b s i) * Wq (ix2 i c) := by
  rw [val_main_v5_apply]
  refine Finset.sum_congr rfl fun k _ => ?_
  rw [lidx_v5, ridx_v5]

/-- The queries. -/
theorem v6_at (b : Fin 2) (s : Fin 256) (h : Fin 16) (d : Fin 64) :
    val_main_v6 (F := Ideal) X Wq (ix4 b s h d) = query X Wq b s h d :=
  (val_main_v6_apply (F := Ideal) X Wq (ix4 b s h d)).trans
    ((congrArg (val_main_v5 (F := Ideal) X Wq) (idx_v6 b s h d)).trans (v5_at X Wq b s (headCol (w := 64) h d)))

/-- `x` through `Wqr`, at column `c`. -/
theorem v7_at (b : Fin 2) (s : Fin 256) (c : Fin 512) :
    val_main_v7 (F := Ideal) X Wqr (ix3 b s c) = ∑ i : Fin 1024, X (ix3 b s i) * Wqr (ix2 i c) := by
  rw [val_main_v7_apply]
  refine Finset.sum_congr rfl fun k _ => ?_
  rw [lidx_v7, ridx_v7]

/-- The position part of the queries. -/
theorem v8_at (b : Fin 2) (s : Fin 256) (h : Fin 16) (e : Fin 32) :
    val_main_v8 (F := Ideal) X Wqr (ix4 b s h e) = queryPos X Wqr b s h e :=
  (val_main_v8_apply (F := Ideal) X Wqr (ix4 b s h e)).trans
    ((congrArg (val_main_v7 (F := Ideal) X Wqr) (idx_v8 b s h e)).trans (v7_at X Wqr b s (headCol (w := 32) h e)))

/-- The position part of the keys. -/
theorem v9_at (b : Fin 2) (t : Fin 256) (e : Fin 32) :
    val_main_v9 (F := Ideal) X Wkr (ix3 b t e) = keyPos X Wkr b t e := by
  unfold keyPos
  rw [val_main_v9_apply]
  refine Finset.sum_congr rfl fun k _ => ?_
  rw [lidx_v9, ridx_v9]

/-- The same with a unit axis for the heads … -/
theorem v10_at (b : Fin 2) (t : Fin 256) (z : Fin 1) (e : Fin 32) :
    val_main_v10 (F := Ideal) X Wkr (ix4 b t z e) = keyPos X Wkr b t e :=
  (val_main_v10_apply (F := Ideal) X Wkr (ix4 b t z e)).trans
    ((congrArg (val_main_v9 (F := Ideal) X Wkr) (idx_v10 b t z e)).trans (v9_at X Wkr b t e))

/-- … and broadcast to every head. -/
theorem v12_at (b : Fin 2) (t : Fin 256) (h : Fin 16) (e : Fin 32) :
    val_main_v12 (F := Ideal) X Wkr (ix4 b t h e) = keyPos X Wkr b t e :=
  (val_main_v12_apply (F := Ideal) X Wkr (ix4 b t h e)).trans
    ((congrArg (val_main_v10 (F := Ideal) X Wkr) (idx_v12 b t h e)).trans (v10_at X Wkr b t 0 e))

/-- The inner product of query and key over the head coordinate. -/
theorem v11_at (b : Fin 2) (h : Fin 16) (s t : Fin 256) :
    val_main_v11 (F := Ideal) X Wdkv Wuk Wq (ix4 b h s t)
      = ∑ d : Fin 64, query X Wq b s h d * key X Wdkv Wuk b t h d := by
  rw [val_main_v11_apply]
  refine Finset.sum_congr rfl fun k _ => ?_
  rw [lidx_v11, ridx_v11, v6_at, v2_at]

/-- The inner product of the position parts. -/
theorem v13_at (b : Fin 2) (h : Fin 16) (s t : Fin 256) :
    val_main_v13 (F := Ideal) X Wqr Wkr (ix4 b h s t)
      = ∑ e : Fin 32, queryPos X Wqr b s h e * keyPos X Wkr b t e := by
  rw [val_main_v13_apply]
  refine Finset.sum_congr rfl fun k _ => ?_
  rw [lidx_v13, ridx_v13, v8_at, v12_at]

/-- The score. -/
theorem v14_at (b : Fin 2) (h : Fin 16) (s t : Fin 256) :
    val_main_v14 (F := Ideal) X Wdkv Wuk Wq Wqr Wkr (ix4 b h s t) = score X Wdkv Wuk Wq Wqr Wkr b h s t := by
  unfold score
  rw [val_main_v14_apply, v11_at, v13_at, Ideal.addf_def]

/-- The scaled score: the score times the scale word. -/
theorem v16_at (b : Fin 2) (h : Fin 16) (s t : Fin 256) :
    val_main_v16 (F := Ideal) X Wdkv Wuk Wq Wqr Wkr (ix4 b h s t)
      = score X Wdkv Wuk Wq Wqr Wkr b h s t * scale := by
  unfold scale
  rw [val_main_v16_apply, v14_at, val_main_v15_apply, val_main_cst_apply, Ideal.mulf_def, Ideal.ofBits_def]

end Cert.ReferenceValue

end
-- ==== Proof.ReferenceValueLaw.lean ====
/-
  The normalised exponential weights, over the reals and on the extended reals at real arguments.

  A reference program computes, for scores a_t, the weights exp (a_t − m) / Σ_t' exp (a_t' − m) with m the largest
  score, and then Σ_t v_t · weight_t. Over the reals the shift by any m cancels:
  exp (a − m) = exp a / exp m, so the weight is exp a_t / Σ_t' exp a_t', and
  Σ_t v_t · (exp a_t / D) = (Σ_t exp a_t · v_t) / D. On the extended reals the same holds once a, v and m are
  (coercions of) reals: every operation then stays inside the reals, where the sum of the exponentials is positive.
  The largest score is a fold of `max` from −∞ over a nonempty set of reals, hence a real.
-/
import Idealize.ShloMosaic.PureOps.Ideal

noncomputable section

open scoped BigOperators

namespace Cert.ReferenceValue

open Idealize.ShloMosaic

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals, in the extended reals, is a real. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := hf a (Finset.mem_insert_self a s)
    obtain ⟨y, hy⟩ := ih fun i hi => hf i (Finset.mem_insert_of_mem hi)
    exact ⟨x + y, by rw [Finset.sum_insert ha, hx, hy, EReal.coe_add]⟩

/-- A product of two reals, in the extended reals, is a real. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A sum of two reals, in the extended reals, is a real. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The fold of `max` from −∞ over a nonempty finite set of reals is a real. -/
theorem fold_max_real {ι : Type*} (s : Finset ι) (hs : s.Nonempty) (f : ι → EReal)
    (hf : ∀ i ∈ s, ∃ r : ℝ, f i = (r : EReal)) : ∃ r : ℝ, s.fold max ⊥ f = (r : EReal) := by
  have hbot : s.fold max ⊥ f ≠ ⊥ := by
    obtain ⟨i, hi⟩ := hs
    obtain ⟨r, hr⟩ := hf i hi
    have hle : f i ≤ s.fold max ⊥ f := (Finset.le_fold_max _).2 (Or.inr ⟨i, hi, le_rfl⟩)
    intro h
    rw [h, hr] at hle
    exact absurd hle (not_le.2 (EReal.bot_lt_coe r))
  have htop : s.fold max ⊥ f ≠ ⊤ := by
    have hlt : s.fold max ⊥ f < ⊤ := (Finset.fold_max_lt _).2 ⟨bot_lt_top, fun i hi => by
      obtain ⟨r, hr⟩ := hf i hi
      rw [hr]; exact EReal.coe_lt_top r⟩
    exact hlt.ne
  exact ⟨(s.fold max ⊥ f).toReal, (EReal.coe_toReal htop hbot).symm⟩

/-- Over the reals a common shift `m` of the exponents cancels in the normalised weights, and the normalisation
    comes out of the weighted sum. -/
theorem softmax_shift_real {T : Type*} [Fintype T] (a v : T → ℝ) (m : ℝ) :
    ∑ t, v t * (Real.exp (a t - m) / ∑ t', Real.exp (a t' - m))
      = (∑ t, Real.exp (a t) * v t) / ∑ t, Real.exp (a t) := by
  have hm : Real.exp m ≠ 0 := (Real.exp_pos m).ne'
  have e1 : ∀ t, Real.exp (a t - m) = Real.exp (a t) / Real.exp m := fun t => Real.exp_sub _ _
  have e2 : ∑ t', Real.exp (a t' - m) = (∑ t', Real.exp (a t')) / Real.exp m := by
    rw [Finset.sum_div]; exact Finset.sum_congr rfl fun t _ => e1 t
  rw [Finset.sum_div]
  refine Finset.sum_congr rfl fun t _ => ?_
  rw [e2, e1, div_div_div_cancel_right₀ hm]
  ring

/-- The same on the extended reals, at real scores `a`, real values `v` and a real shift `m`: the reference's
    weighted sum of the values (the value on the left of each product, the sum of the exponentials started from
    zero) is the quotient of the two sums of the specification. -/
theorem softmax_shift {T : Type*} [Fintype T] [Nonempty T] (a v : T → EReal) (m : EReal)
    (ha : ∀ t, ∃ r : ℝ, a t = (r : EReal)) (hv : ∀ t, ∃ r : ℝ, v t = (r : EReal)) (hm : ∃ r : ℝ, m = (r : EReal)) :
    ∑ t, v t * Ideal.div (Ideal.exp (a t - m)) (0 + ∑ t', Ideal.exp (a t' - m))
      = Ideal.div (∑ t, Ideal.exp (a t) * v t) (∑ t, Ideal.exp (a t)) := by
  choose ar har using ha
  choose vr hvr using hv
  obtain ⟨mr, rfl⟩ := hm
  obtain rfl : a = fun t => (ar t : EReal) := funext har
  obtain rfl : v = fun t => (vr t : EReal) := funext hvr
  have hD1 : (∑ t', Real.exp (ar t' - mr)) ≠ 0 :=
    (Finset.sum_pos (fun t _ => Real.exp_pos (ar t - mr)) Finset.univ_nonempty).ne'
  have hD2 : (∑ t', Real.exp (ar t')) ≠ 0 :=
    (Finset.sum_pos (fun t _ => Real.exp_pos (ar t)) Finset.univ_nonempty).ne'
  simp only [← EReal.coe_sub, Ideal.exp_coe, zero_add, ← coe_finset_sum, Ideal.div_coe hD1, Ideal.div_coe hD2,
    ← EReal.coe_mul]
  rw [EReal.coe_eq_coe_iff]
  simp only [← div_eq_mul_one_div]
  exact softmax_shift_real ar vr mr

end Cert.ReferenceValue

end
-- ==== Proof.ReferenceValueReal.lean ====
/-
  When every entry of the eight arrays is a real, so is every intermediate array of the specification: the latent,
  the keys, values and queries, their position parts, the scores and the scaled scores. Each is a finite sum of
  products of reals; the scale word 0x3DD105EC has an exponent field that is neither all ones nor zero, so it denotes
  a real.
-/
import proofs.«900378_g7700000000000379_dist_mla_v7x_xyz2x2x4_y_b2_s256_d1024_dc64_f32_1_alg».proof.Proof.Spec
import proofs.«900378_g7700000000000379_dist_mla_v7x_xyz2x2x4_y_b2_s256_d1024_dc64_f32_1_alg».proof.Proof.ReferenceValueLaw

noncomputable section

open scoped BigOperators

namespace Cert.ReferenceValue

open Idealize.ShloMosaic Idealize.ShloMosaic.ValueIdx Cert.Spec

/-- The scale word denotes a real: its exponent field is 123, neither 255 nor 0. -/
theorem scale_real : ∃ r : ℝ, Cert.Spec.scale = (r : EReal) := by
  have htop : Cert.Spec.scale ≠ ⊤ := by simp [Cert.Spec.scale, Ideal.ofBits, Ideal.ieee, -EReal.coe_mul]
  have hbot : Cert.Spec.scale ≠ ⊥ := by simp [Cert.Spec.scale, Ideal.ofBits, Ideal.ieee, -EReal.coe_mul]
  exact ⟨_, (EReal.coe_toReal htop hbot).symm⟩

variable (X : (⟨3, ![2, 256, 1024]⟩ : Shape).Idx → EReal) (Wdkv : (⟨2, ![1024, 128]⟩ : Shape).Idx → EReal)
  (Wuk Wuv : (⟨2, ![128, 1024]⟩ : Shape).Idx → EReal) (Wq : (⟨2, ![1024, 1024]⟩ : Shape).Idx → EReal)
  (Wqr : (⟨2, ![1024, 512]⟩ : Shape).Idx → EReal) (Wkr : (⟨2, ![1024, 32]⟩ : Shape).Idx → EReal)
  (Wo : (⟨2, ![1024, 1024]⟩ : Shape).Idx → EReal)

theorem lat_real (hX : AllReal X) (hWdkv : AllReal Wdkv) (b : Fin 2) (s : Fin 256) (j : Fin 128) :
    ∃ r : ℝ, lat X Wdkv b s j = (r : EReal) := by
  unfold lat
  exact sum_real _ _ fun i _ => mul_real (hX _) (hWdkv _)

theorem key_real (hX : AllReal X) (hWdkv : AllReal Wdkv) (hWuk : AllReal Wuk) (b : Fin 2) (t : Fin 256) (h : Fin 16)
    (d : Fin 64) : ∃ r : ℝ, key X Wdkv Wuk b t h d = (r : EReal) := by
  unfold key
  exact sum_real _ _ fun j _ => mul_real (lat_real X Wdkv hX hWdkv b t j) (hWuk _)

theorem value_real (hX : AllReal X) (hWdkv : AllReal Wdkv) (hWuv : AllReal Wuv) (b : Fin 2) (t : Fin 256) (h : Fin 16)
    (d : Fin 64) : ∃ r : ℝ, value X Wdkv Wuv b t h d = (r : EReal) := by
  unfold value
  exact sum_real _ _ fun j _ => mul_real (lat_real X Wdkv hX hWdkv b t j) (hWuv _)

theorem query_real (hX : AllReal X) (hWq : AllReal Wq) (b : Fin 2) (s : Fin 256) (h : Fin 16) (d : Fin 64) :
    ∃ r : ℝ, query X Wq b s h d = (r : EReal) := by
  unfold query
  exact sum_real _ _ fun i _ => mul_real (hX _) (hWq _)

theorem queryPos_real (hX : AllReal X) (hWqr : AllReal Wqr) (b : Fin 2) (s : Fin 256) (h : Fin 16) (e : Fin 32) :
    ∃ r : ℝ, queryPos X Wqr b s h e = (r : EReal) := by
  unfold queryPos
  exact sum_real _ _ fun i _ => mul_real (hX _) (hWqr _)

theorem keyPos_real (hX : AllReal X) (hWkr : AllReal Wkr) (b : Fin 2) (t : Fin 256) (e : Fin 32) :
    ∃ r : ℝ, keyPos X Wkr b t e = (r : EReal) := by
  unfold keyPos
  exact sum_real _ _ fun i _ => mul_real (hX _) (hWkr _)

theorem score_real (hX : AllReal X) (hWdkv : AllReal Wdkv) (hWuk : AllReal Wuk) (hWq : AllReal Wq)
    (hWqr : AllReal Wqr) (hWkr : AllReal Wkr) (b : Fin 2) (h : Fin 16) (s t : Fin 256) :
    ∃ r : ℝ, score X Wdkv Wuk Wq Wqr Wkr b h s t = (r : EReal) := by
  unfold score
  exact add_real
    (sum_real _ _ fun d _ => mul_real (query_real X Wq hX hWq b s h d) (key_real X Wdkv Wuk hX hWdkv hWuk b t h d))
    (sum_real _ _ fun e _ => mul_real (queryPos_real X Wqr hX hWqr b s h e) (keyPos_real X Wkr hX hWkr b t e))

/-- The scaled score, the exponent of the softmax weight, is a real. -/
theorem scaled_real (hX : AllReal X) (hWdkv : AllReal Wdkv) (hWuk : AllReal Wuk) (hWq : AllReal Wq)
    (hWqr : AllReal Wqr) (hWkr : AllReal Wkr) (b : Fin 2) (h : Fin 16) (s t : Fin 256) :
    ∃ r : ℝ, score X Wdkv Wuk Wq Wqr Wkr b h s t * scale = (r : EReal) :=
  mul_real (score_real X Wdkv Wuk Wq Wqr Wkr hX hWdkv hWuk hWq hWqr hWkr b h s t) scale_real

end Cert.ReferenceValue

end
-- ==== Proof.ReferenceValueMax.lean ====
/-
  The host's reduction with a maximum body, started from −∞, over one axis of an array of reals: every element of the
  result is a real. The reduction at a result index is the fold of `max` from the initial value over the reduced
  axis's coordinates; the initial word 0xFF800000 denotes −∞; and a fold of `max` from −∞ over a nonempty set of reals
  is a real.
-/
import Idealize.ShloMosaic.PureOps.Ideal.Laws
import Idealize.ShloMosaic.PureOps.Reduce
import proofs.«900378_g7700000000000379_dist_mla_v7x_xyz2x2x4_y_b2_s256_d1024_dc64_f32_1_alg».proof.Proof.ReferenceValueLaw

noncomputable section

open scoped BigOperators

namespace Cert.ReferenceValue

open Idealize.ShloMosaic

/-- The f32 word 0xFF800000 denotes −∞. -/
theorem ofBits_neg_inf_f32 : Ideal.ofBits .f32 0xFF800000#32 = (⊥ : EReal) := by
  simp [Ideal.ofBits, Ideal.ieee]

/-- A host reduction by `max` from the −∞ word over one axis of positive extent, of an array whose entries are all
    reals, is a real at every result index. -/
theorem hostReduce_max_real {s t : Shape} {a : Fin s.rank} (x : s.Idx → EReal)
    (hx : ∀ i, ∃ r : ℝ, x i = (r : EReal)) (h' : s.ReducesTo [a] t) (h : s.Reduces [a] t)
    (hu : 0 < (⟨0, ![]⟩ : Shape).numel) (hpos : 0 < s.size a) (j : t.Idx) :
    ∃ r : ℝ, Host.reduce (FloatOps.maximumf (F := Ideal) (φ := .f32)) x
        (constant (F := Ideal) (⟨0, ![]⟩ : Shape) .f32 0xFF800000#32) h' hu j = (r : EReal) := by
  rw [Host.reduce_eq_fold_single (FloatOps.maximumf (F := Ideal) (φ := .f32)) x _ h' h hu]
  have hb : constant (F := Ideal) (⟨0, ![]⟩ : Shape) .f32 0xFF800000#32 (Shape.Idx.first hu) = (⊥ : EReal) :=
    ofBits_neg_inf_f32
  rw [hb]
  haveI : Nonempty (Fin (s.size a)) := ⟨⟨0, hpos⟩⟩
  exact fold_max_real Finset.univ Finset.univ_nonempty _ fun k _ => hx _

end Cert.ReferenceValue

end
-- ==== Proof.ReferenceValueSoftmax.lean ====
/-
  The reference's softmax, read at an index, and the weighted sum of the values: the specification's attention.

  Per batch `b`, head `h` and query position `s` the reference takes the maximum `m` of the scaled scores over the key
  positions (a fold of `max` from −∞: a real, the scaled scores being reals), the weights
  `exp (a_t − m) / (0 + Σ_t' exp (a_t' − m))`, and `Σ_t value_t · weight_t`. By the law of the normalised exponential
  weights over the reals this is `(Σ_t exp a_t · value_t) / Σ_t exp a_t`.
-/
import proofs.«900378_g7700000000000379_dist_mla_v7x_xyz2x2x4_y_b2_s256_d1024_dc64_f32_1_alg».proof.Proof.ReferenceValueStages
import proofs.«900378_g7700000000000379_dist_mla_v7x_xyz2x2x4_y_b2_s256_d1024_dc64_f32_1_alg».proof.Proof.ReferenceValueReal
import proofs.«900378_g7700000000000379_dist_mla_v7x_xyz2x2x4_y_b2_s256_d1024_dc64_f32_1_alg».proof.Proof.ReferenceValueMax

noncomputable section

open scoped BigOperators

namespace Cert.ReferenceValue

open Idealize.ShloMosaic Idealize.ShloMosaic.ValueIdx Cert.Spec Cert.ReferenceIdeal Cert.ReferenceIdeal.Read

variable (X : (⟨3, ![2, 256, 1024]⟩ : Shape).Idx → EReal) (Wdkv : (⟨2, ![1024, 128]⟩ : Shape).Idx → EReal)
  (Wuk Wuv : (⟨2, ![128, 1024]⟩ : Shape).Idx → EReal) (Wq : (⟨2, ![1024, 1024]⟩ : Shape).Idx → EReal)
  (Wqr : (⟨2, ![1024, 512]⟩ : Shape).Idx → EReal) (Wkr : (⟨2, ![1024, 32]⟩ : Shape).Idx → EReal)
  (Wo : (⟨2, ![1024, 1024]⟩ : Shape).Idx → EReal)

/-- The row maximum of the scaled scores is a real. -/
theorem v17_real (hX : AllReal X) (hWdkv : AllReal Wdkv) (hWuk : AllReal Wuk) (hWq : AllReal Wq) (hWqr : AllReal Wqr)
    (hWkr : AllReal Wkr) (b : Fin 2) (h : Fin 16) (s : Fin 256) :
    ∃ r : ℝ, val_main_v17 (F := Ideal) X Wdkv Wuk Wq Wqr Wkr (ix3 b h s) = (r : EReal) := by
  have hx : ∀ i, ∃ r : ℝ, val_main_v16 (F := Ideal) X Wdkv Wuk Wq Wqr Wkr i = (r : EReal) := fun i => by
    obtain ⟨b', h', s', t', rfl⟩ : ∃ (b' : Fin 2) (h' : Fin 16) (s' : Fin 256) (t' : Fin 256), i = ix4 b' h' s' t' :=
      ⟨i 0, i 1, i 2, i 3, eq_ix4 i⟩
    rw [v16_at]
    exact scaled_real X Wdkv Wuk Wq Wqr Wkr hX hWdkv hWuk hWq hWqr hWkr b' h' s' t'
  unfold val_main_v17 val_main_cst_0
  generalize val_main_v16 (F := Ideal) X Wdkv Wuk Wq Wqr Wkr = y at hx ⊢
  exact hostReduce_max_real y hx _ (by decide) _ (by decide) (ix3 b h s)

/-- The exponential of the scaled score less the row maximum. -/
theorem v21_at (b : Fin 2) (h : Fin 16) (s t : Fin 256) :
    val_main_v21 (F := Ideal) X Wdkv Wuk Wq Wqr Wkr (ix4 b h s t)
      = Ideal.exp (score X Wdkv Wuk Wq Wqr Wkr b h s t * scale - val_main_v17 (F := Ideal) X Wdkv Wuk Wq Wqr Wkr (ix3 b h s)) := by
  rw [val_main_v21_apply, val_main_v20_apply, v16_at, val_main_v19_apply, idx_v19, val_main_v18_apply, idx_v18,
    Ideal.hostUnary_exp_def, Ideal.subf_def]

/-- The normalised weight: that exponential over the row's sum of them, the sum started from zero. -/
theorem v25_at (b : Fin 2) (h : Fin 16) (s t : Fin 256) :
    val_main_v25 (F := Ideal) X Wdkv Wuk Wq Wqr Wkr (ix4 b h s t)
      = Ideal.div (Ideal.exp (score X Wdkv Wuk Wq Wqr Wkr b h s t * scale - val_main_v17 (F := Ideal) X Wdkv Wuk Wq Wqr Wkr (ix3 b h s)))
          (0 + ∑ t' : Fin 256, Ideal.exp (score X Wdkv Wuk Wq Wqr Wkr b h s t' * scale - val_main_v17 (F := Ideal) X Wdkv Wuk Wq Wqr Wkr (ix3 b h s))) := by
  have e : ∀ k : Fin 256, val_main_v21 (F := Ideal) X Wdkv Wuk Wq Wqr Wkr (idx_main_v22 (ix3 b h s) k)
      = Ideal.exp (score X Wdkv Wuk Wq Wqr Wkr b h s k * scale - val_main_v17 (F := Ideal) X Wdkv Wuk Wq Wqr Wkr (ix3 b h s)) :=
    fun k => by rw [idx_v22, v21_at]
  rw [val_main_v25_apply, v21_at, val_main_v24_apply, idx_v24, val_main_v23_apply, idx_v23, val_main_v22_apply,
    val_main_cst_1_apply, Finset.sum_congr rfl fun k _ => e k, Ideal.hostDivf_def, Ideal.ofBits_def,
    Ideal.ofBits_zero_f32]

/-- The weighted sum of the values over the key positions is the specification's attention. -/
theorem v26_at (hX : AllReal X) (hWdkv : AllReal Wdkv) (hWuk : AllReal Wuk) (hWq : AllReal Wq) (hWqr : AllReal Wqr)
    (hWkr : AllReal Wkr) (hWuv : AllReal Wuv) (b : Fin 2) (h : Fin 16) (d : Fin 64) (s : Fin 256) :
    val_main_v26 (F := Ideal) X Wdkv Wuk Wuv Wq Wqr Wkr (ix4 b h d s) = attend X Wdkv Wuk Wuv Wq Wqr Wkr b s h d := by
  have e : ∀ k : Fin 256,
      val_main_v4 (F := Ideal) X Wdkv Wuv (lidx_main_v26 (ix4 b h d s) k)
          * val_main_v25 (F := Ideal) X Wdkv Wuk Wq Wqr Wkr (ridx_main_v26 (ix4 b h d s) k)
        = value X Wdkv Wuv b k h d * Ideal.div (Ideal.exp (score X Wdkv Wuk Wq Wqr Wkr b h s k * scale - val_main_v17 (F := Ideal) X Wdkv Wuk Wq Wqr Wkr (ix3 b h s)))
            (0 + ∑ t' : Fin 256, Ideal.exp (score X Wdkv Wuk Wq Wqr Wkr b h s t' * scale - val_main_v17 (F := Ideal) X Wdkv Wuk Wq Wqr Wkr (ix3 b h s))) :=
    fun k => by rw [lidx_v26, ridx_v26, v4_at, v25_at]
  rw [val_main_v26_apply, Finset.sum_congr rfl fun k _ => e k]
  unfold attend weight
  exact softmax_shift (fun t => score X Wdkv Wuk Wq Wqr Wkr b h s t * scale) (fun t => value X Wdkv Wuv b t h d) (val_main_v17 (F := Ideal) X Wdkv Wuk Wq Wqr Wkr (ix3 b h s))
    (fun t => scaled_real X Wdkv Wuk Wq Wqr Wkr hX hWdkv hWuk hWq hWqr hWkr b h s t)
    (fun t => value_real X Wdkv Wuv hX hWdkv hWuv b t h d)
    (v17_real X Wdkv Wuk Wq Wqr Wkr hX hWdkv hWuk hWq hWqr hWkr b h s)

end Cert.ReferenceValue

end
-- ==== Proof.ReferenceValue.lean ====
/-
  The reference program's result, index by index, is the specification's multi-head latent attention.

  The reference transposes the weighted sums of the values to `[2, 256, 16, 64]`, lays the heads side by side
  (`[2, 256, 1024]`, column `64 h + d`) and multiplies by `Wo`. The sum over the 1024 columns is the double sum over
  the heads and their coordinates.
-/
import proofs.«900378_g7700000000000379_dist_mla_v7x_xyz2x2x4_y_b2_s256_d1024_dc64_f32_1_alg».proof.Proof.ReferenceValueSoftmax

noncomputable section

open scoped BigOperators

namespace Cert.ReferenceValue

open Idealize.ShloMosaic Idealize.ShloMosaic.ValueIdx Cert.Spec Cert.ReferenceIdeal Cert.ReferenceIdeal.Read

variable (X : (⟨3, ![2, 256, 1024]⟩ : Shape).Idx → EReal) (Wdkv : (⟨2, ![1024, 128]⟩ : Shape).Idx → EReal)
  (Wuk Wuv : (⟨2, ![128, 1024]⟩ : Shape).Idx → EReal) (Wq : (⟨2, ![1024, 1024]⟩ : Shape).Idx → EReal)
  (Wqr : (⟨2, ![1024, 512]⟩ : Shape).Idx → EReal) (Wkr : (⟨2, ![1024, 32]⟩ : Shape).Idx → EReal)
  (Wo : (⟨2, ![1024, 1024]⟩ : Shape).Idx → EReal)

/-- The heads side by side: column `64 h + d` holds head `h`'s attention at coordinate `d`. -/
theorem v28_at (hX : AllReal X) (hWdkv : AllReal Wdkv) (hWuk : AllReal Wuk) (hWq : AllReal Wq) (hWqr : AllReal Wqr)
    (hWkr : AllReal Wkr) (hWuv : AllReal Wuv) (b : Fin 2) (s : Fin 256) (h : Fin 16) (d : Fin 64) :
    val_main_v28 (F := Ideal) X Wdkv Wuk Wuv Wq Wqr Wkr (ix3 b s (headCol (w := 64) h d))
      = attend X Wdkv Wuk Wuv Wq Wqr Wkr b s h d :=
  (val_main_v28_apply (F := Ideal) X Wdkv Wuk Wuv Wq Wqr Wkr (ix3 b s (headCol (w := 64) h d))).trans
    ((congrArg (val_main_v27 (F := Ideal) X Wdkv Wuk Wuv Wq Wqr Wkr) (idx_v28 b s h d)).trans
      ((val_main_v27_apply (F := Ideal) X Wdkv Wuk Wuv Wq Wqr Wkr (ix4 b s h d)).trans
        ((congrArg (val_main_v26 (F := Ideal) X Wdkv Wuk Wuv Wq Wqr Wkr) (idx_v27 b s h d)).trans
          (v26_at X Wdkv Wuk Wuv Wq Wqr Wkr hX hWdkv hWuk hWq hWqr hWkr hWuv b h d s))))

/-- The reference is the specification, at every index, on arrays of reals. -/
theorem reference_eq_spec (X : (⟨3, ![2, 256, 1024]⟩ : Shape).Idx → EReal) (Wdkv : (⟨2, ![1024, 128]⟩ : Shape).Idx → EReal) (Wuk Wuv : (⟨2, ![128, 1024]⟩ : Shape).Idx → EReal) (Wq : (⟨2, ![1024, 1024]⟩ : Shape).Idx → EReal) (Wqr : (⟨2, ![1024, 512]⟩ : Shape).Idx → EReal) (Wkr : (⟨2, ![1024, 32]⟩ : Shape).Idx → EReal) (Wo : (⟨2, ![1024, 1024]⟩ : Shape).Idx → EReal)
    (hX : Cert.Spec.AllReal X) (hWdkv : Cert.Spec.AllReal Wdkv) (hWuk : Cert.Spec.AllReal Wuk) (hWuv : Cert.Spec.AllReal Wuv) (hWq : Cert.Spec.AllReal Wq) (hWqr : Cert.Spec.AllReal Wqr) (hWkr : Cert.Spec.AllReal Wkr) (hWo : Cert.Spec.AllReal Wo)
    (b : Fin 2) (s : Fin 256) (n : Fin 1024) :
    Cert.ReferenceIdeal.Read.val_main_v29 (F := Ideal) X Wdkv Wuk Wuv Wq Wqr Wkr Wo (ValueIdx.ix3 b s n) = Cert.Spec.out X Wdkv Wuk Wuv Wq Wqr Wkr Wo b s n := by
  unfold Cert.Spec.out
  rw [val_main_v29_apply]
  refine (sum_headCol _).trans ?_
  refine Finset.sum_congr rfl fun h _ => Finset.sum_congr rfl fun d _ => ?_
  exact congrArg₂ (· * ·)
    ((congrArg (val_main_v28 (F := Ideal) X Wdkv Wuk Wuv Wq Wqr Wkr) (lidx_v29 b s n (headCol (w := 64) h d))).trans
      (v28_at X Wdkv Wuk Wuv Wq Wqr Wkr hX hWdkv hWuk hWq hWqr hWkr hWuv b s h d))
    (congrArg Wo (ridx_v29 b s n (headCol (w := 64) h d)))

end Cert.ReferenceValue

end
-- ==== Proof.KernelValueOps.lean ====
/-
  The vector operations of an attention kernel read at an index given by its coordinates.

  Rows of a [2, 256, ·] array flattened to 512 are numbered 256 b + s, columns of 16 heads of w coordinates
  w h + d, and the 32 batches of a [2, 16, ·, ·] array 16 b + h. Each lemma below reads ONE operation at such an index:
  a reshape, a transpose, a broadcast along a unit axis, a concatenation of two pieces, a lane sum, and a matrix
  product into a zero accumulator as the sum over the contraction coordinate. Finite sums over 96 = 64 + 32,
  128 = 64 + 64 and 1024 = 16 · 64 coordinates are split accordingly.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelValue

open Idealize.ShloMosaic Idealize.ShloMosaic.ValueIdx

/-! ## Coordinates -/

/-- Row 256 b + s of the 512 flattened rows. -/
def row (b : Fin 2) (s : Fin 256) : Fin 512 := ⟨b.val * 256 + s.val, by have := b.isLt; have := s.isLt; omega⟩
/-- Batch 16 b + h of the 32 flattened (batch, head) pairs. -/
def bh (b : Fin 2) (h : Fin 16) : Fin 32 := ⟨b.val * 16 + h.val, by have := b.isLt; have := h.isLt; omega⟩
/-- Column 64 h + d of 1024: head h, coordinate d. -/
def hcol (h : Fin 16) (d : Fin 64) : Fin 1024 := ⟨64 * h.val + d.val, by have := h.isLt; have := d.isLt; omega⟩
/-- Column 32 h + e of 512: head h, position coordinate e. -/
def pcol (h : Fin 16) (e : Fin 32) : Fin 512 := ⟨32 * h.val + e.val, by have := h.isLt; have := e.isLt; omega⟩
/-- The first 64 of 96 coordinates. -/
def lo96 (d : Fin 64) : Fin 96 := ⟨d.val, by have := d.isLt; omega⟩
/-- The last 32 of 96 coordinates. -/
def hi96 (e : Fin 32) : Fin 96 := ⟨64 + e.val, by have := e.isLt; omega⟩
/-- The first 64 of 128 coordinates. -/
def lo128 (j : Fin 64) : Fin 128 := ⟨j.val, by have := j.isLt; omega⟩
/-- The last 64 of 128 coordinates. -/
def hi128 (j : Fin 64) : Fin 128 := ⟨64 + j.val, by have := j.isLt; omega⟩

/-! ## Finite sums split -/

/-- A sum over 96 coordinates is the sum over the first 64 plus the sum over the last 32. -/
theorem sum96 {M : Type*} [AddCommMonoid M] (f : Fin 96 → M) :
    ∑ k, f k = ∑ d : Fin 64, f (lo96 d) + ∑ e : Fin 32, f (hi96 e) :=
  Fin.sum_univ_add (a := 64) (b := 32) f

/-- A sum over 128 coordinates is the sum over the first 64 plus the sum over the last 64. -/
theorem sum128 {M : Type*} [AddCommMonoid M] (f : Fin 128 → M) :
    ∑ k, f k = ∑ j : Fin 64, f (lo128 j) + ∑ j : Fin 64, f (hi128 j) :=
  Fin.sum_univ_add (a := 64) (b := 64) f

/-- A sum over 1024 columns is the double sum over the 16 heads and the 64 coordinates of a head. -/
theorem sum1024 {M : Type*} [AddCommMonoid M] (f : Fin 1024 → M) :
    ∑ k, f k = ∑ h : Fin 16, ∑ d : Fin 64, f (hcol h d) := by
  refine (Equiv.sum_comp (finProdFinEquiv (m := 16) (n := 64)) f).symm.trans ?_
  rw [Fintype.sum_prod_type]
  refine Finset.sum_congr rfl fun h _ => Finset.sum_congr rfl fun d _ => congrArg f (Fin.ext ?_)
  show d.val + 64 * h.val = 64 * h.val + d.val
  omega

/-! ## The format change -/

/-- Narrowing f32 to bf16 is the identity on extended reals. -/
theorem trunc_apply {s : Shape} (a : FVec Ideal s .f32) (h : FTy.bits .bf16 < FTy.bits .f32) (i : s.Idx) :
    (truncf .bf16 a h : FVec Ideal s .bf16) i = a i := rfl

/-! ## Reshapes -/

section Layout
variable {α : Type}

/-- [2, 256, C] viewed [512, C]: row 256 b + s is (b, s). -/
theorem cast_2x256_flat {C : Nat} (x : (⟨3, ![2, 256, C]⟩ : Shape).Idx → α)
    (h : (⟨3, ![2, 256, C]⟩ : Shape).ShapeCasts ⟨2, ![512, C]⟩) (b : Fin 2) (s : Fin 256) (c : Fin C) :
    shapeCast ⟨2, ![512, C]⟩ x h (ix2 (row b s) c) = x (ix3 b s c) :=
  shapeCast_apply x h _ _ (by
    rw [Shape.rowMajor_val_three, Shape.rowMajor_val_two]
    rfl)

/-- [512, C] viewed [2, 256, C]: (b, s) is row 256 b + s. -/
theorem cast_flat_2x256 {C : Nat} (x : (⟨2, ![512, C]⟩ : Shape).Idx → α)
    (h : (⟨2, ![512, C]⟩ : Shape).ShapeCasts ⟨3, ![2, 256, C]⟩) (b : Fin 2) (s : Fin 256) (c : Fin C) :
    shapeCast ⟨3, ![2, 256, C]⟩ x h (ix3 b s c) = x (ix2 (row b s) c) :=
  shapeCast_apply x h _ _ (by
    rw [Shape.rowMajor_val_three, Shape.rowMajor_val_two]
    rfl)

/-- [512, C] viewed [2, 1, 256, C]: (b, 0, s) is row 256 b + s. -/
theorem cast_flat_2x1x256 {C : Nat} (x : (⟨2, ![512, C]⟩ : Shape).Idx → α)
    (h : (⟨2, ![512, C]⟩ : Shape).ShapeCasts ⟨4, ![2, 1, 256, C]⟩) (b : Fin 2) (u : Fin 1) (s : Fin 256) (c : Fin C) :
    shapeCast ⟨4, ![2, 1, 256, C]⟩ x h (ix4 b u s c) = x (ix2 (row b s) c) :=
  shapeCast_apply x h _ _ (by
    have hu : u.val = 0 := by omega
    rw [Shape.rowMajor_val_four, Shape.rowMajor_val_two]
    show (b.val * 256 + s.val) * C + c.val = ((b.val * 1 + u.val) * 256 + s.val) * C + c.val
    rw [hu, Nat.mul_one, Nat.add_zero])

/-- [512, 1024] viewed [2, 256, 16, 64]: (b, s, h, d) is row 256 b + s, column 64 h + d. -/
theorem cast_flat_heads64 (x : (⟨2, ![512, 1024]⟩ : Shape).Idx → α)
    (h : (⟨2, ![512, 1024]⟩ : Shape).ShapeCasts ⟨4, ![2, 256, 16, 64]⟩) (b : Fin 2) (s : Fin 256) (hd : Fin 16) (d : Fin 64) :
    shapeCast ⟨4, ![2, 256, 16, 64]⟩ x h (ix4 b s hd d) = x (ix2 (row b s) (hcol hd d)) :=
  shapeCast_apply x h _ _ (by
    rw [Shape.rowMajor_val_four, Shape.rowMajor_val_two]
    show (b.val * 256 + s.val) * 1024 + (64 * hd.val + d.val) = ((b.val * 256 + s.val) * 16 + hd.val) * 64 + d.val
    omega)

/-- [512, 512] viewed [2, 256, 16, 32]: (b, s, h, e) is row 256 b + s, column 32 h + e. -/
theorem cast_flat_heads32 (x : (⟨2, ![512, 512]⟩ : Shape).Idx → α)
    (h : (⟨2, ![512, 512]⟩ : Shape).ShapeCasts ⟨4, ![2, 256, 16, 32]⟩) (b : Fin 2) (s : Fin 256) (hd : Fin 16) (e : Fin 32) :
    shapeCast ⟨4, ![2, 256, 16, 32]⟩ x h (ix4 b s hd e) = x (ix2 (row b s) (pcol hd e)) :=
  shapeCast_apply x h _ _ (by
    rw [Shape.rowMajor_val_four, Shape.rowMajor_val_two]
    show (b.val * 256 + s.val) * 512 + (32 * hd.val + e.val) = ((b.val * 256 + s.val) * 16 + hd.val) * 32 + e.val
    omega)

/-- [2, 256, 16, 64] viewed [512, 1024]: row 256 b + s, column 64 h + d is (b, s, h, d). -/
theorem cast_heads64_flat (x : (⟨4, ![2, 256, 16, 64]⟩ : Shape).Idx → α)
    (h : (⟨4, ![2, 256, 16, 64]⟩ : Shape).ShapeCasts ⟨2, ![512, 1024]⟩) (b : Fin 2) (s : Fin 256) (hd : Fin 16) (d : Fin 64) :
    shapeCast ⟨2, ![512, 1024]⟩ x h (ix2 (row b s) (hcol hd d)) = x (ix4 b s hd d) :=
  shapeCast_apply x h _ _ (by
    rw [Shape.rowMajor_val_four, Shape.rowMajor_val_two]
    show ((b.val * 256 + s.val) * 16 + hd.val) * 64 + d.val = (b.val * 256 + s.val) * 1024 + (64 * hd.val + d.val)
    omega)

/-- [2, 16, A, C] viewed [32, A, C]: batch 16 b + h is (b, h). -/
theorem cast_2x16_flat {A C : Nat} (x : (⟨4, ![2, 16, A, C]⟩ : Shape).Idx → α)
    (h : (⟨4, ![2, 16, A, C]⟩ : Shape).ShapeCasts ⟨3, ![32, A, C]⟩) (b : Fin 2) (hd : Fin 16) (a : Fin A) (c : Fin C) :
    shapeCast ⟨3, ![32, A, C]⟩ x h (ix3 (bh b hd) a c) = x (ix4 b hd a c) :=
  shapeCast_apply x h _ _ (by
    rw [Shape.rowMajor_val_four, Shape.rowMajor_val_three]
    rfl)

/-- [32, A, C] viewed [2, 16, A, C]: (b, h) is batch 16 b + h. -/
theorem cast_flat_2x16 {A C : Nat} (x : (⟨3, ![32, A, C]⟩ : Shape).Idx → α)
    (h : (⟨3, ![32, A, C]⟩ : Shape).ShapeCasts ⟨4, ![2, 16, A, C]⟩) (b : Fin 2) (hd : Fin 16) (a : Fin A) (c : Fin C) :
    shapeCast ⟨4, ![2, 16, A, C]⟩ x h (ix4 b hd a c) = x (ix3 (bh b hd) a c) :=
  shapeCast_apply x h _ _ (by
    rw [Shape.rowMajor_val_four, Shape.rowMajor_val_three]
    rfl)

/-- [128, 1024] viewed [128, 16, 64]: (j, h, d) is row j, column 64 h + d. -/
theorem cast_cols_heads64 {R : Nat} (x : (⟨2, ![R, 1024]⟩ : Shape).Idx → α)
    (h : (⟨2, ![R, 1024]⟩ : Shape).ShapeCasts ⟨3, ![R, 16, 64]⟩) (j : Fin R) (hd : Fin 16) (d : Fin 64) :
    shapeCast ⟨3, ![R, 16, 64]⟩ x h (ix3 j hd d) = x (ix2 j (hcol hd d)) :=
  shapeCast_apply x h _ _ (by
    rw [Shape.rowMajor_val_three, Shape.rowMajor_val_two]
    show j.val * 1024 + (64 * hd.val + d.val) = (j.val * 16 + hd.val) * 64 + d.val
    omega)

/-- [A, B] viewed [A, B, 1]: (a, b, 0) is (a, b). -/
theorem cast_ab_ab1 {A B : Nat} (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_three, Shape.rowMajor_val_two]
    show a.val * B + b.val = (a.val * B + b.val) * 1 + u.val
    rw [hu, Nat.mul_one, Nat.add_zero])

/-! ## Transposes -/

/-- The two middle axes of a rank-4 array exchanged. -/
theorem transpose_0213 {n0 n1 n2 n3 : Nat} (x : (⟨4, ![n0, n1, n2, n3]⟩ : Shape).Idx → α)
    (h : (⟨4, ![n0, n1, n2, n3]⟩ : Shape).Transposes [0, 2, 1, 3] ⟨4, ![n0, n2, n1, n3]⟩)
    (a : Fin n0) (c : Fin n2) (b : Fin n1) (d : Fin n3) :
    transpose ⟨4, ![n0, n2, n1, n3]⟩ [0, 2, 1, 3] x h (ix4 a c b d) = x (ix4 a b c d) :=
  transpose_apply _ x h _ _ fun e => match e with
    | ⟨0, _⟩ => rfl | ⟨1, _⟩ => rfl | ⟨2, _⟩ => rfl | ⟨3, _⟩ => rfl

/-- The first two axes of a rank-3 array exchanged. -/
theorem transpose_102 {n0 n1 n2 : Nat} (x : (⟨3, ![n0, n1, n2]⟩ : Shape).Idx → α)
    (h : (⟨3, ![n0, n1, n2]⟩ : Shape).Transposes [1, 0, 2] ⟨3, ![n1, n0, n2]⟩)
    (b : Fin n1) (a : Fin n0) (c : Fin n2) :
    transpose ⟨3, ![n1, n0, n2]⟩ [1, 0, 2] x h (ix3 b a c) = x (ix3 a b c) :=
  transpose_apply _ x h _ _ fun e => match e with
    | ⟨0, _⟩ => rfl | ⟨1, _⟩ => rfl | ⟨2, _⟩ => rfl

/-! ## Broadcasts along a unit axis -/

/-- [n0, 1, A, C] broadcast to [n0, H, A, C]: every head reads the one copy. -/
theorem broadcast_axis1 {n0 H A C : Nat} (x : (⟨4, ![n0, 1, A, C]⟩ : Shape).Idx → α)
    (h : (⟨4, ![n0, 1, A, C]⟩ : Shape).Broadcasts ⟨4, ![n0, H, A, C]⟩) (b : Fin n0) (hd : Fin H) (a : Fin A) (c : Fin C) :
    broadcastTo ⟨4, ![n0, H, A, C]⟩ x h (ix4 b hd a c) = x (ix4 b (0 : Fin 1) a c) := by
  refine broadcastTo_apply x h _ _ fun ax => ?_
  match ax with
  | ⟨0, _⟩ =>
    show b.val = if n0 = 1 then 0 else b.val
    split
    · have := b.isLt; omega
    · rfl
  | ⟨1, _⟩ =>
    show (0 : ℕ) = if (1 : ℕ) = 1 then 0 else hd.val
    rw [if_pos rfl]
  | ⟨2, _⟩ =>
    show a.val = if A = 1 then 0 else a.val
    split
    · have := a.isLt; omega
    · rfl
  | ⟨3, _⟩ =>
    show c.val = if C = 1 then 0 else c.val
    split
    · have := c.isLt; omega
    · rfl

/-- [1, H, A, C] broadcast to [n0, H, A, C]: every batch reads the one copy. -/
theorem broadcast_axis0 {n0 H A C : Nat} (x : (⟨4, ![1, H, A, C]⟩ : Shape).Idx → α)
    (h : (⟨4, ![1, H, A, C]⟩ : Shape).Broadcasts ⟨4, ![n0, H, A, C]⟩) (b : Fin n0) (hd : Fin H) (a : Fin A) (c : Fin C) :
    broadcastTo ⟨4, ![n0, H, A, C]⟩ x h (ix4 b hd a c) = x (ix4 (0 : Fin 1) hd a c) := by
  refine broadcastTo_apply x h _ _ fun ax => ?_
  match ax with
  | ⟨0, _⟩ =>
    show (0 : ℕ) = if (1 : ℕ) = 1 then 0 else b.val
    rw [if_pos rfl]
  | ⟨1, _⟩ =>
    show hd.val = if H = 1 then 0 else hd.val
    split
    · have := hd.isLt; omega
    · rfl
  | ⟨2, _⟩ =>
    show a.val = if A = 1 then 0 else a.val
    split
    · have := a.isLt; omega
    · rfl
  | ⟨3, _⟩ =>
    show c.val = if C = 1 then 0 else c.val
    split
    · have := c.isLt; omega
    · rfl

/-- [A, B, 1] broadcast to [A, B, C]: every lane reads the one column. -/
theorem broadcast_axis2 {A B C : Nat} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b (0 : Fin 1)) := by
  refine broadcastTo_apply x h _ _ fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show (0 : ℕ) = if (1 : ℕ) = 1 then 0 else c.val
    rw [if_pos rfl]

end Layout

end Cert.KernelValue

end
-- ==== Proof.KernelValueBlocks.lean ====
/-
  Where a device's blocks lie in the whole arrays, and which halves a device and its partner hold.

  The 16 devices form a 2 × 2 × 4 mesh, numbered row-major; the down-projection's 128 columns and the up-projections'
  128 rows are cut in two along the middle mesh axis. A device whose coordinate on that axis is y holds coordinates
  64 y … 64 y + 63; its partner has the other coordinate. A sum over the 128 coordinates is the sum over the device's
  half plus the sum over the partner's half, whichever half is whose.
-/
import Idealize.ShloMosaic.Lib.Layout
import proofs.«900378_g7700000000000379_dist_mla_v7x_xyz2x2x4_y_b2_s256_d1024_dc64_f32_1_alg».proof.Proof.KernelIdealOut
import proofs.«900378_g7700000000000379_dist_mla_v7x_xyz2x2x4_y_b2_s256_d1024_dc64_f32_1_alg».proof.Proof.KernelValueOps

noncomputable section

namespace Cert.KernelValue

open Idealize.ShloMosaic Idealize.ShloMosaic.ValueIdx Cert.KernelIdeal

/-- Coordinate 64 y + j of 128: half y, coordinate j. -/
def colHalf (y : Fin 2) (j : Fin 64) : Fin 128 := ⟨y.val * 64 + j.val, by have := y.isLt; have := j.isLt; omega⟩

/-- A device's coordinate on the middle mesh axis. -/
def yOf (c : Dev nD) : Fin 2 :=
  ⟨Layout.meshLin [2, 2, 4] c.val [1], Layout.meshLin_lt [2, 2, 4] c.val [1] (by decide)⟩

/-- A device's 64 columns of the down-projection. -/
abbrev downBlock (c : Dev nD) (W : (⟨2, ![1024, 128]⟩ : Shape).Idx → EReal) : (⟨2, ![1024, 64]⟩ : Shape).Idx → EReal :=
  Layout.blockN ⟨2, ![1024, 64]⟩ ⟨2, ![1024, 128]⟩ (Layout.meshBlock [2, 2, 4] ![[], [1]] c) W

/-- A device's 64 rows of an up-projection. -/
abbrev upBlock (c : Dev nD) (W : (⟨2, ![128, 1024]⟩ : Shape).Idx → EReal) : (⟨2, ![64, 1024]⟩ : Shape).Idx → EReal :=
  Layout.blockN ⟨2, ![64, 1024]⟩ ⟨2, ![128, 1024]⟩ (Layout.meshBlock [2, 2, 4] ![[1], []] c) W

/-- Column j of a device's block of the down-projection is column 64 y + j of the whole. -/
theorem downBlock_apply (c : Dev nD) (W : (⟨2, ![1024, 128]⟩ : Shape).Idx → EReal) (i : Fin 1024) (j : Fin 64) :
    downBlock c W (ix2 i j) = W (ix2 i (colHalf (yOf c) j)) := by
  show W _ = W _
  refine congrArg W (funext fun a => Fin.ext ?_)
  match a with
  | ⟨0, _⟩ =>
    show 0 * 1024 + i.val = i.val
    omega
  | ⟨1, _⟩ => rfl

/-- Row j of a device's block of an up-projection is row 64 y + j of the whole. -/
theorem upBlock_apply (c : Dev nD) (W : (⟨2, ![128, 1024]⟩ : Shape).Idx → EReal) (j : Fin 64) (n : Fin 1024) :
    upBlock c W (ix2 j n) = W (ix2 (colHalf (yOf c) j) n) := by
  show W _ = W _
  refine congrArg W (funext fun a => Fin.ext ?_)
  match a with
  | ⟨0, _⟩ => rfl
  | ⟨1, _⟩ =>
    show 0 * 1024 + n.val = n.val
    omega

/-- A device and its partner hold the two different halves. -/
theorem yOf_partner (c : Dev nD) :
    (yOf c = 0 ∧ yOf (Out.partner c) = 1) ∨ (yOf c = 1 ∧ yOf (Out.partner c) = 0) := by
  revert c
  decide +kernel

/-- A sum over the 128 coordinates is the sum over one half plus the sum over the other, in either order. -/
theorem halves_sum {M : Type*} [AddCommMonoid M] (f : Fin 128 → M) (y y' : Fin 2)
    (hy : (y = 0 ∧ y' = 1) ∨ (y = 1 ∧ y' = 0)) :
    (∑ j : Fin 64, f (colHalf y j)) + ∑ j : Fin 64, f (colHalf y' j) = ∑ k : Fin 128, f k := by
  have h0 : ∀ j : Fin 64, colHalf 0 j = lo128 j := fun j => Fin.ext (by
    show 0 * 64 + j.val = j.val
    omega)
  have h1 : ∀ j : Fin 64, colHalf 1 j = hi128 j := fun j => Fin.ext (by
    show 1 * 64 + j.val = 64 + j.val
    omega)
  rw [sum128 f]
  rcases hy with ⟨rfl, rfl⟩ | ⟨rfl, rfl⟩
  · simp only [h0, h1]
  · simp only [h0, h1]
    exact add_comm _ _

end Cert.KernelValue

end
-- ==== Proof.KernelValueConcat.lean ====
/-
  A concatenation of two pieces along one axis read at an index given by its coordinates: a coordinate below the first
  piece's extent reads the first piece there, a coordinate at or past it reads the second piece, the first extent less.
  One pair of lemmas per rank and axis the kernel uses.
-/
import Idealize.ShloMosaic.Lib.ValueIdx
import Idealize.ShloMosaic.Lib.Pipeline.Value

noncomputable section

namespace Cert.KernelValue

open Idealize.ShloMosaic Idealize.ShloMosaic.ValueIdx

variable {α : Type}

/-! ## Rank 2, along the rows -/

theorem concat2_rows_left {m1 m2 M n : Nat} (x1 : (⟨2, ![m1, n]⟩ : Shape).Idx → α) (x2 : (⟨2, ![m2, n]⟩ : Shape).Idx → α)
    (h : Shape.Concatenates [⟨2, ![m1, n]⟩, ⟨2, ![m2, n]⟩] ⟨2, ![M, n]⟩ 0) (k : Fin M) (c : Fin n) (j : Fin m1)
    (hk : k.val = j.val) :
    concatenate ⟨2, ![M, n]⟩ 0 [⟨⟨2, ![m1, n]⟩, x1⟩, ⟨⟨2, ![m2, n]⟩, x2⟩] h (ix2 k c) = x1 (ix2 j c) :=
  concatenate_pair_apply_left 0 x1 x2 h _ rfl _ fun e => match e with
    | ⟨0, _⟩ => hk.symm | ⟨1, _⟩ => rfl

theorem concat2_rows_right {m1 m2 M n : Nat} (x1 : (⟨2, ![m1, n]⟩ : Shape).Idx → α) (x2 : (⟨2, ![m2, n]⟩ : Shape).Idx → α)
    (h : Shape.Concatenates [⟨2, ![m1, n]⟩, ⟨2, ![m2, n]⟩] ⟨2, ![M, n]⟩ 0) (k : Fin M) (c : Fin n) (j : Fin m2)
    (hk : k.val = m1 + j.val) :
    concatenate ⟨2, ![M, n]⟩ 0 [⟨⟨2, ![m1, n]⟩, x1⟩, ⟨⟨2, ![m2, n]⟩, x2⟩] h (ix2 k c) = x2 (ix2 j c) :=
  concatenate_pair_apply_right 0 x1 x2 h _ rfl rfl _
    (fun e hne => match e, hne with
      | ⟨0, _⟩, hne => absurd rfl hne | ⟨1, _⟩, _ => rfl)
    (by show j.val + m1 = k.val; omega)

/-! ## Rank 2, along the columns -/

theorem concat2_cols_left {m n1 n2 N : Nat} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, N]⟩ 1) (r : Fin m) (k : Fin N) (j : Fin n1)
    (hk : k.val = j.val) :
    concatenate ⟨2, ![m, N]⟩ 1 [⟨⟨2, ![m, n1]⟩, x1⟩, ⟨⟨2, ![m, n2]⟩, x2⟩] h (ix2 r k) = x1 (ix2 r j) :=
  concatenate_pair_apply_left 1 x1 x2 h _ rfl _ fun e => match e with
    | ⟨0, _⟩ => rfl | ⟨1, _⟩ => hk.symm

theorem concat2_cols_right {m n1 n2 N : Nat} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, N]⟩ 1) (r : Fin m) (k : Fin N) (j : Fin n2)
    (hk : k.val = n1 + j.val) :
    concatenate ⟨2, ![m, N]⟩ 1 [⟨⟨2, ![m, n1]⟩, x1⟩, ⟨⟨2, ![m, n2]⟩, x2⟩] h (ix2 r k) = x2 (ix2 r j) :=
  concatenate_pair_apply_right 1 x1 x2 h _ rfl rfl _
    (fun e hne => match e, hne with
      | ⟨0, _⟩, _ => rfl | ⟨1, _⟩, hne => absurd rfl hne)
    (by show j.val + n1 = k.val; omega)

/-! ## Rank 3, along the last axis -/

theorem concat3_last_left {a b n1 n2 N : Nat} (x1 : (⟨3, ![a, b, n1]⟩ : Shape).Idx → α) (x2 : (⟨3, ![a, b, n2]⟩ : Shape).Idx → α)
    (h : Shape.Concatenates [⟨3, ![a, b, n1]⟩, ⟨3, ![a, b, n2]⟩] ⟨3, ![a, b, N]⟩ 2) (p : Fin a) (q : Fin b) (k : Fin N) (j : Fin n1)
    (hk : k.val = j.val) :
    concatenate ⟨3, ![a, b, N]⟩ 2 [⟨⟨3, ![a, b, n1]⟩, x1⟩, ⟨⟨3, ![a, b, n2]⟩, x2⟩] h (ix3 p q k) = x1 (ix3 p q j) :=
  concatenate_pair_apply_left 2 x1 x2 h _ rfl _ fun e => match e with
    | ⟨0, _⟩ => rfl | ⟨1, _⟩ => rfl | ⟨2, _⟩ => hk.symm

theorem concat3_last_right {a b n1 n2 N : Nat} (x1 : (⟨3, ![a, b, n1]⟩ : Shape).Idx → α) (x2 : (⟨3, ![a, b, n2]⟩ : Shape).Idx → α)
    (h : Shape.Concatenates [⟨3, ![a, b, n1]⟩, ⟨3, ![a, b, n2]⟩] ⟨3, ![a, b, N]⟩ 2) (p : Fin a) (q : Fin b) (k : Fin N) (j : Fin n2)
    (hk : k.val = n1 + j.val) :
    concatenate ⟨3, ![a, b, N]⟩ 2 [⟨⟨3, ![a, b, n1]⟩, x1⟩, ⟨⟨3, ![a, b, n2]⟩, x2⟩] h (ix3 p q k) = x2 (ix3 p q j) :=
  concatenate_pair_apply_right 2 x1 x2 h _ rfl rfl _
    (fun e hne => match e, hne with
      | ⟨0, _⟩, _ => rfl | ⟨1, _⟩, _ => rfl | ⟨2, _⟩, hne => absurd rfl hne)
    (by show j.val + n1 = k.val; omega)

/-! ## Rank 4, along the last axis -/

theorem concat4_last_left {a b c n1 n2 N : Nat} (x1 : (⟨4, ![a, b, c, n1]⟩ : Shape).Idx → α) (x2 : (⟨4, ![a, b, c, n2]⟩ : Shape).Idx → α)
    (h : Shape.Concatenates [⟨4, ![a, b, c, n1]⟩, ⟨4, ![a, b, c, n2]⟩] ⟨4, ![a, b, c, N]⟩ 3)
    (p : Fin a) (q : Fin b) (r : Fin c) (k : Fin N) (j : Fin n1) (hk : k.val = j.val) :
    concatenate ⟨4, ![a, b, c, N]⟩ 3 [⟨⟨4, ![a, b, c, n1]⟩, x1⟩, ⟨⟨4, ![a, b, c, n2]⟩, x2⟩] h (ix4 p q r k) = x1 (ix4 p q r j) :=
  concatenate_pair_apply_left 3 x1 x2 h _ rfl _ fun e => match e with
    | ⟨0, _⟩ => rfl | ⟨1, _⟩ => rfl | ⟨2, _⟩ => rfl | ⟨3, _⟩ => hk.symm

theorem concat4_last_right {a b c n1 n2 N : Nat} (x1 : (⟨4, ![a, b, c, n1]⟩ : Shape).Idx → α) (x2 : (⟨4, ![a, b, c, n2]⟩ : Shape).Idx → α)
    (h : Shape.Concatenates [⟨4, ![a, b, c, n1]⟩, ⟨4, ![a, b, c, n2]⟩] ⟨4, ![a, b, c, N]⟩ 3)
    (p : Fin a) (q : Fin b) (r : Fin c) (k : Fin N) (j : Fin n2) (hk : k.val = n1 + j.val) :
    concatenate ⟨4, ![a, b, c, N]⟩ 3 [⟨⟨4, ![a, b, c, n1]⟩, x1⟩, ⟨⟨4, ![a, b, c, n2]⟩, x2⟩] h (ix4 p q r k) = x2 (ix4 p q r j) :=
  concatenate_pair_apply_right 3 x1 x2 h _ rfl rfl _
    (fun e hne => match e, hne with
      | ⟨0, _⟩, _ => rfl | ⟨1, _⟩, _ => rfl | ⟨2, _⟩, _ => rfl | ⟨3, _⟩, hne => absurd rfl hne)
    (by show j.val + n1 = k.val; omega)

end Cert.KernelValue

end
-- ==== Proof.KernelValueContract.lean ====
/-
  A matrix product into a zero accumulator, read at an output index, is the sum over the contraction coordinate of the
  operands' products: for a plain product [m, k] · [k, n], for a batched product [B, m, k] · [B, k, n], and for a batched
  product against a transposed right operand [B, m, k] · [B, n, k]. A sum over the last axis of a rank-3 array read at
  an index is the sum over that axis's coordinate.
-/
import Idealize.ShloMosaic.Lib.ValueIdx
import Idealize.ShloMosaic.PureOps.Ideal.Laws

noncomputable section

namespace Cert.KernelValue

open Idealize.ShloMosaic Idealize.ShloMosaic.ValueIdx

/-! ## [m, k] · [k, n] -/

/-- The dimension numbers of a plain product: contract the left operand's columns with the right operand's rows. -/
abbrev plainD {m k n : Nat}
    (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section Plain
variable {m k n : Nat} (wf : DotDims.WF (⟨2, ![m, k]⟩ : Shape) ⟨2, ![k, n]⟩ ⟨2, ![m, n]⟩ [1] [0] [0] [1] [] [])

theorem plain_lhs_0 (j : (⟨2, ![m, n]⟩ : Shape).Idx) (q : (plainD wf).contr.Idx) :
    ((plainD wf).lhsIdx j q 0).val = (j 0).val := by
  first
    | rfl
    | (unfold DotDims.lhsIdx
       rw [dif_neg (show ¬(0 : Fin (⟨2, ![m, k]⟩ : Shape).rank) ∈ (plainD wf).lhsBatch from List.not_mem_nil),
         dif_pos (show (0 : Fin (⟨2, ![m, k]⟩ : Shape).rank) ∈ (plainD wf).lhsNonContracting from List.mem_singleton.mpr rfl)]
       rfl)

theorem plain_rhs_1 (j : (⟨2, ![m, n]⟩ : Shape).Idx) (q : (plainD wf).contr.Idx) :
    ((plainD wf).rhsIdx j q 1).val = (j 1).val := by
  first
    | rfl
    | (unfold DotDims.rhsIdx
       rw [dif_neg (show ¬(1 : Fin (⟨2, ![k, n]⟩ : Shape).rank) ∈ (plainD wf).rhsBatch from List.not_mem_nil),
         dif_pos (show (1 : Fin (⟨2, ![k, n]⟩ : Shape).rank) ∈ (plainD wf).rhsNonContracting from List.mem_singleton.mpr rfl)]
       rfl)

/-- A plain product into the zero accumulator at (r, c): the sum over q of lhs (r, q) · rhs (q, c). -/
theorem matmul_plain_apply {φ₁ φ₂ : FTy} (D : DotDims ⟨2, ![m, k]⟩ ⟨2, ![k, n]⟩ ⟨2, ![m, n]⟩) (hD : D = plainD wf)
    (prec : Option ContractPrecision) (lhs : FVec Ideal ⟨2, ![m, k]⟩ φ₁) (rhs : FVec Ideal ⟨2, ![k, n]⟩ φ₂)
    (r : Fin m) (c : Fin n) :
    FloatOps.matmul D prec lhs rhs (constant (F := Ideal) ⟨2, ![m, n]⟩ .f32 0x00000000#32) (ix2 r c)
      = ∑ q : Fin k, lhs (ix2 r q) * rhs (ix2 q c) := by
  subst hD
  rw [Ideal.matmul_constant_zero_apply, ← Equiv.sum_comp (contrEquiv1 (plainD wf) k rfl rfl).symm]
  refine Finset.sum_congr rfl fun q _ => ?_
  have hq := contrEquiv1_symm_val (plainD wf) k rfl rfl q
  have el : (plainD wf).lhsIdx (ix2 r c) ((contrEquiv1 (plainD wf) k rfl rfl).symm q) = ix2 r q :=
    funext fun a => Fin.ext (by
      match a with
      | ⟨0, _⟩ => exact plain_lhs_0 wf _ _
      | ⟨1, _⟩ => exact ((plainD wf).lhsIdx_val_of_single rfl _ _).trans hq)
  have er : (plainD wf).rhsIdx (ix2 r c) ((contrEquiv1 (plainD wf) k rfl rfl).symm q) = ix2 q c :=
    funext fun a => Fin.ext (by
      match a with
      | ⟨0, _⟩ => exact ((plainD wf).rhsIdx_val_of_single rfl _ _).trans hq
      | ⟨1, _⟩ => exact plain_rhs_1 wf _ _)
  rw [el, er]

end Plain

/-! ## [B, m, k] · [B, k, n], batch by batch -/

/-- The dimension numbers of a batched product: the leading axis is the batch, the left operand's last axis is
    contracted with the right operand's middle axis. -/
abbrev batchD {B m k n : Nat}
    (wf : DotDims.WF (⟨3, ![B, m, k]⟩ : Shape) ⟨3, ![B, k, n]⟩ ⟨3, ![B, m, n]⟩ [2] [1] [1] [2] [0] [0]) :
    DotDims ⟨3, ![B, m, k]⟩ ⟨3, ![B, k, n]⟩ ⟨3, ![B, m, n]⟩ := ⟨[2], [1], [1], [2], [0], [0], wf⟩

section Batch
variable {B m k n : Nat}
  (wf : DotDims.WF (⟨3, ![B, m, k]⟩ : Shape) ⟨3, ![B, k, n]⟩ ⟨3, ![B, m, n]⟩ [2] [1] [1] [2] [0] [0])

theorem batch_lhs_0 (j : (⟨3, ![B, m, n]⟩ : Shape).Idx) (q : (batchD wf).contr.Idx) :
    ((batchD wf).lhsIdx j q 0).val = (j 0).val := by
  first
    | rfl
    | (unfold DotDims.lhsIdx
       rw [dif_pos (show (0 : Fin (⟨3, ![B, m, k]⟩ : Shape).rank) ∈ (batchD wf).lhsBatch from List.mem_singleton.mpr rfl)]
       rfl)

theorem batch_lhs_1 (j : (⟨3, ![B, m, n]⟩ : Shape).Idx) (q : (batchD wf).contr.Idx) :
    ((batchD wf).lhsIdx j q 1).val = (j 1).val := by
  first
    | rfl
    | (unfold DotDims.lhsIdx
       rw [dif_neg (show ¬(1 : Fin (⟨3, ![B, m, k]⟩ : Shape).rank) ∈ (batchD wf).lhsBatch from
            (by decide : ¬(1 : Fin 3) ∈ [(0 : Fin 3)])),
         dif_pos (show (1 : Fin (⟨3, ![B, m, k]⟩ : Shape).rank) ∈ (batchD wf).lhsNonContracting from List.mem_singleton.mpr rfl)]
       rfl)

theorem batch_rhs_0 (j : (⟨3, ![B, m, n]⟩ : Shape).Idx) (q : (batchD wf).contr.Idx) :
    ((batchD wf).rhsIdx j q 0).val = (j 0).val := by
  first
    | rfl
    | (unfold DotDims.rhsIdx
       rw [dif_pos (show (0 : Fin (⟨3, ![B, k, n]⟩ : Shape).rank) ∈ (batchD wf).rhsBatch from List.mem_singleton.mpr rfl)]
       rfl)

theorem batch_rhs_2 (j : (⟨3, ![B, m, n]⟩ : Shape).Idx) (q : (batchD wf).contr.Idx) :
    ((batchD wf).rhsIdx j q 2).val = (j 2).val := by
  first
    | rfl
    | (unfold DotDims.rhsIdx
       rw [dif_neg (show ¬(2 : Fin (⟨3, ![B, k, n]⟩ : Shape).rank) ∈ (batchD wf).rhsBatch from
            (by decide : ¬(2 : Fin 3) ∈ [(0 : Fin 3)])),
         dif_pos (show (2 : Fin (⟨3, ![B, k, n]⟩ : Shape).rank) ∈ (batchD wf).rhsNonContracting from List.mem_singleton.mpr rfl)]
       rfl)

/-- A batched product into the zero accumulator at (g, r, c): the sum over q of lhs (g, r, q) · rhs (g, q, c). -/
theorem matmul_batch_apply {φ₁ φ₂ : FTy} (D : DotDims ⟨3, ![B, m, k]⟩ ⟨3, ![B, k, n]⟩ ⟨3, ![B, m, n]⟩) (hD : D = batchD wf)
    (prec : Option ContractPrecision) (lhs : FVec Ideal ⟨3, ![B, m, k]⟩ φ₁) (rhs : FVec Ideal ⟨3, ![B, k, n]⟩ φ₂)
    (g : Fin B) (r : Fin m) (c : Fin n) :
    FloatOps.matmul D prec lhs rhs (constant (F := Ideal) ⟨3, ![B, m, n]⟩ .f32 0x00000000#32) (ix3 g r c)
      = ∑ q : Fin k, lhs (ix3 g r q) * rhs (ix3 g q c) := by
  subst hD
  rw [Ideal.matmul_constant_zero_apply, ← Equiv.sum_comp (contrEquiv1 (batchD wf) k rfl rfl).symm]
  refine Finset.sum_congr rfl fun q _ => ?_
  have hq := contrEquiv1_symm_val (batchD wf) k rfl rfl q
  have el : (batchD wf).lhsIdx (ix3 g r c) ((contrEquiv1 (batchD wf) k rfl rfl).symm q) = ix3 g r q :=
    funext fun a => Fin.ext (by
      match a with
      | ⟨0, _⟩ => exact batch_lhs_0 wf _ _
      | ⟨1, _⟩ => exact batch_lhs_1 wf _ _
      | ⟨2, _⟩ => exact ((batchD wf).lhsIdx_val_of_single rfl _ _).trans hq)
  have er : (batchD wf).rhsIdx (ix3 g r c) ((contrEquiv1 (batchD wf) k rfl rfl).symm q) = ix3 g q c :=
    funext fun a => Fin.ext (by
      match a with
      | ⟨0, _⟩ => exact batch_rhs_0 wf _ _
      | ⟨1, _⟩ => exact ((batchD wf).rhsIdx_val_of_single rfl _ _).trans hq
      | ⟨2, _⟩ => exact batch_rhs_2 wf _ _)
  rw [el, er]

end Batch

/-! ## [B, m, k] · [B, n, k], batch by batch, the right operand contracted on its last axis -/

/-- The dimension numbers of a batched product against a transposed right operand: both last axes are contracted. -/
abbrev batchTD {B m k n : Nat}
    (wf : DotDims.WF (⟨3, ![B, m, k]⟩ : Shape) ⟨3, ![B, n, k]⟩ ⟨3, ![B, m, n]⟩ [2] [2] [1] [1] [0] [0]) :
    DotDims ⟨3, ![B, m, k]⟩ ⟨3, ![B, n, k]⟩ ⟨3, ![B, m, n]⟩ := ⟨[2], [2], [1], [1], [0], [0], wf⟩

section BatchT
variable {B m k n : Nat}
  (wf : DotDims.WF (⟨3, ![B, m, k]⟩ : Shape) ⟨3, ![B, n, k]⟩ ⟨3, ![B, m, n]⟩ [2] [2] [1] [1] [0] [0])

theorem batchT_lhs_0 (j : (⟨3, ![B, m, n]⟩ : Shape).Idx) (q : (batchTD wf).contr.Idx) :
    ((batchTD wf).lhsIdx j q 0).val = (j 0).val := by
  first
    | rfl
    | (unfold DotDims.lhsIdx
       rw [dif_pos (show (0 : Fin (⟨3, ![B, m, k]⟩ : Shape).rank) ∈ (batchTD wf).lhsBatch from List.mem_singleton.mpr rfl)]
       rfl)

theorem batchT_lhs_1 (j : (⟨3, ![B, m, n]⟩ : Shape).Idx) (q : (batchTD wf).contr.Idx) :
    ((batchTD wf).lhsIdx j q 1).val = (j 1).val := by
  first
    | rfl
    | (unfold DotDims.lhsIdx
       rw [dif_neg (show ¬(1 : Fin (⟨3, ![B, m, k]⟩ : Shape).rank) ∈ (batchTD wf).lhsBatch from
            (by decide : ¬(1 : Fin 3) ∈ [(0 : Fin 3)])),
         dif_pos (show (1 : Fin (⟨3, ![B, m, k]⟩ : Shape).rank) ∈ (batchTD wf).lhsNonContracting from List.mem_singleton.mpr rfl)]
       rfl)

theorem batchT_rhs_0 (j : (⟨3, ![B, m, n]⟩ : Shape).Idx) (q : (batchTD wf).contr.Idx) :
    ((batchTD wf).rhsIdx j q 0).val = (j 0).val := by
  first
    | rfl
    | (unfold DotDims.rhsIdx
       rw [dif_pos (show (0 : Fin (⟨3, ![B, n, k]⟩ : Shape).rank) ∈ (batchTD wf).rhsBatch from List.mem_singleton.mpr rfl)]
       rfl)

theorem batchT_rhs_1 (j : (⟨3, ![B, m, n]⟩ : Shape).Idx) (q : (batchTD wf).contr.Idx) :
    ((batchTD wf).rhsIdx j q 1).val = (j 2).val := by
  first
    | rfl
    | (unfold DotDims.rhsIdx
       rw [dif_neg (show ¬(1 : Fin (⟨3, ![B, n, k]⟩ : Shape).rank) ∈ (batchTD wf).rhsBatch from
            (by decide : ¬(1 : Fin 3) ∈ [(0 : Fin 3)])),
         dif_pos (show (1 : Fin (⟨3, ![B, n, k]⟩ : Shape).rank) ∈ (batchTD wf).rhsNonContracting from List.mem_singleton.mpr rfl)]
       rfl)

/-- A batched product against a transposed right operand, into the zero accumulator, at (g, r, c): the sum over q of
    lhs (g, r, q) · rhs (g, c, q). -/
theorem matmul_batchT_apply {φ₁ φ₂ : FTy} (D : DotDims ⟨3, ![B, m, k]⟩ ⟨3, ![B, n, k]⟩ ⟨3, ![B, m, n]⟩) (hD : D = batchTD wf)
    (prec : Option ContractPrecision) (lhs : FVec Ideal ⟨3, ![B, m, k]⟩ φ₁) (rhs : FVec Ideal ⟨3, ![B, n, k]⟩ φ₂)
    (g : Fin B) (r : Fin m) (c : Fin n) :
    FloatOps.matmul D prec lhs rhs (constant (F := Ideal) ⟨3, ![B, m, n]⟩ .f32 0x00000000#32) (ix3 g r c)
      = ∑ q : Fin k, lhs (ix3 g r q) * rhs (ix3 g c q) := by
  subst hD
  rw [Ideal.matmul_constant_zero_apply, ← Equiv.sum_comp (contrEquiv1 (batchTD wf) k rfl rfl).symm]
  refine Finset.sum_congr rfl fun q _ => ?_
  have hq := contrEquiv1_symm_val (batchTD wf) k rfl rfl q
  have el : (batchTD wf).lhsIdx (ix3 g r c) ((contrEquiv1 (batchTD wf) k rfl rfl).symm q) = ix3 g r q :=
    funext fun a => Fin.ext (by
      match a with
      | ⟨0, _⟩ => exact batchT_lhs_0 wf _ _
      | ⟨1, _⟩ => exact batchT_lhs_1 wf _ _
      | ⟨2, _⟩ => exact ((batchTD wf).lhsIdx_val_of_single rfl _ _).trans hq)
  have er : (batchTD wf).rhsIdx (ix3 g r c) ((contrEquiv1 (batchTD wf) k rfl rfl).symm q) = ix3 g c q :=
    funext fun a => Fin.ext (by
      match a with
      | ⟨0, _⟩ => exact batchT_rhs_0 wf _ _
      | ⟨1, _⟩ => exact batchT_rhs_1 wf _ _
      | ⟨2, _⟩ => exact ((batchTD wf).rhsIdx_val_of_single rfl _ _).trans hq)
  rw [el, er]

end BatchT

/-! ## A sum over the last axis -/

/-- The f32 sum over the last axis of a rank-3 array, from the zero word, at (a, b): the sum over t of the array at
    (a, b, t). -/
theorem laneSum_apply {A B C : Nat} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ t : Fin C, src (ix3 a b t) := by
  refine (Ideal.multiReduction_add_single src 0x00000000#32 h hφ hacc (ix2 a b)).trans ?_
  refine Finset.sum_congr rfl fun t _ => congrArg src (funext fun e => Fin.ext ?_)
  match e with
  | ⟨0, _⟩ => rfl
  | ⟨1, _⟩ => rfl
  | ⟨2, _⟩ => rfl

end Cert.KernelValue

end
-- ==== Proof.KernelValuePay.lean ====
/-
  The kernel's small payloads read at an index, over the extended reals: the flattened activations, the projections
  x · W (one matrix product each, into a zero accumulator), the query with its position part laid behind it per head,
  and the output projection. Format changes are the identity here and a reshape to the same shape does nothing.
-/
import proofs.«900378_g7700000000000379_dist_mla_v7x_xyz2x2x4_y_b2_s256_d1024_dc64_f32_1_alg».proof.Proof.Gen.KernelIdeal.Skeleton
import proofs.«900378_g7700000000000379_dist_mla_v7x_xyz2x2x4_y_b2_s256_d1024_dc64_f32_1_alg».proof.Proof.KernelValueOps
import proofs.«900378_g7700000000000379_dist_mla_v7x_xyz2x2x4_y_b2_s256_d1024_dc64_f32_1_alg».proof.Proof.KernelValueConcat
import proofs.«900378_g7700000000000379_dist_mla_v7x_xyz2x2x4_y_b2_s256_d1024_dc64_f32_1_alg».proof.Proof.KernelValueContract

noncomputable section

namespace Cert.KernelValue

open Idealize.ShloMosaic Idealize.ShloMosaic.ValueIdx Cert.KernelIdeal Cert.KernelIdeal.Gen

/-- The flattened activations: row 256 b + s is x (b, s, ·). -/
theorem pay2_apply (x : Vec Ideal S2x256x1024 .f32) (b : Fin 2) (s : Fin 256) (i : Fin 1024) :
    k0_pay2 (F := Ideal) x (ix2 (row b s) i) = x (ix3 b s i) := by
  unfold k0_pay2
  refine (trunc_apply _ _ _).trans ?_
  refine (cast_2x256_flat _ _ b s i).trans ?_
  exact congrFun (shapeCast_self x _) _

/-- A device's rows of the key up-projection, unchanged. -/
theorem pay3_apply (w : Vec Ideal S64x1024 .f32) (i : S64x1024.Idx) : k0_pay3 (F := Ideal) w i = w i := by
  unfold k0_pay3
  refine (trunc_apply _ _ _).trans ?_
  exact congrFun (shapeCast_self w _) _

/-- A device's rows of the value up-projection, unchanged. -/
theorem pay4_apply (w : Vec Ideal S64x1024 .f32) (i : S64x1024.Idx) : k0_pay4 (F := Ideal) w i = w i := by
  unfold k0_pay4
  refine (trunc_apply _ _ _).trans ?_
  exact congrFun (shapeCast_self w _) _

/-- A device's columns of the latent: x · Wdkv on its 64 columns. -/
theorem pay5_apply (x : Vec Ideal S2x256x1024 .f32) (w : Vec Ideal S1024x64 .f32) (b : Fin 2) (s : Fin 256) (j : Fin 64) :
    k0_pay5 (F := Ideal) x w (ix2 (row b s) j) = ∑ i : Fin 1024, x (ix3 b s i) * w (ix2 i j) := by
  unfold k0_pay5
  refine (trunc_apply _ _ _).trans ?_
  refine (matmul_plain_apply _ _ rfl none _ _ (row b s) j).trans ?_
  refine Finset.sum_congr rfl fun i _ => ?_
  exact congrArg₂ (fun a b : EReal => a * b) (pay2_apply x b s i)
    ((trunc_apply _ _ _).trans (congrFun (shapeCast_self w _) _))

/-- What is sent of the latent is the latent's columns. -/
theorem pay6_apply (v : FVec Ideal S512x64 .bf16) (i : S512x64.Idx) : k0_pay6 (F := Ideal) v i = v i := by
  unfold k0_pay6
  exact congrFun (shapeCast_self v _) _

/-- What is sent of the key up-projection is its rows. -/
theorem pay7_apply (v : FVec Ideal S64x1024 .bf16) (i : S64x1024.Idx) : k0_pay7 (F := Ideal) v i = v i := by
  unfold k0_pay7
  exact congrFun (shapeCast_self v _) _

/-- What is sent of the value up-projection is its rows. -/
theorem pay8_apply (v : FVec Ideal S64x1024 .bf16) (i : S64x1024.Idx) : k0_pay8 (F := Ideal) v i = v i := by
  unfold k0_pay8
  exact congrFun (shapeCast_self v _) _

/-- The queries: x · Wq. -/
theorem pay9_apply (v20 : FVec Ideal S512x1024 .bf16) (w : Vec Ideal S1024x1024 .f32) (r : Fin 512) (n : Fin 1024) :
    k0_pay9 (F := Ideal) v20 w (ix2 r n) = ∑ i : Fin 1024, v20 (ix2 r i) * w (ix2 i n) := by
  unfold k0_pay9
  refine (matmul_plain_apply _ _ rfl none _ _ r n).trans ?_
  refine Finset.sum_congr rfl fun i _ => ?_
  exact congrArg (fun z : EReal => v20 (ix2 r i) * z) ((trunc_apply _ _ _).trans (congrFun (shapeCast_self w _) _))

/-- The position part of the keys: x · Wkr. -/
theorem pay10_apply (v20 : FVec Ideal S512x1024 .bf16) (w : Vec Ideal S1024x32 .f32) (r : Fin 512) (e : Fin 32) :
    k0_pay10 (F := Ideal) v20 w (ix2 r e) = ∑ i : Fin 1024, v20 (ix2 r i) * w (ix2 i e) := by
  unfold k0_pay10
  refine (matmul_plain_apply _ _ rfl none _ _ r e).trans ?_
  refine Finset.sum_congr rfl fun i _ => ?_
  exact congrArg (fun z : EReal => v20 (ix2 r i) * z) ((trunc_apply _ _ _).trans (congrFun (shapeCast_self w _) _))

/-- The query per (batch, head): its first 64 coordinates are the head's 64 columns of x · Wq. -/
theorem pay11_lo (v20 : FVec Ideal S512x1024 .bf16) (v64 : FVec Ideal S512x1024 .f32) (w : Vec Ideal S1024x512 .f32)
    (b : Fin 2) (h : Fin 16) (s : Fin 256) (d : Fin 64) :
    k0_pay11 (F := Ideal) v20 v64 w (ix3 (bh b h) s (lo96 d)) = v64 (ix2 (row b s) (hcol h d)) := by
  unfold k0_pay11
  refine (cast_2x16_flat _ _ b h s (lo96 d)).trans ?_
  refine (transpose_0213 _ _ b h s (lo96 d)).trans ?_
  refine (concat4_last_left _ _ _ b s h (lo96 d) d rfl).trans ?_
  refine (cast_flat_heads64 _ _ b s h d).trans ?_
  exact trunc_apply _ _ _

/-- The query per (batch, head): its last 32 coordinates are the head's 32 columns of x · Wqr. -/
theorem pay11_hi (v20 : FVec Ideal S512x1024 .bf16) (v64 : FVec Ideal S512x1024 .f32) (w : Vec Ideal S1024x512 .f32)
    (b : Fin 2) (h : Fin 16) (s : Fin 256) (e : Fin 32) :
    k0_pay11 (F := Ideal) v20 v64 w (ix3 (bh b h) s (hi96 e))
      = ∑ i : Fin 1024, v20 (ix2 (row b s) i) * w (ix2 i (pcol h e)) := by
  unfold k0_pay11
  refine (cast_2x16_flat _ _ b h s (hi96 e)).trans ?_
  refine (transpose_0213 _ _ b h s (hi96 e)).trans ?_
  refine (concat4_last_right _ _ _ b s h (hi96 e) e rfl).trans ?_
  refine (cast_flat_heads32 _ _ b s h e).trans ?_
  refine (trunc_apply _ _ _).trans ?_
  refine (matmul_plain_apply _ _ rfl none _ _ (row b s) (pcol h e)).trans ?_
  refine Finset.sum_congr rfl fun i _ => ?_
  exact congrArg (fun z : EReal => v20 (ix2 (row b s) i) * z) ((trunc_apply _ _ _).trans (congrFun (shapeCast_self w _) _))

/-- The output projection: the attention rows through Wo. -/
theorem pay1_apply (v145 : FVec Ideal S512x1024 .bf16) (w : Vec Ideal S1024x1024 .f32) (b : Fin 2) (s : Fin 256) (n : Fin 1024) :
    k0_pay1 (F := Ideal) v145 w (ix3 b s n) = ∑ k : Fin 1024, v145 (ix2 (row b s) k) * w (ix2 k n) := by
  unfold k0_pay1
  refine (cast_flat_2x256 _ _ b s n).trans ?_
  refine (matmul_plain_apply _ _ rfl none _ _ (row b s) n).trans ?_
  refine Finset.sum_congr rfl fun k _ => ?_
  exact congrArg (fun z : EReal => v145 (ix2 (row b s) k) * z) ((trunc_apply _ _ _).trans (congrFun (shapeCast_self w _) _))

end Cert.KernelValue

end
-- ==== Proof.KernelValueAttn.lean ====
/-
  The kernel's attention payload, in stages, read at an index over the extended reals.

  The latent's two halves (the device's own 64 columns, then the 64 received) are laid side by side and copied to every
  head; the up-projections' two halves (own 64 rows, then the 64 received) are stacked and cut into heads; their product is
  the keys (or the values). The keys get the shared position part behind them; the weights are exp (q · k · scale); the
  output is the weighted sum of the values divided by the sum of the weights, heads side by side again.
-/
import proofs.«900378_g7700000000000379_dist_mla_v7x_xyz2x2x4_y_b2_s256_d1024_dc64_f32_1_alg».proof.Proof.Gen.KernelIdeal.Skeleton
import proofs.«900378_g7700000000000379_dist_mla_v7x_xyz2x2x4_y_b2_s256_d1024_dc64_f32_1_alg».proof.Proof.KernelValueOps
import proofs.«900378_g7700000000000379_dist_mla_v7x_xyz2x2x4_y_b2_s256_d1024_dc64_f32_1_alg».proof.Proof.KernelValueConcat
import proofs.«900378_g7700000000000379_dist_mla_v7x_xyz2x2x4_y_b2_s256_d1024_dc64_f32_1_alg».proof.Proof.KernelValueContract

noncomputable section

namespace Cert.KernelValue

open Idealize.ShloMosaic Idealize.ShloMosaic.ValueIdx Cert.KernelIdeal Cert.KernelIdeal.Gen

/-! ## The stages -/

/-- The latent per (batch, head): the two halves side by side, one copy per head. -/
def latCat (v31 : FVec Ideal S512x64 .bf16) (v100 : Vec Ideal S512x64 .bf16) : FVec Ideal S32x256x128 .bf16 :=
  shapeCast S32x256x128 (broadcastTo S2x16x256x128 (shapeCast S2x1x256x128 (shapeCast S2x1x256x128
    (concatenate S512x128 1 [⟨S512x64, v31⟩, ⟨S512x64, v100⟩] concatenates_S512x64_S512x64_S512x128_d1)
    shapeCasts_S512x128_S2x1x256x128) shapeCasts_S2x1x256x128_S2x1x256x128) broadcasts_S2x1x256x128_S2x16x256x128)
    shapeCasts_S2x16x256x128_S32x256x128

/-- An up-projection per (batch, head): the two halves stacked, cut into heads, one copy per batch. -/
def upCat (u : FVec Ideal S64x1024 .bf16) (ur : Vec Ideal S64x1024 .bf16) : FVec Ideal S32x128x64 .bf16 :=
  shapeCast S32x128x64 (broadcastTo S2x16x128x64 (shapeCast S1x16x128x64 (shapeCast S1x16x128x64
    (transpose S16x128x64 [1, 0, 2] (shapeCast S128x16x64
      (concatenate S128x1024 0 [⟨S64x1024, u⟩, ⟨S64x1024, ur⟩] concatenates_S64x1024_S64x1024_S128x1024_d0)
      shapeCasts_S128x1024_S128x16x64) transposes_S128x16x64_p1_0_2_S16x128x64)
    shapeCasts_S16x128x64_S1x16x128x64) shapeCasts_S1x16x128x64_S1x16x128x64) broadcasts_S1x16x128x64_S2x16x128x64)
    shapeCasts_S2x16x128x64_S32x128x64

/-- The latent through an up-projection, per (batch, head). -/
def proj (l : FVec Ideal S32x256x128 .bf16) (u : FVec Ideal S32x128x64 .bf16) : FVec Ideal S32x256x64 .f32 :=
  matmul dot_S32x256x128_S32x128x64_S32x256x64_2_1_1_2_0_0 none l u (constant S32x256x64 .f32 0x00000000#32)

/-- The position part of the keys, one copy per head. -/
def kposB (v72 : FVec Ideal S512x32 .f32) : FVec Ideal S32x256x32 .bf16 :=
  shapeCast S32x256x32 (broadcastTo S2x16x256x32 (shapeCast S2x1x256x32 (shapeCast S2x1x256x32
    (truncf .bf16 v72 bitsLt_bf16_f32) shapeCasts_S512x32_S2x1x256x32) shapeCasts_S2x1x256x32_S2x1x256x32)
    broadcasts_S2x1x256x32_S2x16x256x32) shapeCasts_S2x16x256x32_S32x256x32

/-- The keys with their position part behind them. -/
def keyCat (k : FVec Ideal S32x256x64 .f32) (kp : FVec Ideal S32x256x32 .bf16) : FVec Ideal S32x256x96 .bf16 :=
  concatenate S32x256x96 2 [⟨S32x256x64, truncf .bf16 k bitsLt_bf16_f32⟩, ⟨S32x256x32, kp⟩]
    concatenates_S32x256x64_S32x256x32_S32x256x96_d2

/-- The unnormalised weights: exp (q · k · scale). -/
def wts (q kc : FVec Ideal S32x256x96 .bf16) : FVec Ideal S32x256x256 .f32 :=
  exp (mulf (matmul dot_S32x256x96_S32x256x96_S32x256x256_2_2_1_1_0_0 none q kc (constant S32x256x256 .f32 0x00000000#32))
    (broadcast S32x256x256 (Scalar.ofBits (F := Ideal) .f32 0x3DD105EC#32)))

/-- The weighted values over the sum of the weights, heads side by side. -/
def attn (w : FVec Ideal S32x256x256 .f32) (v : FVec Ideal S32x256x64 .f32) : FVec Ideal S512x1024 .bf16 :=
  truncf .bf16 (shapeCast S512x1024 (transpose S2x256x16x64 [0, 2, 1, 3] (shapeCast S2x16x256x64
    (divf
      (matmul dot_S32x256x256_S32x256x64_S32x256x64_2_1_1_2_0_0 none (truncf .bf16 w bitsLt_bf16_f32)
        (truncf .bf16 v bitsLt_bf16_f32) (constant S32x256x64 .f32 0x00000000#32))
      (broadcastTo S32x256x64 (shapeCast S32x256x1
        (multiReduction .add [2] S32x256 w 0x00000000#32 reduces_S32x256x256_S32x256 (.inl rfl) rfl)
        shapeCasts_S32x256_S32x256x1) broadcasts_S32x256x1_S32x256x64))
    shapeCasts_S32x256x64_S2x16x256x64) transposes_S2x16x256x64_p0_2_1_3_S2x256x16x64) shapeCasts_S2x256x16x64_S512x1024)
    bitsLt_bf16_f32

/-- The attention payload is the composition of the stages. -/
theorem pay12_eq (v26 v29 : FVec Ideal S64x1024 .bf16) (v31 : FVec Ideal S512x64 .bf16) (v72 : FVec Ideal S512x32 .f32)
    (v79 : FVec Ideal S32x256x96 .bf16) (v100 : Vec Ideal S512x64 .bf16) (v106 v108 : Vec Ideal S64x1024 .bf16) :
    k0_pay12 (F := Ideal) v26 v29 v31 v72 v79 v100 v106 v108
      = attn (wts v79 (keyCat (proj (latCat v31 v100) (upCat v26 v106)) (kposB v72)))
          (proj (latCat v31 v100) (upCat v29 v108)) := rfl

/-! ## Each stage at an index -/

theorem latCat_lo (v31 : FVec Ideal S512x64 .bf16) (v100 : Vec Ideal S512x64 .bf16) (b : Fin 2) (h : Fin 16) (t : Fin 256)
    (j : Fin 64) : latCat v31 v100 (ix3 (bh b h) t (lo128 j)) = v31 (ix2 (row b t) j) := by
  unfold latCat
  refine (cast_2x16_flat _ _ b h t (lo128 j)).trans ?_
  refine (broadcast_axis1 _ _ b h t (lo128 j)).trans ?_
  refine (congrFun (shapeCast_self _ _) _).trans ?_
  refine (cast_flat_2x1x256 _ _ b (0 : Fin 1) t (lo128 j)).trans ?_
  exact concat2_cols_left _ _ _ (row b t) (lo128 j) j rfl

theorem latCat_hi (v31 : FVec Ideal S512x64 .bf16) (v100 : Vec Ideal S512x64 .bf16) (b : Fin 2) (h : Fin 16) (t : Fin 256)
    (j : Fin 64) : latCat v31 v100 (ix3 (bh b h) t (hi128 j)) = v100 (ix2 (row b t) j) := by
  unfold latCat
  refine (cast_2x16_flat _ _ b h t (hi128 j)).trans ?_
  refine (broadcast_axis1 _ _ b h t (hi128 j)).trans ?_
  refine (congrFun (shapeCast_self _ _) _).trans ?_
  refine (cast_flat_2x1x256 _ _ b (0 : Fin 1) t (hi128 j)).trans ?_
  exact concat2_cols_right _ _ _ (row b t) (hi128 j) j rfl

theorem upCat_lo (u : FVec Ideal S64x1024 .bf16) (ur : Vec Ideal S64x1024 .bf16) (b : Fin 2) (h : Fin 16) (j : Fin 64)
    (d : Fin 64) : upCat u ur (ix3 (bh b h) (lo128 j) d) = u (ix2 j (hcol h d)) := by
  unfold upCat
  refine (cast_2x16_flat _ _ b h (lo128 j) d).trans ?_
  refine (broadcast_axis0 _ _ b h (lo128 j) d).trans ?_
  refine (congrFun (shapeCast_self _ _) _).trans ?_
  refine (shapeCast_abc_1abc_apply _ _ (0 : Fin 1) h (lo128 j) d).trans ?_
  refine (transpose_102 _ _ h (lo128 j) d).trans ?_
  refine (cast_cols_heads64 _ _ (lo128 j) h d).trans ?_
  exact concat2_rows_left _ _ _ (lo128 j) (hcol h d) j rfl

theorem upCat_hi (u : FVec Ideal S64x1024 .bf16) (ur : Vec Ideal S64x1024 .bf16) (b : Fin 2) (h : Fin 16) (j : Fin 64)
    (d : Fin 64) : upCat u ur (ix3 (bh b h) (hi128 j) d) = ur (ix2 j (hcol h d)) := by
  unfold upCat
  refine (cast_2x16_flat _ _ b h (hi128 j) d).trans ?_
  refine (broadcast_axis0 _ _ b h (hi128 j) d).trans ?_
  refine (congrFun (shapeCast_self _ _) _).trans ?_
  refine (shapeCast_abc_1abc_apply _ _ (0 : Fin 1) h (hi128 j) d).trans ?_
  refine (transpose_102 _ _ h (hi128 j) d).trans ?_
  refine (cast_cols_heads64 _ _ (hi128 j) h d).trans ?_
  exact concat2_rows_right _ _ _ (hi128 j) (hcol h d) j rfl

theorem proj_apply (l : FVec Ideal S32x256x128 .bf16) (u : FVec Ideal S32x128x64 .bf16) (g : Fin 32) (t : Fin 256)
    (d : Fin 64) : proj l u (ix3 g t d) = ∑ k : Fin 128, l (ix3 g t k) * u (ix3 g k d) := by
  unfold proj
  exact matmul_batch_apply _ _ rfl none l u g t d

theorem kposB_apply (v72 : FVec Ideal S512x32 .f32) (b : Fin 2) (h : Fin 16) (t : Fin 256) (e : Fin 32) :
    kposB v72 (ix3 (bh b h) t e) = v72 (ix2 (row b t) e) := by
  unfold kposB
  refine (cast_2x16_flat _ _ b h t e).trans ?_
  refine (broadcast_axis1 _ _ b h t e).trans ?_
  refine (congrFun (shapeCast_self _ _) _).trans ?_
  refine (cast_flat_2x1x256 _ _ b (0 : Fin 1) t e).trans ?_
  exact trunc_apply _ _ _

theorem keyCat_lo (k : FVec Ideal S32x256x64 .f32) (kp : FVec Ideal S32x256x32 .bf16) (g : Fin 32) (t : Fin 256)
    (d : Fin 64) : keyCat k kp (ix3 g t (lo96 d)) = k (ix3 g t d) := by
  unfold keyCat
  refine (concat3_last_left _ _ _ g t (lo96 d) d rfl).trans ?_
  exact trunc_apply _ _ _

theorem keyCat_hi (k : FVec Ideal S32x256x64 .f32) (kp : FVec Ideal S32x256x32 .bf16) (g : Fin 32) (t : Fin 256)
    (e : Fin 32) : keyCat k kp (ix3 g t (hi96 e)) = kp (ix3 g t e) := by
  unfold keyCat
  exact concat3_last_right _ _ _ g t (hi96 e) e rfl

theorem wts_apply (q kc : FVec Ideal S32x256x96 .bf16) (g : Fin 32) (s t : Fin 256) :
    wts q kc (ix3 g s t)
      = Ideal.exp ((∑ k : Fin 96, q (ix3 g s k) * kc (ix3 g t k)) * Ideal.ofBits .f32 0x3DD105EC#32) := by
  unfold wts
  exact congrArg (fun z : EReal => Ideal.exp (z * Ideal.ofBits .f32 0x3DD105EC#32))
    (matmul_batchT_apply _ _ rfl none q kc g s t)

theorem attn_apply (w : FVec Ideal S32x256x256 .f32) (v : FVec Ideal S32x256x64 .f32) (b : Fin 2) (s : Fin 256)
    (h : Fin 16) (d : Fin 64) :
    attn w v (ix2 (row b s) (hcol h d))
      = Ideal.div (∑ t : Fin 256, w (ix3 (bh b h) s t) * v (ix3 (bh b h) t d)) (∑ t : Fin 256, w (ix3 (bh b h) s t)) := by
  unfold attn
  refine (trunc_apply _ _ _).trans ?_
  refine (cast_heads64_flat _ _ b s h d).trans ?_
  refine (transpose_0213 _ _ b s h d).trans ?_
  refine (cast_flat_2x16 _ _ b h s d).trans ?_
  refine (divf_apply _ _ _).trans ?_
  refine congrArg₂ Ideal.div ?_ ?_
  · refine (matmul_batch_apply _ _ rfl none _ _ (bh b h) s d).trans ?_
    exact Finset.sum_congr rfl fun t _ => congrArg₂ (fun a b : EReal => a * b) (trunc_apply _ _ _) (trunc_apply _ _ _)
  · refine (broadcast_axis2 _ _ (bh b h) s d).trans ?_
    refine (cast_ab_ab1 _ _ (bh b h) s (0 : Fin 1)).trans ?_
    exact laneSum_apply w _ _ _ (bh b h) s

/-! ## The payload in closed form -/

section Closed
variable (v31 : FVec Ideal S512x64 .bf16) (v100 : Vec Ideal S512x64 .bf16)

/-- The latent through an up-projection given by halves: the device's own 64 coordinates, then the 64 received. -/
def keyK (u : FVec Ideal S64x1024 .bf16) (ur : Vec Ideal S64x1024 .bf16) (b : Fin 2) (t : Fin 256) (h : Fin 16)
    (d : Fin 64) : EReal :=
  (∑ j : Fin 64, v31 (ix2 (row b t) j) * u (ix2 j (hcol h d))) + ∑ j : Fin 64, v100 (ix2 (row b t) j) * ur (ix2 j (hcol h d))

theorem proj_cat (u : FVec Ideal S64x1024 .bf16) (ur : Vec Ideal S64x1024 .bf16) (b : Fin 2) (t : Fin 256) (h : Fin 16)
    (d : Fin 64) : proj (latCat v31 v100) (upCat u ur) (ix3 (bh b h) t d) = keyK v31 v100 u ur b t h d := by
  refine (proj_apply _ _ (bh b h) t d).trans ?_
  refine (sum128 _).trans ?_
  unfold keyK
  exact congrArg₂ (fun a b : EReal => a + b)
    (Finset.sum_congr rfl fun j _ => congrArg₂ (fun a b : EReal => a * b) (latCat_lo v31 v100 b h t j) (upCat_lo u ur b h j d))
    (Finset.sum_congr rfl fun j _ => congrArg₂ (fun a b : EReal => a * b) (latCat_hi v31 v100 b h t j) (upCat_hi u ur b h j d))

variable (v26 v29 : FVec Ideal S64x1024 .bf16) (v72 : FVec Ideal S512x32 .f32) (v79 : FVec Ideal S32x256x96 .bf16)
  (v106 v108 : Vec Ideal S64x1024 .bf16)

/-- The score: the query's first 64 coordinates against the key, its last 32 against the key's position part. -/
def scoreK (b : Fin 2) (h : Fin 16) (s t : Fin 256) : EReal :=
  (∑ d : Fin 64, v79 (ix3 (bh b h) s (lo96 d)) * keyK v31 v100 v26 v106 b t h d)
    + ∑ e : Fin 32, v79 (ix3 (bh b h) s (hi96 e)) * v72 (ix2 (row b t) e)

/-- The unnormalised weight. -/
def weightK (b : Fin 2) (h : Fin 16) (s t : Fin 256) : EReal :=
  Ideal.exp (scoreK v31 v100 v26 v72 v79 v106 b h s t * Ideal.ofBits .f32 0x3DD105EC#32)

/-- The attention output at (b, s), head h, coordinate d. -/
def attendK (b : Fin 2) (s : Fin 256) (h : Fin 16) (d : Fin 64) : EReal :=
  Ideal.div (∑ t : Fin 256, weightK v31 v100 v26 v72 v79 v106 b h s t * keyK v31 v100 v29 v108 b t h d)
    (∑ t : Fin 256, weightK v31 v100 v26 v72 v79 v106 b h s t)

theorem wts_cat (b : Fin 2) (h : Fin 16) (s t : Fin 256) :
    wts v79 (keyCat (proj (latCat v31 v100) (upCat v26 v106)) (kposB v72)) (ix3 (bh b h) s t)
      = weightK v31 v100 v26 v72 v79 v106 b h s t := by
  refine (wts_apply _ _ (bh b h) s t).trans ?_
  unfold weightK scoreK
  refine congrArg (fun z : EReal => Ideal.exp (z * Ideal.ofBits .f32 0x3DD105EC#32)) ?_
  refine (sum96 _).trans ?_
  exact congrArg₂ (fun a b : EReal => a + b)
    (Finset.sum_congr rfl fun d _ => congrArg (fun z : EReal => v79 (ix3 (bh b h) s (lo96 d)) * z)
      ((keyCat_lo _ _ (bh b h) t d).trans (proj_cat v31 v100 v26 v106 b t h d)))
    (Finset.sum_congr rfl fun e _ => congrArg (fun z : EReal => v79 (ix3 (bh b h) s (hi96 e)) * z)
      ((keyCat_hi _ _ (bh b h) t e).trans (kposB_apply v72 b h t e)))

/-- The attention payload at row 256 b + s, column 64 h + d. -/
theorem pay12_apply (b : Fin 2) (s : Fin 256) (h : Fin 16) (d : Fin 64) :
    k0_pay12 (F := Ideal) v26 v29 v31 v72 v79 v100 v106 v108 (ix2 (row b s) (hcol h d))
      = attendK v31 v100 v26 v29 v72 v79 v106 v108 b s h d := by
  refine (congrFun (pay12_eq v26 v29 v31 v72 v79 v100 v106 v108) _).trans ?_
  refine (attn_apply _ _ b s h d).trans ?_
  unfold attendK
  exact congrArg₂ Ideal.div
    (Finset.sum_congr rfl fun t _ => congrArg₂ (fun a b : EReal => a * b) (wts_cat v31 v100 v26 v72 v79 v106 b h s t)
      (proj_cat v31 v100 v29 v108 b t h d))
    (Finset.sum_congr rfl fun t _ => wts_cat v31 v100 v26 v72 v79 v106 b h s t)

end Closed

end Cert.KernelValue

end
-- ==== Proof.KernelValueResult.lean ====
/-
  A device's result block at (b, s, n): the attention output of every head and coordinate, through Wo.
-/
import proofs.«900378_g7700000000000379_dist_mla_v7x_xyz2x2x4_y_b2_s256_d1024_dc64_f32_1_alg».proof.Proof.KernelIdealOut
import proofs.«900378_g7700000000000379_dist_mla_v7x_xyz2x2x4_y_b2_s256_d1024_dc64_f32_1_alg».proof.Proof.KernelValuePay
import proofs.«900378_g7700000000000379_dist_mla_v7x_xyz2x2x4_y_b2_s256_d1024_dc64_f32_1_alg».proof.Proof.KernelValueAttn

noncomputable section

namespace Cert.KernelValue

open Idealize.ShloMosaic Idealize.ShloMosaic.ValueIdx Cert.KernelIdeal Cert.KernelIdeal.Gen

/-- The result block from the device's argument blocks and the three received pieces, at an index. -/
theorem result_apply (x : Vec Ideal S2x256x1024 .f32) (wd : Vec Ideal S1024x64 .f32) (wuk wuv : Vec Ideal S64x1024 .f32)
    (wq : Vec Ideal S1024x1024 .f32) (wqr : Vec Ideal S1024x512 .f32) (wkr : Vec Ideal S1024x32 .f32)
    (wo : Vec Ideal S1024x1024 .f32) (cr : Vec Ideal S512x64 .bf16) (ukr uvr : Vec Ideal S64x1024 .bf16)
    (b : Fin 2) (s : Fin 256) (n : Fin 1024) :
    Out.result (F := Ideal) x wd wuk wuv wq wqr wkr wo cr ukr uvr (ix3 b s n)
      = ∑ h : Fin 16, ∑ d : Fin 64,
          attendK (k0_pay5 x wd) cr (k0_pay3 wuk) (k0_pay4 wuv) (k0_pay10 (k0_pay2 x) wkr)
            (k0_pay11 (k0_pay2 x) (k0_pay9 (k0_pay2 x) wq) wqr) ukr uvr b s h d * wo (ix2 (hcol h d) n) := by
  unfold Out.result
  refine (pay1_apply _ _ b s n).trans ?_
  refine (sum1024 _).trans ?_
  exact Finset.sum_congr rfl fun h _ => Finset.sum_congr rfl fun d _ =>
    congrArg (fun z : EReal => z * wo (ix2 (hcol h d) n))
      (pay12_apply (k0_pay5 x wd) cr (k0_pay3 wuk) (k0_pay4 wuv) (k0_pay10 (k0_pay2 x) wkr)
        (k0_pay11 (k0_pay2 x) (k0_pay9 (k0_pay2 x) wq) wqr) ukr uvr b s h d)

end Cert.KernelValue

end
-- ==== Proof.KernelValue.lean ====
/-
  The kernel's side of the value bridge: on every device, the result block at (b, s, n) — computed from the device's own
  blocks and from what its partner sends — is multi-head latent attention over the whole arrays at (b, s, n).

  Every factor of the kernel's closed form is one of the specification's: the latent's two halves are the specification's
  latent at the two halves' coordinates, the up-projections' halves are the whole up-projections' rows there, and the sum
  over the two halves is the sum over all 128 latent coordinates, whichever half is the device's own. The query, its
  position part and the key's position part are the specification's sums as they stand.
-/
import proofs.«900378_g7700000000000379_dist_mla_v7x_xyz2x2x4_y_b2_s256_d1024_dc64_f32_1_alg».proof.Proof.Spec
import proofs.«900378_g7700000000000379_dist_mla_v7x_xyz2x2x4_y_b2_s256_d1024_dc64_f32_1_alg».proof.Proof.KernelValueBlocks
import proofs.«900378_g7700000000000379_dist_mla_v7x_xyz2x2x4_y_b2_s256_d1024_dc64_f32_1_alg».proof.Proof.KernelValueResult

noncomputable section

namespace Cert.KernelValue

open Idealize.ShloMosaic Idealize.ShloMosaic.ValueIdx Cert.KernelIdeal Cert.KernelIdeal.Gen

section
variable (c : Dev nD) (X : (⟨3, ![2, 256, 1024]⟩ : Shape).Idx → EReal) (Wdkv : (⟨2, ![1024, 128]⟩ : Shape).Idx → EReal)
  (Wuk Wuv : (⟨2, ![128, 1024]⟩ : Shape).Idx → EReal) (Wq : (⟨2, ![1024, 1024]⟩ : Shape).Idx → EReal)
  (Wqr : (⟨2, ![1024, 512]⟩ : Shape).Idx → EReal) (Wkr : (⟨2, ![1024, 32]⟩ : Shape).Idx → EReal)
  (Wo : (⟨2, ![1024, 1024]⟩ : Shape).Idx → EReal)

/-! ## The factors -/

/-- A device's columns of the latent are the latent at its half's coordinates. -/
theorem lat_own (b : Fin 2) (t : Fin 256) (j : Fin 64) :
    k0_pay5 (F := Ideal) X (downBlock c Wdkv) (ix2 (row b t) j) = Cert.Spec.lat X Wdkv b t (colHalf (yOf c) j) :=
  (pay5_apply X (downBlock c Wdkv) b t j).trans
    (Finset.sum_congr rfl fun i _ => congrArg (fun z : EReal => X (ix3 b t i) * z) (downBlock_apply c Wdkv i j))

/-- What a device sends of the latent is the latent at its half's coordinates. -/
theorem lat_sent (b : Fin 2) (t : Fin 256) (j : Fin 64) :
    Out.latentHalf (F := Ideal) X (downBlock c Wdkv) (ix2 (row b t) j) = Cert.Spec.lat X Wdkv b t (colHalf (yOf c) j) :=
  (pay6_apply _ _).trans (lat_own c X Wdkv b t j)

/-- A device's rows of the key up-projection are the whole's rows at its half's coordinates. -/
theorem uk_own (W : (⟨2, ![128, 1024]⟩ : Shape).Idx → EReal) (j : Fin 64) (n : Fin 1024) :
    k0_pay3 (F := Ideal) (upBlock c W) (ix2 j n) = W (ix2 (colHalf (yOf c) j) n) :=
  (pay3_apply _ _).trans (upBlock_apply c W j n)

theorem uk_sent (W : (⟨2, ![128, 1024]⟩ : Shape).Idx → EReal) (j : Fin 64) (n : Fin 1024) :
    Out.ukHalf (F := Ideal) (upBlock c W) (ix2 j n) = W (ix2 (colHalf (yOf c) j) n) :=
  (pay7_apply _ _).trans (uk_own c W j n)

/-- A device's rows of the value up-projection are the whole's rows at its half's coordinates. -/
theorem uv_own (W : (⟨2, ![128, 1024]⟩ : Shape).Idx → EReal) (j : Fin 64) (n : Fin 1024) :
    k0_pay4 (F := Ideal) (upBlock c W) (ix2 j n) = W (ix2 (colHalf (yOf c) j) n) :=
  (pay4_apply _ _).trans (upBlock_apply c W j n)

theorem uv_sent (W : (⟨2, ![128, 1024]⟩ : Shape).Idx → EReal) (j : Fin 64) (n : Fin 1024) :
    Out.uvHalf (F := Ideal) (upBlock c W) (ix2 j n) = W (ix2 (colHalf (yOf c) j) n) :=
  (pay8_apply _ _).trans (uv_own c W j n)

/-- The latent through an up-projection given by the device's half and its partner's half is the latent through the whole
    up-projection: the sum over all 128 latent coordinates. -/
theorem keyK_whole (W : (⟨2, ![128, 1024]⟩ : Shape).Idx → EReal) (u : FVec Ideal S64x1024 .bf16) (ur : Vec Ideal S64x1024 .bf16)
    (hu : ∀ j n, u (ix2 j n) = W (ix2 (colHalf (yOf c) j) n))
    (hur : ∀ j n, ur (ix2 j n) = W (ix2 (colHalf (yOf (Out.partner c)) j) n))
    (b : Fin 2) (t : Fin 256) (h : Fin 16) (d : Fin 64) :
    keyK (k0_pay5 (F := Ideal) X (downBlock c Wdkv)) (Out.latentHalf (F := Ideal) X (downBlock (Out.partner c) Wdkv)) u ur b t h d
      = ∑ j : Fin 128, Cert.Spec.lat X Wdkv b t j * W (ix2 j (hcol h d)) := by
  unfold keyK
  refine Eq.trans ?_ (halves_sum (fun k : Fin 128 => Cert.Spec.lat X Wdkv b t k * W (ix2 k (hcol h d)))
    (yOf c) (yOf (Out.partner c)) (yOf_partner c))
  exact congrArg₂ (fun a b : EReal => a + b)
    (Finset.sum_congr rfl fun j _ => congrArg₂ (fun a b : EReal => a * b) (lat_own c X Wdkv b t j) (hu j _))
    (Finset.sum_congr rfl fun j _ => congrArg₂ (fun a b : EReal => a * b) (lat_sent (Out.partner c) X Wdkv b t j) (hur j _))

/-- The kernel's query is the specification's. -/
theorem query_eq (b : Fin 2) (s : Fin 256) (h : Fin 16) (d : Fin 64) :
    k0_pay11 (F := Ideal) (k0_pay2 X) (k0_pay9 (k0_pay2 X) Wq) Wqr (ix3 (bh b h) s (lo96 d)) = Cert.Spec.query X Wq b s h d :=
  (pay11_lo _ _ _ b h s d).trans ((pay9_apply _ _ (row b s) (hcol h d)).trans
    (Finset.sum_congr rfl fun i _ => congrArg (fun z : EReal => z * Wq (ix2 i (hcol h d))) (pay2_apply X b s i)))

/-- The kernel's position part of the query is the specification's. -/
theorem queryPos_eq (b : Fin 2) (s : Fin 256) (h : Fin 16) (e : Fin 32) :
    k0_pay11 (F := Ideal) (k0_pay2 X) (k0_pay9 (k0_pay2 X) Wq) Wqr (ix3 (bh b h) s (hi96 e)) = Cert.Spec.queryPos X Wqr b s h e :=
  (pay11_hi _ _ _ b h s e).trans
    (Finset.sum_congr rfl fun i _ => congrArg (fun z : EReal => z * Wqr (ix2 i (pcol h e))) (pay2_apply X b s i))

/-- The kernel's position part of the key is the specification's. -/
theorem keyPos_eq (b : Fin 2) (t : Fin 256) (e : Fin 32) :
    k0_pay10 (F := Ideal) (k0_pay2 X) Wkr (ix2 (row b t) e) = Cert.Spec.keyPos X Wkr b t e :=
  (pay10_apply _ _ (row b t) e).trans
    (Finset.sum_congr rfl fun i _ => congrArg (fun z : EReal => z * Wkr (ix2 i e)) (pay2_apply X b t i))

/-! ## The attention output -/

/-- The kernel's attention output at (b, s), head h, coordinate d, from the device's blocks and its partner's pieces, is
    the specification's. -/
theorem attend_eq (b : Fin 2) (s : Fin 256) (h : Fin 16) (d : Fin 64) :
    attendK (k0_pay5 (F := Ideal) X (downBlock c Wdkv)) (Out.latentHalf (F := Ideal) X (downBlock (Out.partner c) Wdkv))
        (k0_pay3 (F := Ideal) (upBlock c Wuk)) (k0_pay4 (F := Ideal) (upBlock c Wuv))
        (k0_pay10 (F := Ideal) (k0_pay2 X) Wkr) (k0_pay11 (F := Ideal) (k0_pay2 X) (k0_pay9 (k0_pay2 X) Wq) Wqr)
        (Out.ukHalf (F := Ideal) (upBlock (Out.partner c) Wuk)) (Out.uvHalf (F := Ideal) (upBlock (Out.partner c) Wuv)) b s h d
      = Cert.Spec.attend X Wdkv Wuk Wuv Wq Wqr Wkr b s h d := by
  have hkey : ∀ (t : Fin 256) (dd : Fin 64),
      keyK (k0_pay5 (F := Ideal) X (downBlock c Wdkv)) (Out.latentHalf (F := Ideal) X (downBlock (Out.partner c) Wdkv))
          (k0_pay3 (F := Ideal) (upBlock c Wuk)) (Out.ukHalf (F := Ideal) (upBlock (Out.partner c) Wuk)) b t h dd
        = Cert.Spec.key X Wdkv Wuk b t h dd := fun t dd =>
    keyK_whole c X Wdkv Wuk (k0_pay3 (F := Ideal) (upBlock c Wuk)) (Out.ukHalf (F := Ideal) (upBlock (Out.partner c) Wuk))
      (uk_own c Wuk) (uk_sent (Out.partner c) Wuk) b t h dd
  have hval : ∀ t : Fin 256,
      keyK (k0_pay5 (F := Ideal) X (downBlock c Wdkv)) (Out.latentHalf (F := Ideal) X (downBlock (Out.partner c) Wdkv))
          (k0_pay4 (F := Ideal) (upBlock c Wuv)) (Out.uvHalf (F := Ideal) (upBlock (Out.partner c) Wuv)) b t h d
        = Cert.Spec.value X Wdkv Wuv b t h d := fun t =>
    keyK_whole c X Wdkv Wuv (k0_pay4 (F := Ideal) (upBlock c Wuv)) (Out.uvHalf (F := Ideal) (upBlock (Out.partner c) Wuv))
      (uv_own c Wuv) (uv_sent (Out.partner c) Wuv) b t h d
  have hscore : ∀ t : Fin 256,
      scoreK (k0_pay5 (F := Ideal) X (downBlock c Wdkv)) (Out.latentHalf (F := Ideal) X (downBlock (Out.partner c) Wdkv))
          (k0_pay3 (F := Ideal) (upBlock c Wuk)) (k0_pay10 (F := Ideal) (k0_pay2 X) Wkr)
          (k0_pay11 (F := Ideal) (k0_pay2 X) (k0_pay9 (k0_pay2 X) Wq) Wqr)
          (Out.ukHalf (F := Ideal) (upBlock (Out.partner c) Wuk)) b h s t
        = Cert.Spec.score X Wdkv Wuk Wq Wqr Wkr b h s t := fun t => by
    unfold scoreK
    exact congrArg₂ (fun a b : EReal => a + b)
      (Finset.sum_congr rfl fun dd _ => congrArg₂ (fun a b : EReal => a * b) (query_eq X Wq Wqr b s h dd) (hkey t dd))
      (Finset.sum_congr rfl fun e _ => congrArg₂ (fun a b : EReal => a * b) (queryPos_eq X Wq Wqr b s h e)
        (keyPos_eq X Wkr b t e))
  have hweight : ∀ t : Fin 256,
      weightK (k0_pay5 (F := Ideal) X (downBlock c Wdkv)) (Out.latentHalf (F := Ideal) X (downBlock (Out.partner c) Wdkv))
          (k0_pay3 (F := Ideal) (upBlock c Wuk)) (k0_pay10 (F := Ideal) (k0_pay2 X) Wkr)
          (k0_pay11 (F := Ideal) (k0_pay2 X) (k0_pay9 (k0_pay2 X) Wq) Wqr)
          (Out.ukHalf (F := Ideal) (upBlock (Out.partner c) Wuk)) b h s t
        = Cert.Spec.weight X Wdkv Wuk Wq Wqr Wkr b h s t := fun t => by
    unfold weightK
    exact congrArg (fun z : EReal => Ideal.exp (z * Ideal.ofBits .f32 0x3DD105EC#32)) (hscore t)
  unfold attendK
  exact congrArg₂ Ideal.div
    (Finset.sum_congr rfl fun t _ => congrArg₂ (fun a b : EReal => a * b) (hweight t) (hval t))
    (Finset.sum_congr rfl fun t _ => hweight t)

end

/-! ## The result -/

/-- On every device the kernel's result block, from the device's blocks of the whole arrays and its partner's pieces, is the
    specification at every index. -/
theorem result_eq_spec (c : Dev Cert.KernelIdeal.nD) (X : (⟨3, ![2, 256, 1024]⟩ : Shape).Idx → EReal) (Wdkv : (⟨2, ![1024, 128]⟩ : Shape).Idx → EReal) (Wuk Wuv : (⟨2, ![128, 1024]⟩ : Shape).Idx → EReal) (Wq : (⟨2, ![1024, 1024]⟩ : Shape).Idx → EReal) (Wqr : (⟨2, ![1024, 512]⟩ : Shape).Idx → EReal) (Wkr : (⟨2, ![1024, 32]⟩ : Shape).Idx → EReal) (Wo : (⟨2, ![1024, 1024]⟩ : Shape).Idx → EReal) (b : Fin 2) (s : Fin 256) (n : Fin 1024) :
    Cert.KernelIdeal.Out.result (F := Ideal) X (Layout.blockN ⟨2, ![1024, 64]⟩ ⟨2, ![1024, 128]⟩ (Layout.meshBlock [2, 2, 4] ![[], [1]] c) Wdkv) (Layout.blockN ⟨2, ![64, 1024]⟩ ⟨2, ![128, 1024]⟩ (Layout.meshBlock [2, 2, 4] ![[1], []] c) Wuk) (Layout.blockN ⟨2, ![64, 1024]⟩ ⟨2, ![128, 1024]⟩ (Layout.meshBlock [2, 2, 4] ![[1], []] c) Wuv) Wq Wqr Wkr Wo
        (Cert.KernelIdeal.Out.latentHalf (F := Ideal) X (Layout.blockN ⟨2, ![1024, 64]⟩ ⟨2, ![1024, 128]⟩ (Layout.meshBlock [2, 2, 4] ![[], [1]] (Cert.KernelIdeal.Out.partner c)) Wdkv))
        (Cert.KernelIdeal.Out.ukHalf (F := Ideal) (Layout.blockN ⟨2, ![64, 1024]⟩ ⟨2, ![128, 1024]⟩ (Layout.meshBlock [2, 2, 4] ![[1], []] (Cert.KernelIdeal.Out.partner c)) Wuk))
        (Cert.KernelIdeal.Out.uvHalf (F := Ideal) (Layout.blockN ⟨2, ![64, 1024]⟩ ⟨2, ![128, 1024]⟩ (Layout.meshBlock [2, 2, 4] ![[1], []] (Cert.KernelIdeal.Out.partner c)) Wuv))
        (ValueIdx.ix3 b s n)
      = Cert.Spec.out X Wdkv Wuk Wuv Wq Wqr Wkr Wo b s n := by
  refine (result_apply X (downBlock c Wdkv) (upBlock c Wuk) (upBlock c Wuv) Wq Wqr Wkr Wo
    (Out.latentHalf (F := Ideal) X (downBlock (Out.partner c) Wdkv)) (Out.ukHalf (F := Ideal) (upBlock (Out.partner c) Wuk))
    (Out.uvHalf (F := Ideal) (upBlock (Out.partner c) Wuv)) b s n).trans ?_
  unfold Cert.Spec.out
  exact Finset.sum_congr rfl fun h _ => Finset.sum_congr rfl fun d _ =>
    congrArg (fun z : EReal => z * Wo (ix2 (hcol h d) n)) (attend_eq c X Wdkv Wuk Wuv Wq Wqr Wkr b s h d)

end Cert.KernelValue

end
-- ==== Proof.KernelIdealJoin.lean ====
/-
  The result block of every device is the reference's result.

  A device's eight staged blocks are its eight argument arrays themselves: each window's block is its whole array,
  read through the rectangle of the array's own sizes at offset zero. Under the agreement between the two memories a
  device's arrays are the reference's whole activations and four whole weights, and its halves of the three cut
  weights; its partner's arrays are the same activations and the other halves. So the device's result — one term of
  its own blocks and of the three pieces computed from the partner's blocks — is that term at the reference's arrays,
  which is the specification at every index. The reference's result is the same specification once every entry of
  its arrays is a real number, and the precondition gives that: directly for the five whole arrays, and for the three
  cut ones because the halves held by all the devices between them hold every entry.
-/
import proofs.«900378_g7700000000000379_dist_mla_v7x_xyz2x2x4_y_b2_s256_d1024_dc64_f32_1_alg».proof.Proof.KernelIdealProto
import proofs.«900378_g7700000000000379_dist_mla_v7x_xyz2x2x4_y_b2_s256_d1024_dc64_f32_1_alg».proof.Proof.Finite
import proofs.«900378_g7700000000000379_dist_mla_v7x_xyz2x2x4_y_b2_s256_d1024_dc64_f32_1_alg».proof.Proof.ReferenceValue
import proofs.«900378_g7700000000000379_dist_mla_v7x_xyz2x2x4_y_b2_s256_d1024_dc64_f32_1_alg».proof.Proof.KernelValue

noncomputable section

namespace Cert.KernelIdeal.Join

open Cert.KernelIdeal Cert.KernelIdeal.Gen
open Idealize.ShloMosaic Idealize.ShloMosaic.ValueIdx Idealize.SL.Sem

/-! ## Each window's block is its whole array -/

section Blocks

variable {F : FTy → Type} [FloatOps F] (m : (ℓ : Loc nD τ sig) → Buf (Elt F) ℓ)

theorem a0_eq (c : Dev nD) : Proto.a0 m c = m ((c.tc : Thread nD τ).loc main_arg0) := by
  unfold Proto.a0
  exact Memref.read_access_unit_zero (Elt F) main_arg0 (funext fun _ => Nat.zero_mul _) _ _

theorem a1_eq (c : Dev nD) : Proto.a1 m c = m ((c.tc : Thread nD τ).loc main_arg1) := by
  unfold Proto.a1
  exact Memref.read_access_unit_zero (Elt F) main_arg1 (funext fun _ => Nat.zero_mul _) _ _

theorem a2_eq (c : Dev nD) : Proto.a2 m c = m ((c.tc : Thread nD τ).loc main_arg2) := by
  unfold Proto.a2
  exact Memref.read_access_unit_zero (Elt F) main_arg2 (funext fun _ => Nat.zero_mul _) _ _

theorem a3_eq (c : Dev nD) : Proto.a3 m c = m ((c.tc : Thread nD τ).loc main_arg3) := by
  unfold Proto.a3
  exact Memref.read_access_unit_zero (Elt F) main_arg3 (funext fun _ => Nat.zero_mul _) _ _

theorem a4_eq (c : Dev nD) : Proto.a4 m c = m ((c.tc : Thread nD τ).loc main_arg4) := by
  unfold Proto.a4
  exact Memref.read_access_unit_zero (Elt F) main_arg4 (funext fun _ => Nat.zero_mul _) _ _

theorem a5_eq (c : Dev nD) : Proto.a5 m c = m ((c.tc : Thread nD τ).loc main_arg5) := by
  unfold Proto.a5
  exact Memref.read_access_unit_zero (Elt F) main_arg5 (funext fun _ => Nat.zero_mul _) _ _

theorem a6_eq (c : Dev nD) : Proto.a6 m c = m ((c.tc : Thread nD τ).loc main_arg6) := by
  unfold Proto.a6
  exact Memref.read_access_unit_zero (Elt F) main_arg6 (funext fun _ => Nat.zero_mul _) _ _

theorem a7_eq (c : Dev nD) : Proto.a7 m c = m ((c.tc : Thread nD τ).loc main_arg7) := by
  unfold Proto.a7
  exact Memref.read_access_unit_zero (Elt F) main_arg7 (funext fun _ => Nat.zero_mul _) _ _

end Blocks

/-! ## Every entry of the reference's arrays is a real number -/

section Reference

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)

/-- The five arrays every device holds whole. -/
theorem allReal_whole [Cert.Pre_finite_inputs_Kernel.Facts] (hpre : ∀ c : Dev Cert.KernelIdeal.nD,
      Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) :
    Cert.Spec.AllReal (m' (((0 : Dev Cert.ReferenceIdeal.nD).tc : Thread Cert.ReferenceIdeal.nD Cert.ReferenceIdeal.τ).loc Cert.ReferenceIdeal.main_arg0)) ∧ Cert.Spec.AllReal (m' (((0 : Dev Cert.ReferenceIdeal.nD).tc : Thread Cert.ReferenceIdeal.nD Cert.ReferenceIdeal.τ).loc Cert.ReferenceIdeal.main_arg4)) ∧ Cert.Spec.AllReal (m' (((0 : Dev Cert.ReferenceIdeal.nD).tc : Thread Cert.ReferenceIdeal.nD Cert.ReferenceIdeal.τ).loc Cert.ReferenceIdeal.main_arg5)) ∧ Cert.Spec.AllReal (m' (((0 : Dev Cert.ReferenceIdeal.nD).tc : Thread Cert.ReferenceIdeal.nD Cert.ReferenceIdeal.τ).loc Cert.ReferenceIdeal.main_arg6))
      ∧ Cert.Spec.AllReal (m' (((0 : Dev Cert.ReferenceIdeal.nD).tc : Thread Cert.ReferenceIdeal.nD Cert.ReferenceIdeal.τ).loc Cert.ReferenceIdeal.main_arg7)) := by
  obtain ⟨hx, -, -, -, hwq, hwqr, hwkr, hwo⟩ := Cert.Finite.allReal_of_pre _ _ _ _ _ _ _ _ (hpre 0)
  obtain ⟨h0, -, -, -, h4, h5, h6, h7⟩ := hagree 0
  rw [h0] at hx; rw [h4] at hwq; rw [h5] at hwqr; rw [h6] at hwkr; rw [h7] at hwo
  exact ⟨hx, hwq, hwqr, hwkr, hwo⟩

/-- The three arrays cut in halves: every device's half is real, and the halves cover the array. -/
theorem allReal_cut [Cert.Pre_finite_inputs_Kernel.Facts] (hpre : ∀ c : Dev Cert.KernelIdeal.nD,
      Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) :
    Cert.Spec.AllReal (m' (((0 : Dev Cert.ReferenceIdeal.nD).tc : Thread Cert.ReferenceIdeal.nD Cert.ReferenceIdeal.τ).loc Cert.ReferenceIdeal.main_arg1)) ∧ Cert.Spec.AllReal (m' (((0 : Dev Cert.ReferenceIdeal.nD).tc : Thread Cert.ReferenceIdeal.nD Cert.ReferenceIdeal.τ).loc Cert.ReferenceIdeal.main_arg2)) ∧ Cert.Spec.AllReal (m' (((0 : Dev Cert.ReferenceIdeal.nD).tc : Thread Cert.ReferenceIdeal.nD Cert.ReferenceIdeal.τ).loc Cert.ReferenceIdeal.main_arg3)) := by
  refine ⟨Cert.Finite.allReal_whole_cols _ fun c' => ?_, Cert.Finite.allReal_whole_rows _ fun c' => ?_,
    Cert.Finite.allReal_whole_rows _ fun c' => ?_⟩
  · have := (Cert.Finite.allReal_of_pre _ _ _ _ _ _ _ _ (hpre c')).2.1; rwa [(hagree c').2.1] at this
  · have := (Cert.Finite.allReal_of_pre _ _ _ _ _ _ _ _ (hpre c')).2.2.1; rwa [(hagree c').2.2.1] at this
  · have := (Cert.Finite.allReal_of_pre _ _ _ _ _ _ _ _ (hpre c')).2.2.2.1; rwa [(hagree c').2.2.2.1] at this

/-! ## The join -/

/-- A device's result is the one term of its own blocks and its partner's pieces, at the reference's arrays. -/
theorem outOf_at_reference (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) (c : Dev Cert.KernelIdeal.nD) :
    Cert.KernelIdeal.Proto.outOf m c = Cert.KernelIdeal.Out.result (F := Ideal) (m' (((0 : Dev Cert.ReferenceIdeal.nD).tc : Thread Cert.ReferenceIdeal.nD Cert.ReferenceIdeal.τ).loc Cert.ReferenceIdeal.main_arg0)) (Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))) (Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))) (Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7))
        (Cert.KernelIdeal.Out.latentHalf (F := Ideal) (m' (((0 : Dev Cert.ReferenceIdeal.nD).tc : Thread Cert.ReferenceIdeal.nD Cert.ReferenceIdeal.τ).loc Cert.ReferenceIdeal.main_arg0)) (Layout.blockN ⟨2, ![1024, 64]⟩ ⟨2, ![1024, 128]⟩ (Layout.meshBlock [2, 2, 4] ![[], [1]] (Cert.KernelIdeal.Out.partner c)) (m' (((0 : Dev Cert.ReferenceIdeal.nD).tc : Thread Cert.ReferenceIdeal.nD Cert.ReferenceIdeal.τ).loc Cert.ReferenceIdeal.main_arg1))))
        (Cert.KernelIdeal.Out.ukHalf (F := Ideal) (Layout.blockN ⟨2, ![64, 1024]⟩ ⟨2, ![128, 1024]⟩ (Layout.meshBlock [2, 2, 4] ![[1], []] (Cert.KernelIdeal.Out.partner c)) (m' (((0 : Dev Cert.ReferenceIdeal.nD).tc : Thread Cert.ReferenceIdeal.nD Cert.ReferenceIdeal.τ).loc Cert.ReferenceIdeal.main_arg2))))
        (Cert.KernelIdeal.Out.uvHalf (F := Ideal) (Layout.blockN ⟨2, ![64, 1024]⟩ ⟨2, ![128, 1024]⟩ (Layout.meshBlock [2, 2, 4] ![[1], []] (Cert.KernelIdeal.Out.partner c)) (m' (((0 : Dev Cert.ReferenceIdeal.nD).tc : Thread Cert.ReferenceIdeal.nD Cert.ReferenceIdeal.τ).loc Cert.ReferenceIdeal.main_arg3)))) := by
  obtain ⟨h0, h1, h2, h3, h4, h5, h6, h7⟩ := hagree c
  obtain ⟨p0, p1, p2, p3, -, -, -, -⟩ := hagree (Cert.KernelIdeal.Out.partner c)
  unfold Proto.outOf Proto.latOf Proto.ukOf Proto.uvOf
  simp only [a0_eq, a1_eq, a2_eq, a3_eq, a4_eq, a5_eq, a6_eq, a7_eq]
  rw [h0, h1, h2, h3, h4, h5, h6, h7, p0, p1, p2, p3]

/-- That term is the reference's result at every index: both are the specification. -/
theorem result_at_reference (r0 : Cert.Spec.AllReal (m' (((0 : Dev Cert.ReferenceIdeal.nD).tc : Thread Cert.ReferenceIdeal.nD Cert.ReferenceIdeal.τ).loc Cert.ReferenceIdeal.main_arg0))) (r1 : Cert.Spec.AllReal (m' (((0 : Dev Cert.ReferenceIdeal.nD).tc : Thread Cert.ReferenceIdeal.nD Cert.ReferenceIdeal.τ).loc Cert.ReferenceIdeal.main_arg1))) (r2 : Cert.Spec.AllReal (m' (((0 : Dev Cert.ReferenceIdeal.nD).tc : Thread Cert.ReferenceIdeal.nD Cert.ReferenceIdeal.τ).loc Cert.ReferenceIdeal.main_arg2))) (r3 : Cert.Spec.AllReal (m' (((0 : Dev Cert.ReferenceIdeal.nD).tc : Thread Cert.ReferenceIdeal.nD Cert.ReferenceIdeal.τ).loc Cert.ReferenceIdeal.main_arg3))) (r4 : Cert.Spec.AllReal (m' (((0 : Dev Cert.ReferenceIdeal.nD).tc : Thread Cert.ReferenceIdeal.nD Cert.ReferenceIdeal.τ).loc Cert.ReferenceIdeal.main_arg4))) (r5 : Cert.Spec.AllReal (m' (((0 : Dev Cert.ReferenceIdeal.nD).tc : Thread Cert.ReferenceIdeal.nD Cert.ReferenceIdeal.τ).loc Cert.ReferenceIdeal.main_arg5))) (r6 : Cert.Spec.AllReal (m' (((0 : Dev Cert.ReferenceIdeal.nD).tc : Thread Cert.ReferenceIdeal.nD Cert.ReferenceIdeal.τ).loc Cert.ReferenceIdeal.main_arg6))) (r7 : Cert.Spec.AllReal (m' (((0 : Dev Cert.ReferenceIdeal.nD).tc : Thread Cert.ReferenceIdeal.nD Cert.ReferenceIdeal.τ).loc Cert.ReferenceIdeal.main_arg7))) (c : Dev Cert.KernelIdeal.nD) (b : Fin 2) (s : Fin 256) (n : Fin 1024) :
    (Cert.KernelIdeal.Out.result (F := Ideal) (m' (((0 : Dev Cert.ReferenceIdeal.nD).tc : Thread Cert.ReferenceIdeal.nD Cert.ReferenceIdeal.τ).loc Cert.ReferenceIdeal.main_arg0)) (Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))) (Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))) (Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7))
        (Cert.KernelIdeal.Out.latentHalf (F := Ideal) (m' (((0 : Dev Cert.ReferenceIdeal.nD).tc : Thread Cert.ReferenceIdeal.nD Cert.ReferenceIdeal.τ).loc Cert.ReferenceIdeal.main_arg0)) (Layout.blockN ⟨2, ![1024, 64]⟩ ⟨2, ![1024, 128]⟩ (Layout.meshBlock [2, 2, 4] ![[], [1]] (Cert.KernelIdeal.Out.partner c)) (m' (((0 : Dev Cert.ReferenceIdeal.nD).tc : Thread Cert.ReferenceIdeal.nD Cert.ReferenceIdeal.τ).loc Cert.ReferenceIdeal.main_arg1))))
        (Cert.KernelIdeal.Out.ukHalf (F := Ideal) (Layout.blockN ⟨2, ![64, 1024]⟩ ⟨2, ![128, 1024]⟩ (Layout.meshBlock [2, 2, 4] ![[1], []] (Cert.KernelIdeal.Out.partner c)) (m' (((0 : Dev Cert.ReferenceIdeal.nD).tc : Thread Cert.ReferenceIdeal.nD Cert.ReferenceIdeal.τ).loc Cert.ReferenceIdeal.main_arg2))))
        (Cert.KernelIdeal.Out.uvHalf (F := Ideal) (Layout.blockN ⟨2, ![64, 1024]⟩ ⟨2, ![128, 1024]⟩ (Layout.meshBlock [2, 2, 4] ![[1], []] (Cert.KernelIdeal.Out.partner c)) (m' (((0 : Dev Cert.ReferenceIdeal.nD).tc : Thread Cert.ReferenceIdeal.nD Cert.ReferenceIdeal.τ).loc Cert.ReferenceIdeal.main_arg3))))) (ix3 b s n)
      = Cert.ReferenceIdeal.Read.val_main_v29 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) (ix3 b s n) :=
  (Cert.KernelValue.result_eq_spec c (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) b s n).trans
    (Cert.ReferenceValue.reference_eq_spec (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) r0 r1 r2 r3 r4 r5 r6 r7 b s n).symm

/-- Every device's result block is the reference's result. -/
theorem outOf_eq_reference [Cert.Pre_finite_inputs_Kernel.Facts] (hpre : ∀ c : Dev Cert.KernelIdeal.nD,
      Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) (c : Dev Cert.KernelIdeal.nD) :
    Cert.KernelIdeal.Proto.outOf m c
      = Cert.ReferenceIdeal.Read.val_main_v29 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) := by
  obtain ⟨r0, r4, r5, r6, r7⟩ := allReal_whole m m' hpre hagree
  obtain ⟨r1, r2, r3⟩ := allReal_cut m m' hpre hagree
  have key : ∀ i : (⟨3, ![2, 256, 1024]⟩ : Shape).Idx,
      (Cert.KernelIdeal.Out.result (F := Ideal) (m' (((0 : Dev Cert.ReferenceIdeal.nD).tc : Thread Cert.ReferenceIdeal.nD Cert.ReferenceIdeal.τ).loc Cert.ReferenceIdeal.main_arg0)) (Layout.blockN ⟨2, ![1024, 64]⟩ ⟨2, ![1024, 128]⟩ (Layout.meshBlock [2, 2, 4] ![[], [1]] c) (m' (((0 : Dev Cert.ReferenceIdeal.nD).tc : Thread Cert.ReferenceIdeal.nD Cert.ReferenceIdeal.τ).loc Cert.ReferenceIdeal.main_arg1))) (Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg2))) (Layout.blockN ⟨2, ![64, 1024]⟩ ⟨2, ![128, 1024]⟩ (Layout.meshBlock [2, 2, 4] ![[1], []] c) (m' (((0 : Dev Cert.ReferenceIdeal.nD).tc : Thread Cert.ReferenceIdeal.nD Cert.ReferenceIdeal.τ).loc Cert.ReferenceIdeal.main_arg3))) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7))
        (Cert.KernelIdeal.Out.latentHalf (F := Ideal) (m' (((0 : Dev Cert.ReferenceIdeal.nD).tc : Thread Cert.ReferenceIdeal.nD Cert.ReferenceIdeal.τ).loc Cert.ReferenceIdeal.main_arg0)) (Layout.blockN ⟨2, ![1024, 64]⟩ ⟨2, ![1024, 128]⟩ (Layout.meshBlock [2, 2, 4] ![[], [1]] (Cert.KernelIdeal.Out.partner c)) (m' (((0 : Dev Cert.ReferenceIdeal.nD).tc : Thread Cert.ReferenceIdeal.nD Cert.ReferenceIdeal.τ).loc Cert.ReferenceIdeal.main_arg1))))
        (Cert.KernelIdeal.Out.ukHalf (F := Ideal) (Layout.blockN ⟨2, ![64, 1024]⟩ ⟨2, ![128, 1024]⟩ (Layout.meshBlock [2, 2, 4] ![[1], []] (Cert.KernelIdeal.Out.partner c)) (m' (((0 : Dev Cert.ReferenceIdeal.nD).tc : Thread Cert.ReferenceIdeal.nD Cert.ReferenceIdeal.τ).loc Cert.ReferenceIdeal.main_arg2))))
        (Cert.KernelIdeal.Out.uvHalf (F := Ideal) (Layout.blockN ⟨2, ![64, 1024]⟩ ⟨2, ![128, 1024]⟩ (Layout.meshBlock [2, 2, 4] ![[1], []] (Cert.KernelIdeal.Out.partner c)) (m' (((0 : Dev Cert.ReferenceIdeal.nD).tc : Thread Cert.ReferenceIdeal.nD Cert.ReferenceIdeal.τ).loc Cert.ReferenceIdeal.main_arg3))))) i
        = Cert.ReferenceIdeal.Read.val_main_v29 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) (m' (((0 : Dev Cert.ReferenceIdeal.nD).tc : Thread Cert.ReferenceIdeal.nD Cert.ReferenceIdeal.τ).loc Cert.ReferenceIdeal.main_arg7)) i := fun i => by
    obtain ⟨b, s, n, rfl⟩ : ∃ (b : Fin 2) (s : Fin 256) (n : Fin 1024), i = ix3 b s n := ⟨i 0, i 1, i 2, eq_ix3 i⟩
    exact result_at_reference m' r0 r1 r2 r3 r4 r5 r6 r7 c b s n
  exact (outOf_at_reference m m' hagree c).trans (funext key)

end Reference

end Cert.KernelIdeal.Join

end
-- ==== Proof.lean ====
/-
  Multi-head latent attention on a mesh of sixteen devices against the same attention on one device.

  The mesh is x = 2, y = 2, z = 4. Every device holds the activations x and the projections Wq, Wqr, Wkr, Wo whole; the
  latent down-projection Wdkv is cut by columns and the two up-projections Wuk, Wuv by rows along y, so the two devices
  that differ only in y hold the two halves of each. A device computes its 64 columns of the latent x · Wdkv, sends them
  and its rows of Wuk and Wuv to that partner, receives the partner's, and then computes the whole attention by itself:
  the latent axis of 128 it contracts over is its own 64 then the partner's 64, on both factors alike, so every key and
  value is the full sum whichever half came first. Queries and keys carry a second, position part of 32 coordinates per
  head; a score is the sum of the two inner products, scaled by the one f32 word both programs carry. The kernel weighs
  with exp (score · scale) and divides the weighted sum of the values by the sum of the weights; the reference subtracts
  the row maximum first and normalises before the weighted sum. Over the reals these agree: the maximum is a real, so
  exp (a - m) = exp a · exp (-m) with exp (-m) a nonzero real that cancels, and a positive real divisor moves across a
  finite sum. That law needs every score to be a real number, which is what the precondition (every input entry finite)
  gives; nothing else uses it.

  The three frames: both kernel programs run to the end on every device with nothing faulting and leave their arguments
  as they were — the partners greet each other on the barrier semaphore before either writes into the other's landing
  buffers, and no wait can block for ever because a device waits on its barrier cell while it still owes only the
  partner's receive cells, which stand above it —; the reference is a straight line of host operations.
-/
import proofs.«900378_g7700000000000379_dist_mla_v7x_xyz2x2x4_y_b2_s256_d1024_dc64_f32_1_alg».proof.Defs
import proofs.«900378_g7700000000000379_dist_mla_v7x_xyz2x2x4_y_b2_s256_d1024_dc64_f32_1_alg».proof.Proof.Gen.Kernel
import proofs.«900378_g7700000000000379_dist_mla_v7x_xyz2x2x4_y_b2_s256_d1024_dc64_f32_1_alg».proof.Proof.Gen.Kernel.Skeleton
import proofs.«900378_g7700000000000379_dist_mla_v7x_xyz2x2x4_y_b2_s256_d1024_dc64_f32_1_alg».proof.Proof.Gen.Kernel.Launch
import proofs.«900378_g7700000000000379_dist_mla_v7x_xyz2x2x4_y_b2_s256_d1024_dc64_f32_1_alg».proof.Proof.Gen.Kernel.Points
import proofs.«900378_g7700000000000379_dist_mla_v7x_xyz2x2x4_y_b2_s256_d1024_dc64_f32_1_alg».proof.Proof.Gen.Kernel.Frame
import proofs.«900378_g7700000000000379_dist_mla_v7x_xyz2x2x4_y_b2_s256_d1024_dc64_f32_1_alg».proof.Proof.Gen.KernelIdeal
import proofs.«900378_g7700000000000379_dist_mla_v7x_xyz2x2x4_y_b2_s256_d1024_dc64_f32_1_alg».proof.Proof.Gen.KernelIdeal.Skeleton
import proofs.«900378_g7700000000000379_dist_mla_v7x_xyz2x2x4_y_b2_s256_d1024_dc64_f32_1_alg».proof.Proof.Gen.KernelIdeal.Launch
import proofs.«900378_g7700000000000379_dist_mla_v7x_xyz2x2x4_y_b2_s256_d1024_dc64_f32_1_alg».proof.Proof.Gen.KernelIdeal.Points
import proofs.«900378_g7700000000000379_dist_mla_v7x_xyz2x2x4_y_b2_s256_d1024_dc64_f32_1_alg».proof.Proof.Gen.KernelIdeal.Frame
import proofs.«900378_g7700000000000379_dist_mla_v7x_xyz2x2x4_y_b2_s256_d1024_dc64_f32_1_alg».proof.Proof.Gen.ReferenceIdeal
import proofs.«900378_g7700000000000379_dist_mla_v7x_xyz2x2x4_y_b2_s256_d1024_dc64_f32_1_alg».proof.Proof.Gen.Pre_finite_inputs_Kernel
import proofs.«900378_g7700000000000379_dist_mla_v7x_xyz2x2x4_y_b2_s256_d1024_dc64_f32_1_alg».proof.Proof.Gen.Pre_finite_inputs_ReferenceIdeal
import proofs.«900378_g7700000000000379_dist_mla_v7x_xyz2x2x4_y_b2_s256_d1024_dc64_f32_1_alg».proof.Proof.Gen.ReferenceIdeal.Run
import proofs.«900378_g7700000000000379_dist_mla_v7x_xyz2x2x4_y_b2_s256_d1024_dc64_f32_1_alg».proof.Proof.Gen.ReferenceIdeal.Read
import proofs.«900378_g7700000000000379_dist_mla_v7x_xyz2x2x4_y_b2_s256_d1024_dc64_f32_1_alg».proof.Proof.KernelFrame
import proofs.«900378_g7700000000000379_dist_mla_v7x_xyz2x2x4_y_b2_s256_d1024_dc64_f32_1_alg».proof.Proof.KernelIdealFrame
import proofs.«900378_g7700000000000379_dist_mla_v7x_xyz2x2x4_y_b2_s256_d1024_dc64_f32_1_alg».proof.Proof.KernelIdealJoin
import Idealize.ShloMosaic.Adequacy
import Idealize.ShloMosaic.Init

noncomputable section

namespace Cert.Proof

open Idealize.ShloMosaic Idealize.ShloMosaic.TcCoe Idealize.SL.Sem

/-- The word-level kernel runs on every device and leaves its arguments as they were. -/
theorem frame_kernel : Cert.frame_Kernel := fun m ρ _ =>
  (θ_run (Cert.Kernel.defs (F := Bits)) _ _).mono (fun _ h c => (h c).2) (Cert.Kernel.Proto.run (F := Bits) m ρ)

/-- So does its reading over the extended reals. -/
theorem frame_kernelIdeal : Cert.frame_KernelIdeal := fun m ρ _ =>
  (θ_run (Cert.KernelIdeal.defs (F := Ideal)) _ _).mono (fun _ h c => (h c).2) (Cert.KernelIdeal.Proto.run (F := Ideal) m ρ)

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals every device's result is the reference's: the device's result block is the attention of the
    whole arrays (its own halves and its partner's together), and the reference's last stage is the same attention. -/
theorem algebraic : Cert.algebraic_KernelIdeal_ReferenceIdeal := by
  intro m ρ m' ρ' hpre hagree
  refine ⟨_, (θ_run (Cert.KernelIdeal.defs (F := Ideal)) _ _).mono
    (fun _ h c => ⟨(h c).1.trans (Cert.KernelIdeal.Join.outOf_eq_reference m m' hpre hagree c), (h c).2⟩)
    (Cert.KernelIdeal.Proto.run (F := Ideal) m ρ), ?_⟩
  exact (θ_run Cert.ReferenceIdeal.defs _ _).mono
    (fun _ h => ⟨(h 0).1.trans (Cert.ReferenceIdeal.Read.val_main_v29_eq m' 0), (h 0).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_reference, trivial, algebraic⟩

end Cert.Proof

end
